-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg8 : FVec F S64x10 .f32) (main_arg9 : FVec F S10 .f32) (main_v33 : IVec S_ 1) : IVec S_ 1 :=
  let main_v34 : FVec F S64x10 .f32 := Host.absf main_arg8
  let main_cst_12 : FVec F S_ .f32 := constant S_ .f32 0x7F800000#32
  let main_v35 : FVec F S64x10 .f32 := broadcastInDim S64x10 ![] bcast_S_S64x10 main_cst_12
  let main_v36 : IVec S64x10 1 := cmpf .olt main_v34 main_v35
  let main_c_13 : IVec S_ 1 := constantI S_ 1 1#1
  let main_v37 : IVec S_ 1 := (fun x v => Host.reduce IntOp.andi x v reducesTo_S64x10_S_d0_1 h_S_) main_v36 main_c_13
  let main_v38 : IVec S_ 1 := andi main_v33 main_v37
  let main_v39 : FVec F S10 .f32 := Host.absf main_arg9
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg5 : FVec F S64 .f32) (main_arg6 : FVec F S64x64 .f32) (main_arg7 : FVec F S64 .f32) (main_arg8 : FVec F S64x10 .f32) (main_arg9 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1200000 32) (main_arg2 : FVec F S64x64 .f32) (main_arg3 : FVec F S64 .f32) (main_arg4 : FVec F S64x64 .f32) (main_arg5 : FVec F S64 .f32) (main_arg6 : FVec F S64x64 .f32) (main_arg7 : FVec F S64 .f32) (main_arg8 : FVec F S64x10 .f32) (main_arg9 : FVec F S10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x1200000 : Shape := ⟨2, ![1, 1200000]⟩
abbrev S1200000 : Shape := ⟨1, ![1200000]⟩
abbrev S100000 : Shape := ⟨1, ![100000]⟩
abbrev S1300000 : Shape := ⟨1, ![1300000]⟩
abbrev S_ : Shape := ⟨0, ![]⟩
abbrev S1300000x1 : Shape := ⟨2, ![1300000, 1]⟩
abbrev S10000x64 : Shape := ⟨2, ![10000, 64]⟩
abbrev S1300000x64 : Shape := ⟨2, ![1300000, 64]⟩
abbrev S1x64 : Shape := ⟨2, ![1, 64]⟩
abbrev S1x10 : Shape := ⟨2, ![1, 10]⟩

abbrev nBuf : Space → Nat
  | .hbm => 107
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x10, .f32⟩
  | .hbm, ⟨9, _⟩ => ⟨S10, .f32⟩
  | .hbm, ⟨10, _⟩ => ⟨S1x1200000, .i32⟩
  | .hbm, ⟨11, _⟩ => ⟨S1200000, .i32⟩
  | .hbm, ⟨12, _⟩ => ⟨S100000, .i32⟩
  | .hbm, ⟨13, _⟩ => ⟨S1300000, .i32⟩
  | .hbm, ⟨14, _⟩ => ⟨S1x1200000, .i32⟩
  | .hbm, ⟨15, _⟩ => ⟨S1200000, .i32⟩
  | .hbm, ⟨16, _⟩ => ⟨S100000, .i32⟩
  | .hbm, ⟨17, _⟩ => ⟨S1300000, .i32⟩
  | .hbm, ⟨18, _⟩ => ⟨S_, .f32⟩
  | .hbm, ⟨19, _⟩ => ⟨S1300000, .f32⟩
  | .hbm, ⟨20, _⟩ => ⟨S_, .f32⟩
  | .hbm, ⟨21, _⟩ => ⟨S100000, .f32⟩
  | .hbm, ⟨22, _⟩ => ⟨S1300000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1300000, .i32⟩
  | .hbm, ⟨34, _⟩ => ⟨S1300000, .i1⟩
  | .hbm, ⟨35, _⟩ => ⟨S_, .i32⟩
  | .hbm, ⟨36, _⟩ => ⟨S1300000, .i32⟩
  | .hbm, ⟨37, _⟩ => ⟨S1300000, .i32⟩
  | .hbm, ⟨38, _⟩ => ⟨S1300000, .i32⟩
  | .hbm, ⟨39, _⟩ => ⟨S1300000x1, .i32⟩
  | .hbm, ⟨40, _⟩ => ⟨S1300000, .f32⟩
  | .hbm, ⟨41, _⟩ => ⟨S_, .i32⟩
  | .hbm, ⟨42, _⟩ => ⟨S1300000, .i32⟩
  | .hbm, ⟨43, _⟩ => ⟨S1300000, .i1⟩
  | .hbm, ⟨44, _⟩ => ⟨S_, .i32⟩
  | .hbm, ⟨45, _⟩ => ⟨S1300000, .i32⟩
  | .hbm, ⟨46, _⟩ => ⟨S1300000, .i32⟩
  | .hbm, ⟨47, _⟩ => ⟨S1300000, .i32⟩
  | .hbm, ⟨48, _⟩ => ⟨S1300000x1, .i32⟩
  | .hbm, ⟨49, _⟩ => ⟨S1300000, .f32⟩
  | .hbm, ⟨50, _⟩ => ⟨S1300000, .f32⟩
  | .hbm, ⟨51, _⟩ => ⟨S100000x64, .f32⟩
  | .hbm, ⟨52, _⟩ => ⟨S_, .i32⟩
  | .hbm, ⟨53, _⟩ => ⟨S1300000, .i32⟩
  | .hbm, ⟨54, _⟩ => ⟨S1300000, .i1⟩
  | .hbm, ⟨55, _⟩ => ⟨S_, .i32⟩
  | .hbm, ⟨56, _⟩ => ⟨S1300000, .i32⟩
  | .hbm, ⟨57, _⟩ => ⟨S1300000, .i32⟩
  | .hbm, ⟨58, _⟩ => ⟨S1300000, .i32⟩
  | .hbm, ⟨59, _⟩ => ⟨S1300000x1, .i32⟩
  | .hbm, ⟨60, _⟩ => ⟨S1300000x64, .f32⟩
  | .hbm, ⟨61, _⟩ => ⟨S1300000x1, .f32⟩
  | .hbm, ⟨62, _⟩ => ⟨S1300000x64, .f32⟩
  | .hbm, ⟨63, _⟩ => ⟨S1300000x64, .f32⟩
  | .hbm, ⟨64, _⟩ => ⟨S_, .f32⟩
  | .hbm, ⟨65, _⟩ => ⟨S100000x64, .f32⟩
  | .hbm, ⟨66, _⟩ => ⟨S1300000x1, .i32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S_, .i32⟩
  | .hbm, ⟨71, _⟩ => ⟨S1300000, .i32⟩
  | .hbm, ⟨72, _⟩ => ⟨S1300000, .i1⟩
  | .hbm, ⟨73, _⟩ => ⟨S_, .i32⟩
  | .hbm, ⟨74, _⟩ => ⟨S1300000, .i32⟩
  | .hbm, ⟨75, _⟩ => ⟨S1300000, .i32⟩
  | .hbm, ⟨76, _⟩ => ⟨S1300000, .i32⟩
  | .hbm, ⟨77, _⟩ => ⟨S1300000x1, .i32⟩
  | .hbm, ⟨78, _⟩ => ⟨S1300000x64, .f32⟩
  | .hbm, ⟨79, _⟩ => ⟨S1300000x1, .f32⟩
  | .hbm, ⟨80, _⟩ => ⟨S1300000x64, .f32⟩
  | .hbm, ⟨81, _⟩ => ⟨S1300000x64, .f32⟩
  | .hbm, ⟨82, _⟩ => ⟨S_, .f32⟩
  | .hbm, ⟨83, _⟩ => ⟨S100000x64, .f32⟩
  | .hbm, ⟨84, _⟩ => ⟨S1300000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S_, .i32⟩
  | .hbm, ⟨89, _⟩ => ⟨S1300000, .i32⟩
  | .hbm, ⟨90, _⟩ => ⟨S1300000, .i1⟩
  | .hbm, ⟨91, _⟩ => ⟨S_, .i32⟩
  | .hbm, ⟨92, _⟩ => ⟨S1300000, .i32⟩
  | .hbm, ⟨93, _⟩ => ⟨S1300000, .i32⟩
  | .hbm, ⟨94, _⟩ => ⟨S1300000, .i32⟩
  | .hbm, ⟨95, _⟩ => ⟨S1300000x1, .i32⟩
  | .hbm, ⟨96, _⟩ => ⟨S1300000x64, .f32⟩
  | .hbm, ⟨97, _⟩ => ⟨S1300000x1, .f32⟩
  | .hbm, ⟨98, _⟩ => ⟨S1300000x64, .f32⟩
  | .hbm, ⟨99, _⟩ => ⟨S1300000x64, .f32⟩
  | .hbm, ⟨100, _⟩ => ⟨S_, .f32⟩
  | .hbm, ⟨101, _⟩ => ⟨S100000x64, .f32⟩
  | .hbm, ⟨102, _⟩ => ⟨S1300000x1, .i32⟩
  | .hbm, ⟨103, _⟩ => ⟨S100000x64, .f32⟩
  | .hbm, ⟨104, _⟩ => ⟨S1x64, .f32⟩
  | .hbm, ⟨105, _⟩ => ⟨S1x10, .f32⟩
  | .hbm, ⟨106, _⟩ => ⟨S1x10, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S1x64, .f32⟩
  | .local _ .vmem, ⟨20, _⟩ => ⟨S64x10, .f32⟩
  | .local _ .vmem, ⟨21, _⟩ => ⟨S1x10, .f32⟩
  | .local _ .vmem, ⟨22, _⟩ => ⟨S1x10, .f32⟩
  | .local _ .vmem, ⟨23, _⟩ => ⟨S1x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_12 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_14 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v16 : BitVec 1 := Scalar.cmpi .eq arg0 c9_i32
  let v17 : BitVec 32 := Scalar.extui v16
  let c0_i32_8 : BitVec 32 := 0#32
  let v18 : BitVec 1 := Scalar.cmpi .ne v17 c0_i32_8
  v18

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x10 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S10_S1x10 : S10.ShapeCasts S1x10
  reduces_S10000x64_S64 : S10000x64.Reduces [0] S64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S10000x64_S64x64_S10000x64_1_0_0_1_n_n_wf : DotDims.WF S10000x64 S64x64 S10000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S1x64_S64x10_S1x10_1_0_0_1_n_n_wf : DotDims.WF S1x64 S64x10 S1x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x10.size a ≤ S64x10.size a
  hwx3_2 : ∀ i : grid3.Coords, EltTy.bits .f32 = 32 ∨ (Rect.block (s := S64x10) S64x10.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x10.size a ≤ S1x10.size a
  hwx3_3 : ∀ i : grid3.Coords, EltTy.bits .f32 = 32 ∨ (Rect.block (s := S1x10) S1x10.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x10.size a ≤ S1x10.size a
  hwx3_4 : ∀ i : grid3.Coords, EltTy.bits .f32 = 32 ∨ (Rect.block (s := S1x10) S1x10.size (cc3_transform_4 i) (hinb3_4 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S1x64_S64x10_S1x10_1_0_0_1_n_n : DotDims S1x64 S64x10 S1x10 where
  lhsContracting := [1]
  rhsContracting := [0]
  lhsNonContracting := [0]
  rhsNonContracting := [1]
  lhsBatch := []
  rhsBatch := []
  wf := dot_S1x64_S64x10_S1x10_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v74) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S64x10.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v76) S1x10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v77) S1x10.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x1200000 : Shape := ⟨2, ![1, 1200000]⟩
abbrev S1200000 : Shape := ⟨1, ![1200000]⟩
abbrev S100000 : Shape := ⟨1, ![100000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S1x64 : Shape := ⟨2, ![1, 64]⟩
abbrev S1x10 : Shape := ⟨2, ![1, 10]⟩

abbrev nBuf : Space → Nat
  | .hbm => 123
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x10, .f32⟩
  | .hbm, ⟨9, _⟩ => ⟨S10, .f32⟩
  | .hbm, ⟨10, _⟩ => ⟨S1x1200000, .i32⟩
  | .hbm, ⟨11, _⟩ => ⟨S1200000, .i32⟩
  | .hbm, ⟨12, _⟩ => ⟨S100000, .i32⟩
  | .hbm, ⟨13, _⟩ => ⟨S1300000, .i32⟩
  | .hbm, ⟨14, _⟩ => ⟨S1x1200000, .i32⟩
  | .hbm, ⟨15, _⟩ => ⟨S1200000, .i32⟩
  | .hbm, ⟨16, _⟩ => ⟨S100000, .i32⟩
  | .hbm, ⟨17, _⟩ => ⟨S1300000, .i32⟩
  | .hbm, ⟨18, _⟩ => ⟨S_, .f32⟩
  | .hbm, ⟨19, _⟩ => ⟨S1300000, .f32⟩
  | .hbm, ⟨20, _⟩ => ⟨S_, .f32⟩
  | .hbm, ⟨21, _⟩ => ⟨S100000, .f32⟩
  | .hbm, ⟨22, _⟩ => ⟨S1300000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1300000, .i32⟩
  | .hbm, ⟨34, _⟩ => ⟨S1300000, .i1⟩
  | .hbm, ⟨35, _⟩ => ⟨S_, .i32⟩
  | .hbm, ⟨36, _⟩ => ⟨S1300000, .i32⟩
  | .hbm, ⟨37, _⟩ => ⟨S1300000, .i32⟩
  | .hbm, ⟨38, _⟩ => ⟨S1300000, .i32⟩
  | .hbm, ⟨39, _⟩ => ⟨S1300000x1, .i32⟩
  | .hbm, ⟨40, _⟩ => ⟨S1300000, .f32⟩
  | .hbm, ⟨41, _⟩ => ⟨S_, .i32⟩
  | .hbm, ⟨42, _⟩ => ⟨S1300000, .i32⟩
  | .hbm, ⟨43, _⟩ => ⟨S1300000, .i1⟩
  | .hbm, ⟨44, _⟩ => ⟨S_, .i32⟩
  | .hbm, ⟨45, _⟩ => ⟨S1300000, .i32⟩
  | .hbm, ⟨46, _⟩ => ⟨S1300000, .i32⟩
  | .hbm, ⟨47, _⟩ => ⟨S1300000, .i32⟩
  | .hbm, ⟨48, _⟩ => ⟨S1300000x1, .i32⟩
  | .hbm, ⟨49, _⟩ => ⟨S1300000, .f32⟩
  | .hbm, ⟨50, _⟩ => ⟨S1300000, .f32⟩
  | .hbm, ⟨51, _⟩ => ⟨S100000x64, .f32⟩
  | .hbm, ⟨52, _⟩ => ⟨S_, .i32⟩
  | .hbm, ⟨53, _⟩ => ⟨S1300000, .i32⟩
  | .hbm, ⟨54, _⟩ => ⟨S1300000, .i1⟩
  | .hbm, ⟨55, _⟩ => ⟨S_, .i32⟩
  | .hbm, ⟨56, _⟩ => ⟨S1300000, .i32⟩
  | .hbm, ⟨57, _⟩ => ⟨S1300000, .i32⟩
  | .hbm, ⟨58, _⟩ => ⟨S1300000, .i32⟩
  | .hbm, ⟨59, _⟩ => ⟨S1300000x1, .i32⟩
  | .hbm, ⟨60, _⟩ => ⟨S1300000x64, .f32⟩
  | .hbm, ⟨61, _⟩ => ⟨S1300000x1, .f32⟩
  | .hbm, ⟨62, _⟩ => ⟨S1300000x64, .f32⟩
  | .hbm, ⟨63, _⟩ => ⟨S1300000x64, .f32⟩
  | .hbm, ⟨64, _⟩ => ⟨S_, .f32⟩
  | .hbm, ⟨65, _⟩ => ⟨S100000x64, .f32⟩
  | .hbm, ⟨66, _⟩ => ⟨S1300000x1, .i32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S_, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S_, .i32⟩
  | .hbm, ⟨76, _⟩ => ⟨S1300000, .i32⟩
  | .hbm, ⟨77, _⟩ => ⟨S1300000, .i1⟩
  | .hbm, ⟨78, _⟩ => ⟨S_, .i32⟩
  | .hbm, ⟨79, _⟩ => ⟨S1300000, .i32⟩
  | .hbm, ⟨80, _⟩ => ⟨S1300000, .i32⟩
  | .hbm, ⟨81, _⟩ => ⟨S1300000, .i32⟩
  | .hbm, ⟨82, _⟩ => ⟨S1300000x1, .i32⟩
  | .hbm, ⟨83, _⟩ => ⟨S1300000x64, .f32⟩
  | .hbm, ⟨84, _⟩ => ⟨S1300000x1, .f32⟩
  | .hbm, ⟨85, _⟩ => ⟨S1300000x64, .f32⟩
  | .hbm, ⟨86, _⟩ => ⟨S1300000x64, .f32⟩
  | .hbm, ⟨87, _⟩ => ⟨S_, .f32⟩
  | .hbm, ⟨88, _⟩ => ⟨S100000x64, .f32⟩
  | .hbm, ⟨89, _⟩ => ⟨S1300000x1, .i32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S100000x64, .f32⟩
  | .hbm, ⟨94, _⟩ => ⟨S_, .f32⟩
  | .hbm, ⟨95, _⟩ => ⟨S100000x64, .f32⟩
  | .hbm, ⟨96, _⟩ => ⟨S100000x64, .f32⟩
  | .hbm, ⟨97, _⟩ => ⟨S100000x64, .f32⟩
  | .hbm, ⟨98, _⟩ => ⟨S_, .i32⟩
  | .hbm, ⟨99, _⟩ => ⟨S1300000, .i32⟩
  | .hbm, ⟨100, _⟩ => ⟨S1300000, .i1⟩
  | .hbm, ⟨101, _⟩ => ⟨S_, .i32⟩
  | .hbm, ⟨102, _⟩ => ⟨S1300000, .i32⟩
  | .hbm, ⟨103, _⟩ => ⟨S1300000, .i32⟩
  | .hbm, ⟨104, _⟩ => ⟨S1300000, .i32⟩
  | .hbm, ⟨105, _⟩ => ⟨S1300000x1, .i32⟩
  | .hbm, ⟨106, _⟩ => ⟨S1300000x64, .f32⟩
  | .hbm, ⟨107, _⟩ => ⟨S1300000x1, .f32⟩
  | .hbm, ⟨108, _⟩ => ⟨S1300000x64, .f32⟩
  | .hbm, ⟨109, _⟩ => ⟨S1300000x64, .f32⟩
  | .hbm, ⟨110, _⟩ => ⟨S_, .f32⟩
  | .hbm, ⟨111, _⟩ => ⟨S100000x64, .f32⟩
  | .hbm, ⟨112, _⟩ => ⟨S1300000x1, .i32⟩
  | .hbm, ⟨113, _⟩ => ⟨S100000x64, .f32⟩
  | .hbm, ⟨114, _⟩ => ⟨S1x64, .f32⟩
  | .hbm, ⟨115, _⟩ => ⟨S100000x64, .f32⟩
  | .hbm, ⟨116, _⟩ => ⟨S100000x64, .f32⟩
  | .hbm, ⟨117, _⟩ => ⟨S_, .f32⟩
  | .hbm, ⟨118, _⟩ => ⟨S64, .f32⟩
  | .hbm, ⟨119, _⟩ => ⟨S1x64, .f32⟩
  | .hbm, ⟨120, _⟩ => ⟨S1x10, .f32⟩
  | .hbm, ⟨121, _⟩ => ⟨S1x10, .f32⟩
  | .hbm, ⟨122, _⟩ => ⟨S1x10, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call1_cst : Ref sig .tc := ⟨.hbm, 71, rfl⟩
abbrev main_call1_v0 : Ref sig .tc := ⟨.hbm, 72, rfl⟩
abbrev main_v48 : Ref sig .tc := ⟨.hbm, 73, rfl⟩
abbrev main_v49 : Ref sig .tc := ⟨.hbm, 74, rfl⟩
abbrev main_c_9 : Ref sig .tc := ⟨.hbm, 75, rfl⟩
abbrev main_v50 : Ref sig .tc := ⟨.hbm, 76, rfl⟩
abbrev main_v51 : Ref sig .tc := ⟨.hbm, 77, rfl⟩
abbrev main_c_10 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_11 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_call2_cst : Ref sig .tc := ⟨.hbm, 94, rfl⟩
abbrev main_call2_v0 : Ref sig .tc := ⟨.hbm, 95, rfl⟩
abbrev main_v66 : Ref sig .tc := ⟨.hbm, 96, rfl⟩
abbrev main_v67 : Ref sig .tc := ⟨.hbm, 97, rfl⟩
abbrev main_c_12 : Ref sig .tc := ⟨.hbm, 98, rfl⟩
abbrev main_v68 : Ref sig .tc := ⟨.hbm, 99, rfl⟩
abbrev main_v69 : Ref sig .tc := ⟨.hbm, 100, rfl⟩
abbrev main_c_13 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_14 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_15 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S10_S1x10_1 : S10.BroadcastsInDim S1x10 (![1] : Fin 1 → Fin S1x10.rank)
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S100000x64_S64x64_S100000x64_1_0_0_1_n_n_wf : DotDims.WF S100000x64 S64x64 S100000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S1x64_S64x10_S1x10_1_0_0_1_n_n_wf : DotDims.WF S1x64 S64x10 S1x10 [1] [0] [0] [1] [] []

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S1x64_S64x10_S1x10_1_0_0_1_n_n : DotDims S1x64 S64x10 S1x10 where
  lhsContracting := [1]
  rhsContracting := [0]
  lhsNonContracting := [0]
  rhsNonContracting := [1]
  lhsBatch := []
  rhsBatch := []
  wf := dot_S1x64_S64x10_S1x10_1_0_0_1_n_n_wf

class Facts : Prop extends Facts₀ where

variable [Facts]
-- ==== Proof.BMatA.lean ====
/-
  The first tiled matrix product of the network as a pipeline region: at grid point `t` the body reads rows
  `10000·t … 10000·t + 9999` of the node features and the whole 64×64 weight and writes the product tile; every
  tile is written back at its own point, so the region's output array is the whole product, tile by tile.
-/
import proofs.«113868_j87711822119195_1_alg».proof.Proof.Gen.Kernel.Launch
import proofs.«113868_j87711822119195_1_alg».proof.Proof.Gen.Kernel.Skeleton
import proofs.«113868_j87711822119195_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.MatA

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first matmul region: one 10000-row tile of `x` times the whole 64×64 weight per grid point

The block of a window at a grid point, read off the array the region finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether it was fetched at that point or
    earlier: the block index of an unfetched window has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-tile and whole-weight rectangles the body loads and stores through. -/
abbrev rT : Rect S10000x64 := Rect.unit (s := S10000x64) ![0, 0] S10000x64.size inb_S10000x64_S10000x64_0_0
abbrev rW : Rect S64x64 := Rect.unit (s := S64x64) ![0, 0] S64x64.size inb_S64x64_S64x64_0_0

/-- What the body leaves in the output tile: its one whole-tile store of the product of the two loaded blocks. -/
def out0_2 (x0 : Vec F S10000x64 .f32) (x1 : Vec F S64x64 .f32) : Vec F S10000x64 .f32 :=
  View.canon [⟨rT, k0_pay1 (View.ld x0 rT) (View.ld x1 rW)⟩]

/-- The one store is the whole tile, so it covers every index of it. -/
theorem cover_tile (p0 : Vec F S10000x64 .f32) (y : S10000x64.Idx) :
    ∃ pc ∈ ([⟨rT, p0⟩] : List (View.Piece (Elt F) S10000x64 .f32)), y ∈ pc.1.set :=
  View.cover_of_tiled [⟨rT, p0⟩] S10000x64.size (by rfl) y

set_option maxHeartbeats 1000000 in
/-- The body on whole staging buffers — the inputs at known contents, the output at anything — ends with the inputs
    as they were and the output tile at `out0_2` of the inputs. -/
theorem sound_kernel0 (c : Dev nD) (E : Set ℕ) (i : grid0.Coords) (arg1 : Memref sig .tc .vmem S10000x64 .f32) (harg1 : arg1.IsWhole) (arg2 : Memref sig .tc .vmem S64x64 .f32) (harg2 : arg2.IsWhole) (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_tile _)

/-- The proof data of the first matmul's pipeline: arrays as the region finds them; after the body each input buffer
    at its block and the output buffer at the product of the two input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at a point, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.MatA

end
-- ==== Proof.BMatB.lean ====
/-
  A bias–relu–matmul layer of the network as a pipeline region: at grid point `t` the body reads rows
  `10000·t … 10000·t + 9999` of the aggregated features, adds the bias row, clips at zero, and multiplies by the whole
  64×64 weight; every tile is written back at its own point, so the region's output array is the whole layer output.
-/
import proofs.«113868_j87711822119195_1_alg».proof.Proof.Gen.Kernel.Launch
import proofs.«113868_j87711822119195_1_alg».proof.Proof.Gen.Kernel.Skeleton
import proofs.«113868_j87711822119195_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.MatB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # A bias–relu–matmul region: one 10000-row tile of the aggregated features, plus the bias row, clipped at zero,
times the whole 64×64 weight per grid point

The block of a window at a grid point, read off the array the region finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether it was fetched at that point or
    earlier: the block index of an unfetched window has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-tile, whole-bias-row and whole-weight rectangles the body loads and stores through. -/
abbrev rT : Rect S10000x64 := Rect.unit (s := S10000x64) ![0, 0] S10000x64.size inb_S10000x64_S10000x64_0_0
abbrev rB : Rect S1x64 := Rect.unit (s := S1x64) ![0, 0] S1x64.size inb_S1x64_S1x64_0_0
abbrev rW : Rect S64x64 := Rect.unit (s := S64x64) ![0, 0] S64x64.size inb_S64x64_S64x64_0_0

/-- What the body leaves in the output tile: its one whole-tile store. -/
def out1_3 (x0 : Vec F S10000x64 .f32) (x1 : Vec F S1x64 .f32) (x2 : Vec F S64x64 .f32) : Vec F S10000x64 .f32 :=
  View.canon [⟨rT, k1_pay1 (View.ld x0 rT) (View.ld x1 rB) (View.ld x2 rW)⟩]

/-- The one store is the whole tile, so it covers every index of it. -/
theorem cover_tile (p0 : Vec F S10000x64 .f32) (y : S10000x64.Idx) :
    ∃ pc ∈ ([⟨rT, p0⟩] : List (View.Piece (Elt F) S10000x64 .f32)), y ∈ pc.1.set :=
  View.cover_of_tiled [⟨rT, p0⟩] S10000x64.size (by rfl) y

set_option maxHeartbeats 1000000 in
/-- The body on whole staging buffers — the inputs at known contents, the output at anything — ends with the inputs
    as they were and the output tile at `out1_3` of the inputs. -/
theorem sound_kernel1 (c : Dev nD) (E : Set ℕ) (i : grid1.Coords) (arg1 : Memref sig .tc .vmem S10000x64 .f32) (harg1 : arg1.IsWhole) (arg2 : Memref sig .tc .vmem S1x64 .f32) (harg2 : arg2.IsWhole) (arg3 : Memref sig .tc .vmem S64x64 .f32) (harg3 : arg3.IsWhole) (arg4 : Memref sig .tc .vmem S10000x64 .f32) (harg4 : arg4.IsWhole)
    (x0 : Vec F S10000x64 .f32) (x1 : Vec F S1x64 .f32) (x2 : Vec F S64x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_tile _)

/-- The proof data of this region's pipeline: arrays as the region finds them; after the body each input buffer at
    its block and the output buffer at the body's tile; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at a point, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.MatB

end
-- ==== Proof.BMatC.lean ====
/-
  A bias–relu–matmul layer of the network as a pipeline region: at grid point `t` the body reads rows
  `10000·t … 10000·t + 9999` of the aggregated features, adds the bias row, clips at zero, and multiplies by the whole
  64×64 weight; every tile is written back at its own point, so the region's output array is the whole layer output.
-/
import proofs.«113868_j87711822119195_1_alg».proof.Proof.Gen.Kernel.Launch
import proofs.«113868_j87711822119195_1_alg».proof.Proof.Gen.Kernel.Skeleton
import proofs.«113868_j87711822119195_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.MatC

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # A bias–relu–matmul region: one 10000-row tile of the aggregated features, plus the bias row, clipped at zero,
times the whole 64×64 weight per grid point

The block of a window at a grid point, read off the array the region finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether it was fetched at that point or
    earlier: the block index of an unfetched window has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-tile, whole-bias-row and whole-weight rectangles the body loads and stores through. -/
abbrev rT : Rect S10000x64 := Rect.unit (s := S10000x64) ![0, 0] S10000x64.size inb_S10000x64_S10000x64_0_0
abbrev rB : Rect S1x64 := Rect.unit (s := S1x64) ![0, 0] S1x64.size inb_S1x64_S1x64_0_0
abbrev rW : Rect S64x64 := Rect.unit (s := S64x64) ![0, 0] S64x64.size inb_S64x64_S64x64_0_0

/-- What the body leaves in the output tile: its one whole-tile store. -/
def out2_3 (x0 : Vec F S10000x64 .f32) (x1 : Vec F S1x64 .f32) (x2 : Vec F S64x64 .f32) : Vec F S10000x64 .f32 :=
  View.canon [⟨rT, k2_pay1 (View.ld x0 rT) (View.ld x1 rB) (View.ld x2 rW)⟩]

/-- The one store is the whole tile, so it covers every index of it. -/
theorem cover_tile (p0 : Vec F S10000x64 .f32) (y : S10000x64.Idx) :
    ∃ pc ∈ ([⟨rT, p0⟩] : List (View.Piece (Elt F) S10000x64 .f32)), y ∈ pc.1.set :=
  View.cover_of_tiled [⟨rT, p0⟩] S10000x64.size (by rfl) y

set_option maxHeartbeats 1000000 in
/-- The body on whole staging buffers — the inputs at known contents, the output at anything — ends with the inputs
    as they were and the output tile at `out2_3` of the inputs. -/
theorem sound_kernel2 (c : Dev nD) (E : Set ℕ) (i : grid2.Coords) (arg1 : Memref sig .tc .vmem S10000x64 .f32) (harg1 : arg1.IsWhole) (arg2 : Memref sig .tc .vmem S1x64 .f32) (harg2 : arg2.IsWhole) (arg3 : Memref sig .tc .vmem S64x64 .f32) (harg3 : arg3.IsWhole) (arg4 : Memref sig .tc .vmem S10000x64 .f32) (harg4 : arg4.IsWhole)
    (x0 : Vec F S10000x64 .f32) (x1 : Vec F S1x64 .f32) (x2 : Vec F S64x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2_kernel i arg1 harg1 arg2 harg2 arg3 harg3 arg4 harg4) K := by
  simp only [cc2_kernel_eq_skeleton]; unfold cc2_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_tile _)

/-- The proof data of this region's pipeline: arrays as the region finds them; after the body each input buffer at
    its block and the output buffer at the body's tile; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at a point, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.Kernel.MatC

end
-- ==== Proof.BPoolBase.lean ====
/- The pooling-and-linear kernel of the last region: the facts its per-point runs share.
   The kernel keeps a 1x64 accumulator in a scratch buffer across its ten grid points: at the
   first point it zeroes the accumulator, at every point it adds the column sums of the
   current 10000x64 block (bias added to every row first), and at the last point it stores
   accumulator · Wl + bl into the 1x10 output block.  Here: the two branch conditions in
   closed form over the grid, where the output window is idle, the memrefs the pipeline
   passes at a point, and the blocks of the windows read off the arrays at region entry. -/
import proofs.«113868_j87711822119195_1_alg».proof.Proof.Gen.Kernel.Launch
import proofs.«113868_j87711822119195_1_alg».proof.Proof.Gen.Kernel.Skeleton
import proofs.«113868_j87711822119195_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, in closed form -/

/-- The first branch (zero the accumulator) is taken when the grid coordinate is 0. -/
abbrev cond3_0 (i : grid3.Coords) : Prop :=
  (Scalar.cmpi .ne (Scalar.extui (Scalar.cmpi .eq (BitVec.ofNat 32 (i 0).val) 0#32)) 0#32) = 1#1
theorem hcond3_0 : ∀ t : Fin cfg3.N, cond3_0 (grid3.coords t) ↔ t.val % 10 = 0 :=
  (by decide +kernel : ∀ t : Fin grid3.N, cond3_0 (grid3.coords t) ↔ t.val % 10 = 0)

/-- The last branch (store the output) is taken when the grid coordinate is 9. -/
abbrev cond3_2 (i : grid3.Coords) : Prop := k3_cond2 i = 1#1
theorem hcond3_2 : ∀ t : Fin cfg3.N, cond3_2 (grid3.coords t) ↔ t.val % 10 = 9 :=
  (by decide +kernel : ∀ t : Fin grid3.N, cond3_2 (grid3.coords t) ↔ t.val % 10 = 9)

/-! ## Where the output window is idle -/

theorem idleAt3_4 : ∀ t : Fin cfg3.N, ¬cond3_2 (grid3.coords t) → cfg3.idle 4 (grid3.coords t) = true := by decide +kernel
theorem noFlush3_4 : ∀ t : Fin cfg3.N, ¬cond3_2 (grid3.coords t) → (cfg3.win 4).flush t = false := by decide +kernel
theorem liveAt3_4 : ∀ t : Fin cfg3.N, cond3_2 (grid3.coords t) → cfg3.idle 4 (grid3.coords t) = false := by decide +kernel
theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl

/-! ## The memrefs at a point -/

abbrev ms3_0 (t : Fin cfg3.N) : Memref sig .tc .vmem S10000x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S64x10 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x10 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x10 .f32 := win3_4.stage (cfg3.slots t 4)
abbrev hs3_4 (t : Fin cfg3.N) : (ms3_4 t).IsWhole := hstage3_4 ((cfg3.slots t 4).cast nbuf3_4)
/-- The accumulator: a whole scoped buffer of the kernel's own. -/
abbrev scM3 : Memref sig .tc .vmem S1x64 .f32 := Memref.whole cc3_scratch0
/-- The views through which the output block's and the accumulator's contents are stated. -/
abbrev VO3_4 : View sig .tc .vmem S1x10 .f32 := (Memref.whole cc3_stg4_0 : Memref sig .tc .vmem S1x10 .f32).view
abbrev VS3 : View sig .tc .vmem S1x64 .f32 := scM3.view

end Cert.Kernel.Pool

end
-- ==== Proof.BPoolRunB.lean ====
/- The pooling kernel at a middle grid point (neither branch taken): it reads the block and the
   bias, adds the block's column sums (bias added to each row) to the accumulator, and leaves the
   output buffer untouched. -/
import proofs.«113868_j87711822119195_1_alg».proof.Proof.BPoolBase

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point where neither branch is taken: the pieces the accumulator ends with (last first),
    with the run of the body from the inputs at their contents, the output buffer at contents
    handed back untouched, and the accumulator at the contents `xs` the point before left. -/
noncomputable def kernelRun3_B (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S64x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x64 .f32) (harg6 : arg6.IsWhole) (hc0 : ¬cond3_0 i) (hc2 : ¬cond3_2 i)
    (x0 : Vec F S10000x64 .f32) (x1 : Vec F S1x64 .f32) (x2 : Vec F S64x10 .f32) (x3 : Vec F S1x10 .f32) (xs : Vec F S1x64 .f32) :
    { LS : List (View.Piece (Elt F) S1x64 .f32) //
      ∀ (xi4 : Vec F S1x10 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare xi4 ∗ owns (c : Thread nD τ) arg6 fullShare xs
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare xi4
                ∗ (∃ f, arg6.view.loc (c : Thread nD τ) ↦[arg6.view.set]{fullShare} arg6.view.writes (Elt F) f LS)) -∗ K ⟨⟩))
          ⊢ wp frame (wpE (defs₀ (F := F)) Variants.none c none) E (cc3__pool_linear_kernel i arg1 harg1 arg2 harg2 arg3 harg3 arg4 harg4 arg5 harg5 arg6 harg6) K } := by
  refine ⟨?_, fun xi4 E K => ?run⟩
  case run =>
    simp only [cc3__pool_linear_kernel_eq_skeleton]; unfold cc3__pool_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hfs
    sl_exec (disch := first | exact hc0 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS

end Cert.Kernel.Pool

end
-- ==== Proof.BPoolRunA.lean ====
/- The pooling kernel at the first grid point (the first branch taken, the last not): it stores
   zeros into the accumulator, then adds the first block's column sums (bias added to each row),
   and leaves the output buffer untouched. -/
import proofs.«113868_j87711822119195_1_alg».proof.Proof.BPoolRunB

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first point: the pieces the accumulator ends with (last first), with the run of the body
    from the inputs at their contents, the output buffer at contents handed back untouched, and the
    accumulator at anything (the first store overwrites it). -/
noncomputable def kernelRun3_A (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S64x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x64 .f32) (harg6 : arg6.IsWhole) (hc0 : cond3_0 i) (hc2 : ¬cond3_2 i)
    (x0 : Vec F S10000x64 .f32) (x1 : Vec F S1x64 .f32) (x2 : Vec F S64x10 .f32) (x3 : Vec F S1x10 .f32) :
    { LS : List (View.Piece (Elt F) S1x64 .f32) //
      ∀ (xi4 : Vec F S1x10 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare xi4
                ∗ (∃ f, arg6.view.loc (c : Thread nD τ) ↦[arg6.view.set]{fullShare} arg6.view.writes (Elt F) f LS)) -∗ K ⟨⟩))
          ⊢ wp frame (wpE (defs₀ (F := F)) Variants.none c none) E (cc3__pool_linear_kernel i arg1 harg1 arg2 harg2 arg3 harg3 arg4 harg4 arg5 harg5 arg6 harg6) K } := by
  refine ⟨?_, fun xi4 E K => ?run⟩
  case run =>
    simp only [cc3__pool_linear_kernel_eq_skeleton]; unfold cc3__pool_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS

end Cert.Kernel.Pool

end
-- ==== Proof.BPoolRunC.lean ====
/- The pooling kernel at the last grid point (the first branch not taken, the last taken): it adds
   the last block's column sums (bias added to each row) to the accumulator, then reads the
   accumulator back and stores accumulator · Wl + bl into the output buffer. -/
import proofs.«113868_j87711822119195_1_alg».proof.Proof.BPoolRunA

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the last point: the pieces the output buffer and the accumulator end with (last first), with
    the run of the body from the inputs at their contents, the output buffer at anything, and the
    accumulator at the contents `xs` the point before left. -/
noncomputable def kernelRun3_C (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S64x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x64 .f32) (harg6 : arg6.IsWhole) (hc0 : ¬cond3_0 i) (hc2 : cond3_2 i)
    (x0 : Vec F S10000x64 .f32) (x1 : Vec F S1x64 .f32) (x2 : Vec F S64x10 .f32) (x3 : Vec F S1x10 .f32) (xs : Vec F S1x64 .f32) :
    Σ' (L4 : List (View.Piece (Elt F) S1x10 .f32)), { LS : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2
                ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc3__pool_linear_kernel i arg1 harg1 arg2 harg2 arg3 harg3 arg4 harg4 arg5 harg5 arg6 harg6) K } := by
  refine ⟨?_, ?_, fun E K => ?run⟩
  case run =>
    simp only [cc3__pool_linear_kernel_eq_skeleton]; unfold cc3__pool_linear_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg1.eq_unread hf0; obtain rfl := harg2.eq_unread hf1; obtain rfl := harg3.eq_unread hf2
    obtain rfl := harg4.eq_unread hf3; obtain rfl := harg6.eq_unread hfs
    sl_exec (disch := first | exact hc0 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS

end Cert.Kernel.Pool

end
-- ==== Proof.BPoolData.lean ====
/- The frame of the pooling-and-linear region: what the accumulator and the output buffer hold
   after each grid point, the region's invariant carrying the accumulator at those contents, the
   pipeline's proof data at the buffer contents the region is entered with, and the body obligation
   at every point, by cases on the point (first, middle, last). -/
import proofs.«113868_j87711822119195_1_alg».proof.Proof.BPoolRunC

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, read back from the pieces its run found -/

/-- The accumulator after the first point. -/
def sout3_A (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S64x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x64 .f32) (harg6 : arg6.IsWhole) (hc0 : cond3_0 i) (hc2 : ¬cond3_2 i) (x0 : Vec F S10000x64 .f32) (x1 : Vec F S1x64 .f32) (x2 : Vec F S64x10 .f32) (x3 : Vec F S1x10 .f32) : Vec F S1x64 .f32 :=
  VS3.read (Elt F) (VS3.writes (Elt F) VS3.junk (kernelRun3_A c i arg1 harg1 arg2 harg2 arg3 harg3 arg4 harg4 arg5 harg5 arg6 harg6 hc0 hc2 x0 x1 x2 x3).1)
/-- Its pieces tile the 1x64 buffer. -/
theorem scover3_A (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S64x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x64 .f32) (harg6 : arg6.IsWhole) (hc0 : cond3_0 i) (hc2 : ¬cond3_2 i) (x0 : Vec F S10000x64 .f32) (x1 : Vec F S1x64 .f32) (x2 : Vec F S64x10 .f32) (x3 : Vec F S1x10 .f32) (y : S1x64.Idx) :
    ∃ pc ∈ (kernelRun3_A c i arg1 harg1 arg2 harg2 arg3 harg3 arg4 harg4 arg5 harg5 arg6 harg6 hc0 hc2 x0 x1 x2 x3).1, y ∈ pc.1.set :=
  View.cover_of_tiledL (kernelRun3_A c i arg1 harg1 arg2 harg2 arg3 harg3 arg4 harg4 arg5 harg5 arg6 harg6 hc0 hc2 x0 x1 x2 x3).1 S1x64.size (by sl_kernel_rfl) y

/-- The accumulator after a middle point, from what the point before left in it. -/
def sout3_B (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S64x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x64 .f32) (harg6 : arg6.IsWhole) (hc0 : ¬cond3_0 i) (hc2 : ¬cond3_2 i) (x0 : Vec F S10000x64 .f32) (x1 : Vec F S1x64 .f32) (x2 : Vec F S64x10 .f32) (x3 : Vec F S1x10 .f32) (xs : Vec F S1x64 .f32) : Vec F S1x64 .f32 :=
  VS3.read (Elt F) (VS3.writes (Elt F) VS3.junk (kernelRun3_B c i arg1 harg1 arg2 harg2 arg3 harg3 arg4 harg4 arg5 harg5 arg6 harg6 hc0 hc2 x0 x1 x2 x3 xs).1)
theorem scover3_B (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S64x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x64 .f32) (harg6 : arg6.IsWhole) (hc0 : ¬cond3_0 i) (hc2 : ¬cond3_2 i) (x0 : Vec F S10000x64 .f32) (x1 : Vec F S1x64 .f32) (x2 : Vec F S64x10 .f32) (x3 : Vec F S1x10 .f32) (xs : Vec F S1x64 .f32) (y : S1x64.Idx) :
    ∃ pc ∈ (kernelRun3_B c i arg1 harg1 arg2 harg2 arg3 harg3 arg4 harg4 arg5 harg5 arg6 harg6 hc0 hc2 x0 x1 x2 x3 xs).1, y ∈ pc.1.set :=
  View.cover_of_tiledL (kernelRun3_B c i arg1 harg1 arg2 harg2 arg3 harg3 arg4 harg4 arg5 harg5 arg6 harg6 hc0 hc2 x0 x1 x2 x3 xs).1 S1x64.size (by sl_kernel_rfl) y

/-- The accumulator and the output buffer after the last point. -/
def sout3_C (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S64x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x64 .f32) (harg6 : arg6.IsWhole) (hc0 : ¬cond3_0 i) (hc2 : cond3_2 i) (x0 : Vec F S10000x64 .f32) (x1 : Vec F S1x64 .f32) (x2 : Vec F S64x10 .f32) (x3 : Vec F S1x10 .f32) (xs : Vec F S1x64 .f32) : Vec F S1x64 .f32 :=
  VS3.read (Elt F) (VS3.writes (Elt F) VS3.junk (kernelRun3_C c i arg1 harg1 arg2 harg2 arg3 harg3 arg4 harg4 arg5 harg5 arg6 harg6 hc0 hc2 x0 x1 x2 x3 xs).2.1)
theorem scover3_C (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S64x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x64 .f32) (harg6 : arg6.IsWhole) (hc0 : ¬cond3_0 i) (hc2 : cond3_2 i) (x0 : Vec F S10000x64 .f32) (x1 : Vec F S1x64 .f32) (x2 : Vec F S64x10 .f32) (x3 : Vec F S1x10 .f32) (xs : Vec F S1x64 .f32) (y : S1x64.Idx) :
    ∃ pc ∈ (kernelRun3_C c i arg1 harg1 arg2 harg2 arg3 harg3 arg4 harg4 arg5 harg5 arg6 harg6 hc0 hc2 x0 x1 x2 x3 xs).2.1, y ∈ pc.1.set :=
  View.cover_of_tiledL (kernelRun3_C c i arg1 harg1 arg2 harg2 arg3 harg3 arg4 harg4 arg5 harg5 arg6 harg6 hc0 hc2 x0 x1 x2 x3 xs).2.1 S1x64.size (by sl_kernel_rfl) y
def out3_C (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S64x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x64 .f32) (harg6 : arg6.IsWhole) (hc0 : ¬cond3_0 i) (hc2 : cond3_2 i) (x0 : Vec F S10000x64 .f32) (x1 : Vec F S1x64 .f32) (x2 : Vec F S64x10 .f32) (x3 : Vec F S1x10 .f32) (xs : Vec F S1x64 .f32) : Vec F S1x10 .f32 :=
  VO3_4.read (Elt F) (VO3_4.writes (Elt F) VO3_4.junk (kernelRun3_C c i arg1 harg1 arg2 harg2 arg3 harg3 arg4 harg4 arg5 harg5 arg6 harg6 hc0 hc2 x0 x1 x2 x3 xs).1)
theorem cover3_C (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S64x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x64 .f32) (harg6 : arg6.IsWhole) (hc0 : ¬cond3_0 i) (hc2 : cond3_2 i) (x0 : Vec F S10000x64 .f32) (x1 : Vec F S1x64 .f32) (x2 : Vec F S64x10 .f32) (x3 : Vec F S1x10 .f32) (xs : Vec F S1x64 .f32) (y : S1x10.Idx) :
    ∃ pc ∈ (kernelRun3_C c i arg1 harg1 arg2 harg2 arg3 harg3 arg4 harg4 arg5 harg5 arg6 harg6 hc0 hc2 x0 x1 x2 x3 xs).1, y ∈ pc.1.set :=
  View.cover_of_tiledL (kernelRun3_C c i arg1 harg1 arg2 harg2 arg3 harg3 arg4 harg4 arg5 harg5 arg6 harg6 hc0 hc2 x0 x1 x2 x3 xs).1 S1x10.size (by sl_kernel_rfl) y

/-- A placeholder for the output buffer's contents at the points where the body stores nothing into it
    and the pipeline does not write it back: nothing reads it. -/
def idle4 : Vec F S1x10 .f32 := VO3_4.read (Elt F) VO3_4.junk

/-! ## The conditions at a point, from its number -/

theorem N3' : cfg3.N = 10 := N_3
theorem isc0 (t : Fin cfg3.N) (h : t.val = 0) : cond3_0 (grid3.coords t) := (hcond3_0 t).mpr (by rw [h])
theorem notc0 (t : Fin cfg3.N) (h : t.val ≠ 0) : ¬cond3_0 (grid3.coords t) := fun hc => by
  have h1 := (hcond3_0 t).mp hc; have hN : t.val < 10 := lt_of_lt_of_eq t.isLt N3'; omega
theorem isc2 (t : Fin cfg3.N) (h : t.val = 9) : cond3_2 (grid3.coords t) := (hcond3_2 t).mpr (by rw [h])
theorem notc2 (t : Fin cfg3.N) (h : t.val ≠ 9) : ¬cond3_2 (grid3.coords t) := fun hc => by
  have h1 := (hcond3_2 t).mp hc; have hN : t.val < 10 := lt_of_lt_of_eq t.isLt N3'; omega

section Frame

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any
    proof data whose array is the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The accumulation, point by point -/

/-- What the output buffer (first) and the accumulator (second) hold after the body at point `n`: the first
    point's run from nothing, every later point's from what the point before left in the accumulator; the
    output buffer is stored only at the last point. -/
def outsAt3 (c : Dev nD) : (n : ℕ) → n < cfg3.N → Vec F S1x10 .f32 × Vec F S1x64 .f32
  | 0, hn => (idle4, sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3 (Memref.isWhole_whole _) (isc0 ⟨0, hn⟩ rfl) (notc2 ⟨0, hn⟩ (by decide : (0 : ℕ) ≠ 9)) (iblk3 V c 0 ⟨0, hn⟩) (iblk3 V c 1 ⟨0, hn⟩) (iblk3 V c 2 ⟨0, hn⟩) (iblk3 V c 3 ⟨0, hn⟩))
  | n + 1, hn =>
    if h2 : n + 1 = 9 then
      (out3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3 (Memref.isWhole_whole _) (notc0 ⟨n + 1, hn⟩ (Nat.succ_ne_zero n)) (isc2 ⟨n + 1, hn⟩ h2) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2,
       sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3 (Memref.isWhole_whole _) (notc0 ⟨n + 1, hn⟩ (Nat.succ_ne_zero n)) (isc2 ⟨n + 1, hn⟩ h2) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2)
    else
      (idle4, sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3 (Memref.isWhole_whole _) (notc0 ⟨n + 1, hn⟩ (Nat.succ_ne_zero n)) (notc2 ⟨n + 1, hn⟩ h2) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2)

theorem outsAt3_A (c : Dev nD) (t : Fin cfg3.N) (h0 : t.val = 0) (h2 : t.val ≠ 9) :
    outsAt3 V c t.val t.isLt = (idle4, sout3_A c (grid3.coords t) (ms3_0 t) (hs3_0 t) (ms3_1 t) (hs3_1 t) (ms3_2 t) (hs3_2 t) (ms3_3 t) (hs3_3 t) (ms3_4 t) (hs3_4 t) scM3 (Memref.isWhole_whole _) (isc0 t h0) (notc2 t h2) (iblk3 V c 0 t) (iblk3 V c 1 t) (iblk3 V c 2 t) (iblk3 V c 3 t)) := by
  obtain ⟨n, hn⟩ := t
  cases n with
  | zero => rfl
  | succ n => exact absurd h0 (Nat.succ_ne_zero n)

theorem outsAt3_B (c : Dev nD) (t : Fin cfg3.N) (h0 : t.val ≠ 0) (h2 : t.val ≠ 9) :
    outsAt3 V c t.val t.isLt = (idle4, sout3_B c (grid3.coords t) (ms3_0 t) (hs3_0 t) (ms3_1 t) (hs3_1 t) (ms3_2 t) (hs3_2 t) (ms3_3 t) (hs3_3 t) (ms3_4 t) (hs3_4 t) scM3 (Memref.isWhole_whole _) (notc0 t h0) (notc2 t h2) (iblk3 V c 0 t) (iblk3 V c 1 t) (iblk3 V c 2 t) (iblk3 V c 3 t) (outsAt3 V c (t.val - 1) (Nat.lt_of_le_of_lt (Nat.sub_le _ _) t.isLt)).2) := by
  obtain ⟨n, hn⟩ := t
  cases n with
  | zero => exact absurd rfl h0
  | succ n => exact (dif_neg h2).trans rfl

theorem outsAt3_C (c : Dev nD) (t : Fin cfg3.N) (h0 : t.val ≠ 0) (h2 : t.val = 9) :
    outsAt3 V c t.val t.isLt = (out3_C c (grid3.coords t) (ms3_0 t) (hs3_0 t) (ms3_1 t) (hs3_1 t) (ms3_2 t) (hs3_2 t) (ms3_3 t) (hs3_3 t) (ms3_4 t) (hs3_4 t) scM3 (Memref.isWhole_whole _) (notc0 t h0) (isc2 t h2) (iblk3 V c 0 t) (iblk3 V c 1 t) (iblk3 V c 2 t) (iblk3 V c 3 t) (outsAt3 V c (t.val - 1) (Nat.lt_of_le_of_lt (Nat.sub_le _ _) t.isLt)).2,
      sout3_C c (grid3.coords t) (ms3_0 t) (hs3_0 t) (ms3_1 t) (hs3_1 t) (ms3_2 t) (hs3_2 t) (ms3_3 t) (hs3_3 t) (ms3_4 t) (hs3_4 t) scM3 (Memref.isWhole_whole _) (notc0 t h0) (isc2 t h2) (iblk3 V c 0 t) (iblk3 V c 1 t) (iblk3 V c 2 t) (iblk3 V c 3 t) (outsAt3 V c (t.val - 1) (Nat.lt_of_le_of_lt (Nat.sub_le _ _) t.isLt)).2) := by
  obtain ⟨n, hn⟩ := t
  cases n with
  | zero => exact absurd rfl h0
  | succ n => exact (dif_pos h2).trans rfl

/-! ## The region's invariant -/

/-- The core's scoped buffers other than this region's staging buffers and the accumulator, at some
    contents each: carried through the region unopened. -/
abbrev others3 (c : Dev nD) : sProp 𝕄 :=
  Pipeline.scopedRestBut (Ix := Unit) (Name := ℕ) (U := UR sig nD τ) (Lvl := ℕ) (Val := Elt F) spec3 c [cc3_scratch0]

/-- The scoped buffers no window stages are the accumulator and the others. -/
theorem scopedRest3_split (c : Dev nD) :
    (Pipeline.scopedRest (Ix := Unit) (Name := ℕ) (U := UR sig nD τ) (Lvl := ℕ) (Val := Elt F) spec3 c : sProp 𝕄)
      = iprop((∃ d, owns (c : Thread nD τ) scM3 fullShare d) ∗ others3 c) := by
  rw [Pipeline.scopedRest_split_of_list spec3 c [cc3_scratch0] (by decide) (by decide)]
  simp only [bigSepL_singleton, scM3, owns_whole]; try rfl

/-- The invariant before point `n`: before the first point the scoped rest at anything and the generator
    register at some state; afterwards the same with the accumulator at what the point before left. -/
def PhiS3 (c : Dev nD) : (n : ℕ) → n ≤ cfg3.N → sProp 𝕄
  | 0, _ => Pipeline.ΦA spec3 c
  | n + 1, hn => iprop((owns (c : Thread nD τ) scM3 fullShare ((outsAt3 V c n hn).2) ∗ others3 c) ∗ (∃ r, prngReg c r))

theorem PhiA3_eq (c : Dev nD) :
    (Pipeline.ΦA spec3 c : sProp 𝕄) = iprop(((∃ d, owns (c : Thread nD τ) scM3 fullShare d) ∗ others3 c) ∗ (∃ r, prngReg c r)) := by
  unfold Pipeline.ΦA; rw [scopedRest3_split]

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop((owns (c : Thread nD τ) scM3 fullShare ((outsAt3 V c n hn).2) ∗ others3 c) ∗ (∃ r, prngReg c r)) := rfl
theorem PhiS3_pos (c : Dev nD) (n : ℕ) (h : n ≤ cfg3.N) (hz : n ≠ 0) :
    PhiS3 V c n h = iprop((owns (c : Thread nD τ) scM3 fullShare ((outsAt3 V c (n - 1) (by omega)).2) ∗ others3 c) ∗ (∃ r, prngReg c r)) := by
  cases n with
  | zero => exact absurd rfl hz
  | succ n => rfl

/-! ## The pipeline's proof data -/

/-- The proof data of the pooling pipeline on core `c`: the arrays as the region finds them; after the body
    each input's buffer at its block and the output's at `outsAt3`; the invariant `PhiS3`; nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- The input arrays are never written: at every count of write-backs they hold the entry contents. -/
theorem arrAt_in3_0 (c : Dev nD) (n : ℕ) : (dat3 V c).arrAt 0 n = V c main_v74 :=
  ((dat3 V c).arrAt_in 0 rfl n).trans (A_eq3 V c 0)
theorem arrAt_in3_1 (c : Dev nD) (n : ℕ) : (dat3 V c).arrAt 1 n = V c main_v75 :=
  ((dat3 V c).arrAt_in 1 rfl n).trans (A_eq3 V c 1)
theorem arrAt_in3_2 (c : Dev nD) (n : ℕ) : (dat3 V c).arrAt 2 n = V c main_arg8 :=
  ((dat3 V c).arrAt_in 2 rfl n).trans (A_eq3 V c 2)
theorem arrAt_in3_3 (c : Dev nD) (n : ℕ) : (dat3 V c).arrAt 3 n = V c main_v76 :=
  ((dat3 V c).arrAt_in 3 rfl n).trans (A_eq3 V c 3)

end Frame

end Cert.Kernel.Pool

end
-- ==== Proof.BPoolFrame.lean ====
/- The body obligation of the pooling-and-linear region and the two entailments that carry its
   invariant in and out of the region: by cases on the grid point (first, middle, last), the run of
   that case applies; the invariant hands the body the accumulator at what the point before left
   (at anything at the first point) and takes it back at this point's contents. -/
import proofs.«113868_j87711822119195_1_alg».proof.Proof.BPoolData

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Frame

variable (V : (c : Dev nD) → (b : Ref sig .tc) → Buf (Elt F) ((c : Thread nD τ).loc b))

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t
    ∗ (dat3 V c).leavesExact 3 t ∗ (dat3 V c).leavesExact 4 t)

set_option maxHeartbeats 4800000 in
/-- The body at any point. The inputs' buffers hold their blocks; the point's number says which case it is
    in; at the first and the middle points the output buffer is handed back as found, at the last it is
    stored whole; the accumulator comes out of the invariant and goes back at this point's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
      unfold Dat.leavesExact; rw [liveAt3_0 t], after3_0]
  rw [show (dat3 V c).leavesExact 1 t = owns (c : Thread nD τ) (ms3_1 t) fullShare ((dat3 V c).after 1 t) from by
      unfold Dat.leavesExact; rw [liveAt3_1 t], after3_1]
  rw [show (dat3 V c).leavesExact 2 t = owns (c : Thread nD τ) (ms3_2 t) fullShare ((dat3 V c).after 2 t) from by
      unfold Dat.leavesExact; rw [liveAt3_2 t], after3_2]
  rw [show (dat3 V c).leavesExact 3 t = owns (c : Thread nD τ) (ms3_3 t) fullShare ((dat3 V c).after 3 t) from by
      unfold Dat.leavesExact; rw [liveAt3_3 t], after3_3]
  have hN : t.val < 10 := lt_of_lt_of_eq t.isLt N3'
  by_cases h0 : t.val = 0
  · have h2 : t.val ≠ 9 := by omega
    rw [Dat.leavesExact_idle (dat3 V c) 4 t (idleAt3_4 t (notc2 t h2)) (noFlush3_4 t (notc2 t h2))]
    rw [outsAt3_A V c t h0 h2]
    unfold sout3_A; (try dsimp only)
    rw [PhiS3_castSucc V c t, PhiS3_zero V c _ _ h0, PhiA3_eq]
    iintro ⟨⟨⟨HS, Hoth⟩, Hg⟩, Ho, ⟨%d0, H0⟩, ⟨%d1, H1⟩, ⟨%d2, H2⟩, ⟨%d3, H3⟩, ⟨%d4, H4⟩⟩
    iapply ((kernelRun3_A c (grid3.coords t) _ _ _ _ _ _ _ _ _ _ _ _ (isc0 t h0) (notc2 t h2) (iblk3 V c 0 t) (iblk3 V c 1 t) (iblk3 V c 2 t) (iblk3 V c 3 t)).2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HS Hoth Hg]
    · isplitl [HS Hoth]
      · isplitl [HS]
        · unfold owns; iexists _; isplitr
          swap; · iexact HS
          ipureintro; exact View.read_writes_of_cover _ _ _ _ _ (scover3_A c _ _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := h0
    by_cases h2 : t.val = 9
    · rw [show (dat3 V c).leavesExact 4 t = owns (c : Thread nD τ) (ms3_4 t) fullShare ((dat3 V c).after 4 t) from by
        unfold Dat.leavesExact; rw [liveAt3_4 t (isc2 t h2)], after3_4]
      rw [outsAt3_C V c t h0 h2]
      unfold out3_C sout3_C; (try dsimp only)
      rw [PhiS3_castSucc V c t, PhiS3_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((kernelRun3_C c (grid3.coords t) _ _ _ _ _ _ _ _ _ _ _ _ (notc0 t h0) (isc2 t h2) (iblk3 V c 0 t) (iblk3 V c 1 t) (iblk3 V c 2 t) (iblk3 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hoth Hg]
      · isplitl [HS Hoth]
        · isplitl [HS]
          · unfold owns; iexists _; isplitr
            swap; · iexact HS
            ipureintro; exact View.read_writes_of_cover _ _ _ _ _ (scover3_C c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover3_C c _ _ _ _ _ _ _ _ _ _ _ _ _ _ _ _ _ _ _ _)
    · rw [Dat.leavesExact_idle (dat3 V c) 4 t (idleAt3_4 t (notc2 t h2)) (noFlush3_4 t (notc2 t h2))]
      rw [outsAt3_B V c t h0 h2]
      unfold sout3_B; (try dsimp only)
      rw [PhiS3_castSucc V c t, PhiS3_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((kernelRun3_B c (grid3.coords t) _ _ _ _ _ _ _ _ _ _ _ _ (notc0 t h0) (notc2 t h2) (iblk3 V c 0 t) (iblk3 V c 1 t) (iblk3 V c 2 t) (iblk3 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (scover3_B c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the region hands its kernel — the generator register at some state, the scoped buffers no window
    stages at anything, and anything else `R`, which is dropped — is the invariant before the first point. -/
theorem hin3 (c : Dev nD) (R : sProp 𝕄) :
    iprop((∃ r, prngReg c r) ∗ R ∗ Pipeline.scopedRest (Ix := Unit) (Name := ℕ) (U := UR sig nD τ) (Lvl := ℕ) (Val := Elt F) spec3 c) ⊢ (dat3 V c).Φ 0 := by
  rw [show (dat3 V c).Φ 0 = PhiS3 V c 0 (Nat.zero_le _) from rfl, PhiS3_zero V c 0 _ rfl]; unfold Pipeline.ΦA
  iintro ⟨Hp, -, Hr⟩
  isplitl [Hr]; · iexact Hr
  iexact Hp

/-- After the last point the invariant gives the same back: the accumulator's contents are forgotten. -/
theorem hout3 (c : Dev nD) :
    (dat3 V c).Φ (Fin.last cfg3.N) ⊢ iprop((∃ r, prngReg c r) ∗ Pipeline.ownSems0 (fun k : PEmpty => (k.elim : SemLoc sig)) c
      ∗ Pipeline.scopedRest (Ix := Unit) (Name := ℕ) (U := UR sig nD τ) (Lvl := ℕ) (Val := Elt F) spec3 c) := by
  rw [Pipeline.ownSems0_none, show (dat3 V c).Φ (Fin.last cfg3.N) = PhiS3 V c (Fin.last cfg3.N).val (Nat.le_of_lt_succ (Fin.last cfg3.N).isLt) from rfl,
    PhiS3_pos V c _ _ (by rw [Fin.val_last]; have := N3'; omega), scopedRest3_split]
  iintro ⟨⟨HS, Hoth⟩, Hg⟩
  isplitl [Hg]; · iexact Hg
  isplitr; · iempintro
  isplitl [HS]; · iexists _; iexact HS
  iexact Hoth

end Frame

end Cert.Kernel.Pool

end
-- ==== Proof.BChain.lean ====
/-
  The whole program as a chain of segments: three stretches of host operations (the edge lists, the degrees and the
  normalisation weights), then four pipeline regions — three tiled matrix products and the pooled linear head — each
  but the first preceded by the host stretch that gathers, scales and scatter-adds the previous region's output.
  The buffer contents at every boundary are named (`B0 … B10`): a host stretch applies its operations to the
  contents before it; a region replaces its own arrays by what its pipeline leaves in them and touches nothing else.
  The run ends with every unscoped buffer at `B10`.
-/
import proofs.«113868_j87711822119195_1_alg».proof.Proof.BMatA
import proofs.«113868_j87711822119195_1_alg».proof.Proof.BMatB
import proofs.«113868_j87711822119195_1_alg».proof.Proof.BMatC
import proofs.«113868_j87711822119195_1_alg».proof.Proof.BPoolFrame
import proofs.«113868_j87711822119195_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Chain

open Cert.Kernel Cert.Kernel.Gen
open Cert.Kernel.MatA Cert.Kernel.MatB Cert.Kernel.MatC Cert.Kernel.Pool
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => (s₀ m ρ).mem ((c : Dev nD), b)
/-- After the edge-list and degree operations. -/
abbrev B1 : Dev nD → Valuation τ sig (Elt F) := fun c => StableHlo.after hostOps0 (B0 m ρ c)
/-- After the select that guards the reciprocal square root of the degree. -/
abbrev B2 : Dev nD → Valuation τ sig (Elt F) := fun c => StableHlo.after hostOps0_1 (B1 m ρ c)
/-- After the normalisation weights: the first region's entry. -/
abbrev B3 : Dev nD → Valuation τ sig (Elt F) := fun c => StableHlo.after hostOps0_2 (B2 m ρ c)

/-- The same contents read at the TensorCore's references: what region 0's proof data take. -/
abbrev U3 : (c : Dev nD) → (b : Ref sig .tc) → Buf (Elt F) ((c : Thread nD τ).loc b) := fun c b => B3 m ρ c b
/-- At region 0's exit: its arrays at what the pipeline leaves (an input as entered, the output with every tile's
    write-back folded in), every other buffer as entered. -/
def B4 (c : Dev nD) : Valuation τ sig (Elt F) :=
  Pipeline.withArrays spec0 c (B3 m ρ c) fun w => (dat0 (U3 m ρ) c).arrAt w cfg0.N
theorem B4_arr (c : Dev nD) (w : Fin cfg0.W) :
    B4 m ρ c (Proc.devRef .tc (Pipeline.arrRef spec0 w)) = (dat0 (U3 m ρ) c).arrAt w cfg0.N := by
  unfold B4; exact Pipeline.withArrays_arr spec0 launch0.win.arr_inj c _ _ w
theorem B4_of_ne (c : Dev nD) (b : Ref sig .tc) (hb : ∀ w, Pipeline.arrRef spec0 w ≠ b) :
    B4 m ρ c (Proc.devRef .tc b) = B3 m ρ c (Proc.devRef .tc b) := by
  unfold B4; exact Pipeline.withArrays_of_ne spec0 c _ _ b hb
abbrev U4 : (c : Dev nD) → (b : Ref sig .tc) → Buf (Elt F) ((c : Thread nD τ).loc b) := fun c b => B4 m ρ c b
theorem hF0 (c : Dev nD) (w : Fin cfg0.W) : (dat0 (U3 m ρ) c).arrAt w cfg0.N = U4 m ρ c (Pipeline.arrRef spec0 w) :=
  (B4_arr m ρ c w).symm
theorem hrest0 (c : Dev nD) : ∀ b, b ∉ Finset.univ.image (Pipeline.arrRef spec0) → U4 m ρ c b = U3 m ρ c b :=
  fun b hb => B4_of_ne m ρ c b fun w e => hb (Finset.mem_image.mpr ⟨w, Finset.mem_univ _, e⟩)

/-- After the first aggregation: the second region's entry. -/
abbrev B5 : Dev nD → Valuation τ sig (Elt F) := fun c => StableHlo.after hostOps1 (B4 m ρ c)

/-- The same contents read at the TensorCore's references: what region 1's proof data take. -/
abbrev U5 : (c : Dev nD) → (b : Ref sig .tc) → Buf (Elt F) ((c : Thread nD τ).loc b) := fun c b => B5 m ρ c b
/-- At region 1's exit: its arrays at what the pipeline leaves (an input as entered, the output with every tile's
    write-back folded in), every other buffer as entered. -/
def B6 (c : Dev nD) : Valuation τ sig (Elt F) :=
  Pipeline.withArrays spec1 c (B5 m ρ c) fun w => (dat1 (U5 m ρ) c).arrAt w cfg1.N
theorem B6_arr (c : Dev nD) (w : Fin cfg1.W) :
    B6 m ρ c (Proc.devRef .tc (Pipeline.arrRef spec1 w)) = (dat1 (U5 m ρ) c).arrAt w cfg1.N := by
  unfold B6; exact Pipeline.withArrays_arr spec1 launch1.win.arr_inj c _ _ w
theorem B6_of_ne (c : Dev nD) (b : Ref sig .tc) (hb : ∀ w, Pipeline.arrRef spec1 w ≠ b) :
    B6 m ρ c (Proc.devRef .tc b) = B5 m ρ c (Proc.devRef .tc b) := by
  unfold B6; exact Pipeline.withArrays_of_ne spec1 c _ _ b hb
abbrev U6 : (c : Dev nD) → (b : Ref sig .tc) → Buf (Elt F) ((c : Thread nD τ).loc b) := fun c b => B6 m ρ c b
theorem hF1 (c : Dev nD) (w : Fin cfg1.W) : (dat1 (U5 m ρ) c).arrAt w cfg1.N = U6 m ρ c (Pipeline.arrRef spec1 w) :=
  (B6_arr m ρ c w).symm
theorem hrest1 (c : Dev nD) : ∀ b, b ∉ Finset.univ.image (Pipeline.arrRef spec1) → U6 m ρ c b = U5 m ρ c b :=
  fun b hb => B6_of_ne m ρ c b fun w e => hb (Finset.mem_image.mpr ⟨w, Finset.mem_univ _, e⟩)

/-- After the second aggregation: the third region's entry. -/
abbrev B7 : Dev nD → Valuation τ sig (Elt F) := fun c => StableHlo.after hostOps2 (B6 m ρ c)

/-- The same contents read at the TensorCore's references: what region 2's proof data take. -/
abbrev U7 : (c : Dev nD) → (b : Ref sig .tc) → Buf (Elt F) ((c : Thread nD τ).loc b) := fun c b => B7 m ρ c b
/-- At region 2's exit: its arrays at what the pipeline leaves (an input as entered, the output with every tile's
    write-back folded in), every other buffer as entered. -/
def B8 (c : Dev nD) : Valuation τ sig (Elt F) :=
  Pipeline.withArrays spec2 c (B7 m ρ c) fun w => (dat2 (U7 m ρ) c).arrAt w cfg2.N
theorem B8_arr (c : Dev nD) (w : Fin cfg2.W) :
    B8 m ρ c (Proc.devRef .tc (Pipeline.arrRef spec2 w)) = (dat2 (U7 m ρ) c).arrAt w cfg2.N := by
  unfold B8; exact Pipeline.withArrays_arr spec2 launch2.win.arr_inj c _ _ w
theorem B8_of_ne (c : Dev nD) (b : Ref sig .tc) (hb : ∀ w, Pipeline.arrRef spec2 w ≠ b) :
    B8 m ρ c (Proc.devRef .tc b) = B7 m ρ c (Proc.devRef .tc b) := by
  unfold B8; exact Pipeline.withArrays_of_ne spec2 c _ _ b hb
abbrev U8 : (c : Dev nD) → (b : Ref sig .tc) → Buf (Elt F) ((c : Thread nD τ).loc b) := fun c b => B8 m ρ c b
theorem hF2 (c : Dev nD) (w : Fin cfg2.W) : (dat2 (U7 m ρ) c).arrAt w cfg2.N = U8 m ρ c (Pipeline.arrRef spec2 w) :=
  (B8_arr m ρ c w).symm
theorem hrest2 (c : Dev nD) : ∀ b, b ∉ Finset.univ.image (Pipeline.arrRef spec2) → U8 m ρ c b = U7 m ρ c b :=
  fun b hb => B8_of_ne m ρ c b fun w e => hb (Finset.mem_image.mpr ⟨w, Finset.mem_univ _, e⟩)

/-- After the third aggregation: the last region's entry. -/
abbrev B9 : Dev nD → Valuation τ sig (Elt F) := fun c => StableHlo.after hostOps3 (B8 m ρ c)

/-- The same contents read at the TensorCore's references: what region 3's proof data take. -/
abbrev U9 : (c : Dev nD) → (b : Ref sig .tc) → Buf (Elt F) ((c : Thread nD τ).loc b) := fun c b => B9 m ρ c b
/-- At region 3's exit: its arrays at what the pipeline leaves (an input as entered, the output with every tile's
    write-back folded in), every other buffer as entered. -/
def B10 (c : Dev nD) : Valuation τ sig (Elt F) :=
  Pipeline.withArrays spec3 c (B9 m ρ c) fun w => (dat3 (U9 m ρ) c).arrAt w cfg3.N
theorem B10_arr (c : Dev nD) (w : Fin cfg3.W) :
    B10 m ρ c (Proc.devRef .tc (Pipeline.arrRef spec3 w)) = (dat3 (U9 m ρ) c).arrAt w cfg3.N := by
  unfold B10; exact Pipeline.withArrays_arr spec3 launch3.win.arr_inj c _ _ w
theorem B10_of_ne (c : Dev nD) (b : Ref sig .tc) (hb : ∀ w, Pipeline.arrRef spec3 w ≠ b) :
    B10 m ρ c (Proc.devRef .tc b) = B9 m ρ c (Proc.devRef .tc b) := by
  unfold B10; exact Pipeline.withArrays_of_ne spec3 c _ _ b hb
abbrev U10 : (c : Dev nD) → (b : Ref sig .tc) → Buf (Elt F) ((c : Thread nD τ).loc b) := fun c b => B10 m ρ c b
theorem hF3 (c : Dev nD) (w : Fin cfg3.W) : (dat3 (U9 m ρ) c).arrAt w cfg3.N = U10 m ρ c (Pipeline.arrRef spec3 w) :=
  (B10_arr m ρ c w).symm
theorem hrest3 (c : Dev nD) : ∀ b, b ∉ Finset.univ.image (Pipeline.arrRef spec3) → U10 m ρ c b = U9 m ρ c b :=
  fun b hb => B10_of_ne m ρ c b fun w e => hb (Finset.mem_image.mpr ⟨w, Finset.mem_univ _, e⟩)

/-! ## The proof data family and the thread state -/

/-- No pipeline has a prefetched table. -/
abbrev tadm : (p : Fin 4) → (pcfgs (F := F) p).Adm := fun p => (cfgs p).toPCfg_adm
/-- Every pipeline's proof data, each at its region's entry contents. -/
def pd : (p : Fin 4) → (c : Dev nD) → Dat τ (Elt F) Unit ℕ (UR sig nD τ) ℕ (Pipeline.pin (pcfgs (F := F)) tadm p) c
  | ⟨0, _⟩ => fun c => dat0 (U3 m ρ) c
  | ⟨1, _⟩ => fun c => dat1 (U5 m ρ) c
  | ⟨2, _⟩ => fun c => dat2 (U7 m ρ) c
  | ⟨3, _⟩ => fun c => dat3 (U9 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (B10 m ρ c) ∗ ∃ r, prngReg c r)

/-! ## The regions as segments -/

set_option backward.isDefEq.respectTransparency.types false in
/-- Region 0 over the thread state: entered with every unscoped buffer at `B3`, left with them at `B4`. Its
    arrays are split out of the unscoped buffers and put back at what the pipeline leaves in them; the generator
    register goes into the pipeline's invariant and comes back; nothing is owed; the kernel has no semaphore of its own. -/
def rg0 : Pipeline.RegionSeg (pcfgs (F := F)) tadm (pd m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U3 m ρ) c).loose
  hwaits := Pipeline.hwaits_of_owed_zero _ _ _ _ L lv 0 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec0 c (U3 m ρ c)
  hentry c := by
    rw [Pipeline.ownSems0_none]
    have hsplit := Pipeline.arrays_of_unscopedBufs (p := 0) (pcfgs (F := F)) tadm (pd m ρ) launch0.win launch0.arr_whole c
      ((pd m ρ 0 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pd m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tadm (Ix := Unit) (Name := ℕ) (U := UR sig nD τ) (Lvl := ℕ)
      launch0.win launch0.arr_whole c (pd m ρ) ((pd m ρ 0 c).share_full fun _ => rfl)
      (U3 m ρ c) (U4 m ρ c) ((pd m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `B5`, left with them at `B6`. Its
    arrays are split out of the unscoped buffers and put back at what the pipeline leaves in them; the generator
    register goes into the pipeline's invariant and comes back; nothing is owed; the kernel has no semaphore of its own. -/
def rg1 : Pipeline.RegionSeg (pcfgs (F := F)) tadm (pd m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U5 m ρ) c).loose
  hwaits := Pipeline.hwaits_of_owed_zero _ _ _ _ L lv 1 fun _ _ => rfl
  pre c := iprop(StableHlo.held (c : Thread nD τ) (Pipeline.ucRefs τ sig) (B5 m ρ c) ∗ R c)
  post c := iprop(StableHlo.held (c : Thread nD τ) (Pipeline.ucRefs τ sig) (B6 m ρ c) ∗ R c)
  X c := iprop(∃ r, prngReg c r)
  Y c := iprop(∃ r, prngReg c r)
  Z c := Pipeline.unscopedRest (Ix := Unit) (Name := ℕ) (U := UR sig nD τ) (Lvl := ℕ) spec1 c (U5 m ρ c)
  hentry c := by
    rw [Pipeline.ownSems0_none]
    have hsplit := Pipeline.arrays_of_unscopedBufs (p := 1) (pcfgs (F := F)) tadm (pd m ρ) launch1.win launch1.arr_whole c
      ((pd m ρ 1 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pd m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tadm (Ix := Unit) (Name := ℕ) (U := UR sig nD τ) (Lvl := ℕ)
      launch1.win launch1.arr_whole c (pd m ρ) ((pd m ρ 1 c).share_full fun _ => rfl)
      (U5 m ρ c) (U6 m ρ c) ((pd m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `B7`, left with them at `B8`. Its
    arrays are split out of the unscoped buffers and put back at what the pipeline leaves in them; the generator
    register goes into the pipeline's invariant and comes back; nothing is owed; the kernel has no semaphore of its own. -/
def rg2 : Pipeline.RegionSeg (pcfgs (F := F)) tadm (pd m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U7 m ρ) c).loose
  hwaits := Pipeline.hwaits_of_owed_zero _ _ _ _ L lv 2 fun _ _ => rfl
  pre c := iprop(StableHlo.held (c : Thread nD τ) (Pipeline.ucRefs τ sig) (B7 m ρ c) ∗ R c)
  post c := iprop(StableHlo.held (c : Thread nD τ) (Pipeline.ucRefs τ sig) (B8 m ρ c) ∗ R c)
  X c := iprop(∃ r, prngReg c r)
  Y c := iprop(∃ r, prngReg c r)
  Z c := Pipeline.unscopedRest (Ix := Unit) (Name := ℕ) (U := UR sig nD τ) (Lvl := ℕ) spec2 c (U7 m ρ c)
  hentry c := by
    rw [Pipeline.ownSems0_none]
    have hsplit := Pipeline.arrays_of_unscopedBufs (p := 2) (pcfgs (F := F)) tadm (pd m ρ) launch2.win launch2.arr_whole c
      ((pd m ρ 2 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pd m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) tadm (Ix := Unit) (Name := ℕ) (U := UR sig nD τ) (Lvl := ℕ)
      launch2.win launch2.arr_whole c (pd m ρ) ((pd m ρ 2 c).share_full fun _ => rfl)
      (U7 m ρ c) (U8 m ρ c) ((pd m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `B9`, left with them at `B10`. Its
    arrays are split out of the unscoped buffers and put back at what the pipeline leaves in them; the generator
    register goes into the pipeline's invariant and comes back; nothing is owed; the kernel has no semaphore of its own. -/
def rg3 : Pipeline.RegionSeg (pcfgs (F := F)) tadm (pd m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U9 m ρ) c).loose
  hwaits := Pipeline.hwaits_of_owed_zero _ _ _ _ L lv 3 fun _ _ => rfl
  pre c := iprop(StableHlo.held (c : Thread nD τ) (Pipeline.ucRefs τ sig) (B9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (U9 m ρ c)
  hentry c := by
    rw [Pipeline.ownSems0_none]
    have hsplit := Pipeline.arrays_of_unscopedBufs (p := 3) (pcfgs (F := F)) tadm (pd m ρ) launch3.win launch3.arr_whole c
      ((pd m ρ 3 c).share_full fun _ => rfl) (U9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin3 (U9 m ρ) c _
  hout c := hout3 (U9 m ρ) c
  hexit c := by
    have hjoin := Pipeline.unscopedBufs_of_arrays (p := 3) (pcfgs (F := F)) tadm (Ix := Unit) (Name := ℕ) (U := UR sig nD τ) (Lvl := ℕ)
      launch3.win launch3.arr_whole c (pd m ρ) ((pd m ρ 3 c).share_full fun _ => rfl)
      (U9 m ρ c) (U10 m ρ c) ((pd m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the run -/

abbrev sgs : List (Pipeline.Seg (pcfgs (F := F)) tadm (pd m ρ) () defs₀ 𝒱₀ L lv) :=
  [ .host (hseg hostOps0 hostOps0_sub hostOps0_fresh (B0 m ρ)),
    .host (hseg hostOps0_1 hostOps0_1_sub hostOps0_1_fresh (B1 m ρ)),
    .host (hseg hostOps0_2 hostOps0_2_sub hostOps0_2_fresh (B2 m ρ)),
    .region (rg0 m ρ),
    .host (hseg hostOps1 hostOps1_sub hostOps1_fresh (B4 m ρ)),
    .region (rg1 m ρ),
    .host (hseg hostOps2 hostOps2_sub hostOps2_fresh (B6 m ρ)),
    .region (rg2 m ρ),
    .host (hseg hostOps3 hostOps3_sub hostOps3_fresh (B8 m ρ)),
    .region (rg3 m ρ) ]

theorem main_run (c : Dev nD) : main (F := F) c = Pipeline.Seg.run (sgs m ρ) := (main_chain c).trans (by chain_rfl)

set_option backward.isDefEq.respectTransparency.types false in
/-- THE RUN. From any memory with zero counters every weakly fair execution of the program terminates, nothing
    faulting, and in the final state every unscoped buffer of every core holds the last boundary's contents `B10`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B10 m ρ c b) :=
  Pipeline.θ_run_regions_kit (pcfgs (F := F)) tadm (pd m ρ) () cellOf_inj emb₁ defs₀ 𝒱₀ L lv m ρ main (sgs m ρ)
    (fun c Q => by rw [main_run m ρ c])
    (by simp only [sgs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B10 m ρ c b)
    (hfin := fun c s' => by
      iintro ⟨⟨Hh, -⟩, HSI⟩
      unfold StableHlo.held
      imodintro
      iapply (pointsTo_read_all (Pipeline.ucRefs τ sig) (fun b => (((c : Thread nD τ)).1, b)) (B10 m ρ c) s')
      isplitl [Hh] <;> iassumption)
    (hQ := fun s h c => h c)

end Cert.Kernel.Chain

end
-- ==== Proof.BFrameK.lean ====
/-
  The frame of the program: it runs to the end, nothing faults, and every argument array ends holding what it was
  launched with. Each argument's buffer is followed from boundary to boundary: a host stretch does not write it; a
  region bypasses it, or stages it as an input window, which is never written back.
-/
import proofs.«113868_j87711822119195_1_alg».proof.Proof.BChain

set_option maxRecDepth 16384

noncomputable section

namespace Cert.Kernel.Chain

open Cert.Kernel Cert.Kernel.Gen
open Cert.Kernel.MatA Cert.Kernel.MatB Cert.Kernel.MatC Cert.Kernel.Pool
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

/-! ## Every argument's buffer at every boundary holds its launch contents -/

theorem B0_arg0 (c : Dev nD) : B0 m ρ c (Proc.devRef .tc main_arg0) = m ((c : Thread nD τ).loc main_arg0) := rfl
theorem B1_arg0 (c : Dev nD) : B1 m ρ c (Proc.devRef .tc main_arg0) = m ((c : Thread nD τ).loc main_arg0) :=
  (StableHlo.after_of_writes_sub hostOps0 _ hostOps0_writes (by decide : main_arg0 ∉ hostOps0_W)).trans (B0_arg0 m ρ c)
theorem B2_arg0 (c : Dev nD) : B2 m ρ c (Proc.devRef .tc main_arg0) = m ((c : Thread nD τ).loc main_arg0) :=
  (StableHlo.after_of_writes_sub hostOps0_1 _ hostOps0_1_writes (by decide : main_arg0 ∉ hostOps0_1_W)).trans (B1_arg0 m ρ c)
theorem B3_arg0 (c : Dev nD) : B3 m ρ c (Proc.devRef .tc main_arg0) = m ((c : Thread nD τ).loc main_arg0) :=
  (StableHlo.after_of_writes_sub hostOps0_2 _ hostOps0_2_writes (by decide : main_arg0 ∉ hostOps0_2_W)).trans (B2_arg0 m ρ c)
theorem B4_arg0 (c : Dev nD) : B4 m ρ c (Proc.devRef .tc main_arg0) = m ((c : Thread nD τ).loc main_arg0) :=
  ((B4_arr m ρ c 0).trans (((dat0 (U3 m ρ) c).arrAt_in 0 rfl _).trans (A_eq0 (U3 m ρ) c 0))).trans (B3_arg0 m ρ c)
theorem B5_arg0 (c : Dev nD) : B5 m ρ c (Proc.devRef .tc main_arg0) = m ((c : Thread nD τ).loc main_arg0) :=
  (StableHlo.after_of_writes_sub hostOps1 _ hostOps1_writes (by decide : main_arg0 ∉ hostOps1_W)).trans (B4_arg0 m ρ c)
theorem B6_arg0 (c : Dev nD) : B6 m ρ c (Proc.devRef .tc main_arg0) = m ((c : Thread nD τ).loc main_arg0) :=
  (B6_of_ne m ρ c main_arg0 (by decide)).trans (B5_arg0 m ρ c)
theorem B7_arg0 (c : Dev nD) : B7 m ρ c (Proc.devRef .tc main_arg0) = m ((c : Thread nD τ).loc main_arg0) :=
  (StableHlo.after_of_writes_sub hostOps2 _ hostOps2_writes (by decide : main_arg0 ∉ hostOps2_W)).trans (B6_arg0 m ρ c)
theorem B8_arg0 (c : Dev nD) : B8 m ρ c (Proc.devRef .tc main_arg0) = m ((c : Thread nD τ).loc main_arg0) :=
  (B8_of_ne m ρ c main_arg0 (by decide)).trans (B7_arg0 m ρ c)
theorem B9_arg0 (c : Dev nD) : B9 m ρ c (Proc.devRef .tc main_arg0) = m ((c : Thread nD τ).loc main_arg0) :=
  (StableHlo.after_of_writes_sub hostOps3 _ hostOps3_writes (by decide : main_arg0 ∉ hostOps3_W)).trans (B8_arg0 m ρ c)
theorem B10_arg0 (c : Dev nD) : B10 m ρ c (Proc.devRef .tc main_arg0) = m ((c : Thread nD τ).loc main_arg0) :=
  (B10_of_ne m ρ c main_arg0 (by decide)).trans (B9_arg0 m ρ c)

theorem B0_arg1 (c : Dev nD) : B0 m ρ c (Proc.devRef .tc main_arg1) = m ((c : Thread nD τ).loc main_arg1) := rfl
theorem B1_arg1 (c : Dev nD) : B1 m ρ c (Proc.devRef .tc main_arg1) = m ((c : Thread nD τ).loc main_arg1) :=
  (StableHlo.after_of_writes_sub hostOps0 _ hostOps0_writes (by decide : main_arg1 ∉ hostOps0_W)).trans (B0_arg1 m ρ c)
theorem B2_arg1 (c : Dev nD) : B2 m ρ c (Proc.devRef .tc main_arg1) = m ((c : Thread nD τ).loc main_arg1) :=
  (StableHlo.after_of_writes_sub hostOps0_1 _ hostOps0_1_writes (by decide : main_arg1 ∉ hostOps0_1_W)).trans (B1_arg1 m ρ c)
theorem B3_arg1 (c : Dev nD) : B3 m ρ c (Proc.devRef .tc main_arg1) = m ((c : Thread nD τ).loc main_arg1) :=
  (StableHlo.after_of_writes_sub hostOps0_2 _ hostOps0_2_writes (by decide : main_arg1 ∉ hostOps0_2_W)).trans (B2_arg1 m ρ c)
theorem B4_arg1 (c : Dev nD) : B4 m ρ c (Proc.devRef .tc main_arg1) = m ((c : Thread nD τ).loc main_arg1) :=
  (B4_of_ne m ρ c main_arg1 (by decide)).trans (B3_arg1 m ρ c)
theorem B5_arg1 (c : Dev nD) : B5 m ρ c (Proc.devRef .tc main_arg1) = m ((c : Thread nD τ).loc main_arg1) :=
  (StableHlo.after_of_writes_sub hostOps1 _ hostOps1_writes (by decide : main_arg1 ∉ hostOps1_W)).trans (B4_arg1 m ρ c)
theorem B6_arg1 (c : Dev nD) : B6 m ρ c (Proc.devRef .tc main_arg1) = m ((c : Thread nD τ).loc main_arg1) :=
  (B6_of_ne m ρ c main_arg1 (by decide)).trans (B5_arg1 m ρ c)
theorem B7_arg1 (c : Dev nD) : B7 m ρ c (Proc.devRef .tc main_arg1) = m ((c : Thread nD τ).loc main_arg1) :=
  (StableHlo.after_of_writes_sub hostOps2 _ hostOps2_writes (by decide : main_arg1 ∉ hostOps2_W)).trans (B6_arg1 m ρ c)
theorem B8_arg1 (c : Dev nD) : B8 m ρ c (Proc.devRef .tc main_arg1) = m ((c : Thread nD τ).loc main_arg1) :=
  (B8_of_ne m ρ c main_arg1 (by decide)).trans (B7_arg1 m ρ c)
theorem B9_arg1 (c : Dev nD) : B9 m ρ c (Proc.devRef .tc main_arg1) = m ((c : Thread nD τ).loc main_arg1) :=
  (StableHlo.after_of_writes_sub hostOps3 _ hostOps3_writes (by decide : main_arg1 ∉ hostOps3_W)).trans (B8_arg1 m ρ c)
theorem B10_arg1 (c : Dev nD) : B10 m ρ c (Proc.devRef .tc main_arg1) = m ((c : Thread nD τ).loc main_arg1) :=
  (B10_of_ne m ρ c main_arg1 (by decide)).trans (B9_arg1 m ρ c)

theorem B0_arg2 (c : Dev nD) : B0 m ρ c (Proc.devRef .tc main_arg2) = m ((c : Thread nD τ).loc main_arg2) := rfl
theorem B1_arg2 (c : Dev nD) : B1 m ρ c (Proc.devRef .tc main_arg2) = m ((c : Thread nD τ).loc main_arg2) :=
  (StableHlo.after_of_writes_sub hostOps0 _ hostOps0_writes (by decide : main_arg2 ∉ hostOps0_W)).trans (B0_arg2 m ρ c)
theorem B2_arg2 (c : Dev nD) : B2 m ρ c (Proc.devRef .tc main_arg2) = m ((c : Thread nD τ).loc main_arg2) :=
  (StableHlo.after_of_writes_sub hostOps0_1 _ hostOps0_1_writes (by decide : main_arg2 ∉ hostOps0_1_W)).trans (B1_arg2 m ρ c)
theorem B3_arg2 (c : Dev nD) : B3 m ρ c (Proc.devRef .tc main_arg2) = m ((c : Thread nD τ).loc main_arg2) :=
  (StableHlo.after_of_writes_sub hostOps0_2 _ hostOps0_2_writes (by decide : main_arg2 ∉ hostOps0_2_W)).trans (B2_arg2 m ρ c)
theorem B4_arg2 (c : Dev nD) : B4 m ρ c (Proc.devRef .tc main_arg2) = m ((c : Thread nD τ).loc main_arg2) :=
  ((B4_arr m ρ c 1).trans (((dat0 (U3 m ρ) c).arrAt_in 1 rfl _).trans (A_eq0 (U3 m ρ) c 1))).trans (B3_arg2 m ρ c)
theorem B5_arg2 (c : Dev nD) : B5 m ρ c (Proc.devRef .tc main_arg2) = m ((c : Thread nD τ).loc main_arg2) :=
  (StableHlo.after_of_writes_sub hostOps1 _ hostOps1_writes (by decide : main_arg2 ∉ hostOps1_W)).trans (B4_arg2 m ρ c)
theorem B6_arg2 (c : Dev nD) : B6 m ρ c (Proc.devRef .tc main_arg2) = m ((c : Thread nD τ).loc main_arg2) :=
  (B6_of_ne m ρ c main_arg2 (by decide)).trans (B5_arg2 m ρ c)
theorem B7_arg2 (c : Dev nD) : B7 m ρ c (Proc.devRef .tc main_arg2) = m ((c : Thread nD τ).loc main_arg2) :=
  (StableHlo.after_of_writes_sub hostOps2 _ hostOps2_writes (by decide : main_arg2 ∉ hostOps2_W)).trans (B6_arg2 m ρ c)
theorem B8_arg2 (c : Dev nD) : B8 m ρ c (Proc.devRef .tc main_arg2) = m ((c : Thread nD τ).loc main_arg2) :=
  (B8_of_ne m ρ c main_arg2 (by decide)).trans (B7_arg2 m ρ c)
theorem B9_arg2 (c : Dev nD) : B9 m ρ c (Proc.devRef .tc main_arg2) = m ((c : Thread nD τ).loc main_arg2) :=
  (StableHlo.after_of_writes_sub hostOps3 _ hostOps3_writes (by decide : main_arg2 ∉ hostOps3_W)).trans (B8_arg2 m ρ c)
theorem B10_arg2 (c : Dev nD) : B10 m ρ c (Proc.devRef .tc main_arg2) = m ((c : Thread nD τ).loc main_arg2) :=
  (B10_of_ne m ρ c main_arg2 (by decide)).trans (B9_arg2 m ρ c)

theorem B0_arg3 (c : Dev nD) : B0 m ρ c (Proc.devRef .tc main_arg3) = m ((c : Thread nD τ).loc main_arg3) := rfl
theorem B1_arg3 (c : Dev nD) : B1 m ρ c (Proc.devRef .tc main_arg3) = m ((c : Thread nD τ).loc main_arg3) :=
  (StableHlo.after_of_writes_sub hostOps0 _ hostOps0_writes (by decide : main_arg3 ∉ hostOps0_W)).trans (B0_arg3 m ρ c)
theorem B2_arg3 (c : Dev nD) : B2 m ρ c (Proc.devRef .tc main_arg3) = m ((c : Thread nD τ).loc main_arg3) :=
  (StableHlo.after_of_writes_sub hostOps0_1 _ hostOps0_1_writes (by decide : main_arg3 ∉ hostOps0_1_W)).trans (B1_arg3 m ρ c)
theorem B3_arg3 (c : Dev nD) : B3 m ρ c (Proc.devRef .tc main_arg3) = m ((c : Thread nD τ).loc main_arg3) :=
  (StableHlo.after_of_writes_sub hostOps0_2 _ hostOps0_2_writes (by decide : main_arg3 ∉ hostOps0_2_W)).trans (B2_arg3 m ρ c)
theorem B4_arg3 (c : Dev nD) : B4 m ρ c (Proc.devRef .tc main_arg3) = m ((c : Thread nD τ).loc main_arg3) :=
  (B4_of_ne m ρ c main_arg3 (by decide)).trans (B3_arg3 m ρ c)
theorem B5_arg3 (c : Dev nD) : B5 m ρ c (Proc.devRef .tc main_arg3) = m ((c : Thread nD τ).loc main_arg3) :=
  (StableHlo.after_of_writes_sub hostOps1 _ hostOps1_writes (by decide : main_arg3 ∉ hostOps1_W)).trans (B4_arg3 m ρ c)
theorem B6_arg3 (c : Dev nD) : B6 m ρ c (Proc.devRef .tc main_arg3) = m ((c : Thread nD τ).loc main_arg3) :=
  (B6_of_ne m ρ c main_arg3 (by decide)).trans (B5_arg3 m ρ c)
theorem B7_arg3 (c : Dev nD) : B7 m ρ c (Proc.devRef .tc main_arg3) = m ((c : Thread nD τ).loc main_arg3) :=
  (StableHlo.after_of_writes_sub hostOps2 _ hostOps2_writes (by decide : main_arg3 ∉ hostOps2_W)).trans (B6_arg3 m ρ c)
theorem B8_arg3 (c : Dev nD) : B8 m ρ c (Proc.devRef .tc main_arg3) = m ((c : Thread nD τ).loc main_arg3) :=
  (B8_of_ne m ρ c main_arg3 (by decide)).trans (B7_arg3 m ρ c)
theorem B9_arg3 (c : Dev nD) : B9 m ρ c (Proc.devRef .tc main_arg3) = m ((c : Thread nD τ).loc main_arg3) :=
  (StableHlo.after_of_writes_sub hostOps3 _ hostOps3_writes (by decide : main_arg3 ∉ hostOps3_W)).trans (B8_arg3 m ρ c)
theorem B10_arg3 (c : Dev nD) : B10 m ρ c (Proc.devRef .tc main_arg3) = m ((c : Thread nD τ).loc main_arg3) :=
  (B10_of_ne m ρ c main_arg3 (by decide)).trans (B9_arg3 m ρ c)

theorem B0_arg4 (c : Dev nD) : B0 m ρ c (Proc.devRef .tc main_arg4) = m ((c : Thread nD τ).loc main_arg4) := rfl
theorem B1_arg4 (c : Dev nD) : B1 m ρ c (Proc.devRef .tc main_arg4) = m ((c : Thread nD τ).loc main_arg4) :=
  (StableHlo.after_of_writes_sub hostOps0 _ hostOps0_writes (by decide : main_arg4 ∉ hostOps0_W)).trans (B0_arg4 m ρ c)
theorem B2_arg4 (c : Dev nD) : B2 m ρ c (Proc.devRef .tc main_arg4) = m ((c : Thread nD τ).loc main_arg4) :=
  (StableHlo.after_of_writes_sub hostOps0_1 _ hostOps0_1_writes (by decide : main_arg4 ∉ hostOps0_1_W)).trans (B1_arg4 m ρ c)
theorem B3_arg4 (c : Dev nD) : B3 m ρ c (Proc.devRef .tc main_arg4) = m ((c : Thread nD τ).loc main_arg4) :=
  (StableHlo.after_of_writes_sub hostOps0_2 _ hostOps0_2_writes (by decide : main_arg4 ∉ hostOps0_2_W)).trans (B2_arg4 m ρ c)
theorem B4_arg4 (c : Dev nD) : B4 m ρ c (Proc.devRef .tc main_arg4) = m ((c : Thread nD τ).loc main_arg4) :=
  (B4_of_ne m ρ c main_arg4 (by decide)).trans (B3_arg4 m ρ c)
theorem B5_arg4 (c : Dev nD) : B5 m ρ c (Proc.devRef .tc main_arg4) = m ((c : Thread nD τ).loc main_arg4) :=
  (StableHlo.after_of_writes_sub hostOps1 _ hostOps1_writes (by decide : main_arg4 ∉ hostOps1_W)).trans (B4_arg4 m ρ c)
theorem B6_arg4 (c : Dev nD) : B6 m ρ c (Proc.devRef .tc main_arg4) = m ((c : Thread nD τ).loc main_arg4) :=
  ((B6_arr m ρ c 2).trans (((dat1 (U5 m ρ) c).arrAt_in 2 rfl _).trans (A_eq1 (U5 m ρ) c 2))).trans (B5_arg4 m ρ c)
theorem B7_arg4 (c : Dev nD) : B7 m ρ c (Proc.devRef .tc main_arg4) = m ((c : Thread nD τ).loc main_arg4) :=
  (StableHlo.after_of_writes_sub hostOps2 _ hostOps2_writes (by decide : main_arg4 ∉ hostOps2_W)).trans (B6_arg4 m ρ c)
theorem B8_arg4 (c : Dev nD) : B8 m ρ c (Proc.devRef .tc main_arg4) = m ((c : Thread nD τ).loc main_arg4) :=
  (B8_of_ne m ρ c main_arg4 (by decide)).trans (B7_arg4 m ρ c)
theorem B9_arg4 (c : Dev nD) : B9 m ρ c (Proc.devRef .tc main_arg4) = m ((c : Thread nD τ).loc main_arg4) :=
  (StableHlo.after_of_writes_sub hostOps3 _ hostOps3_writes (by decide : main_arg4 ∉ hostOps3_W)).trans (B8_arg4 m ρ c)
theorem B10_arg4 (c : Dev nD) : B10 m ρ c (Proc.devRef .tc main_arg4) = m ((c : Thread nD τ).loc main_arg4) :=
  (B10_of_ne m ρ c main_arg4 (by decide)).trans (B9_arg4 m ρ c)

theorem B0_arg5 (c : Dev nD) : B0 m ρ c (Proc.devRef .tc main_arg5) = m ((c : Thread nD τ).loc main_arg5) := rfl
theorem B1_arg5 (c : Dev nD) : B1 m ρ c (Proc.devRef .tc main_arg5) = m ((c : Thread nD τ).loc main_arg5) :=
  (StableHlo.after_of_writes_sub hostOps0 _ hostOps0_writes (by decide : main_arg5 ∉ hostOps0_W)).trans (B0_arg5 m ρ c)
theorem B2_arg5 (c : Dev nD) : B2 m ρ c (Proc.devRef .tc main_arg5) = m ((c : Thread nD τ).loc main_arg5) :=
  (StableHlo.after_of_writes_sub hostOps0_1 _ hostOps0_1_writes (by decide : main_arg5 ∉ hostOps0_1_W)).trans (B1_arg5 m ρ c)
theorem B3_arg5 (c : Dev nD) : B3 m ρ c (Proc.devRef .tc main_arg5) = m ((c : Thread nD τ).loc main_arg5) :=
  (StableHlo.after_of_writes_sub hostOps0_2 _ hostOps0_2_writes (by decide : main_arg5 ∉ hostOps0_2_W)).trans (B2_arg5 m ρ c)
theorem B4_arg5 (c : Dev nD) : B4 m ρ c (Proc.devRef .tc main_arg5) = m ((c : Thread nD τ).loc main_arg5) :=
  (B4_of_ne m ρ c main_arg5 (by decide)).trans (B3_arg5 m ρ c)
theorem B5_arg5 (c : Dev nD) : B5 m ρ c (Proc.devRef .tc main_arg5) = m ((c : Thread nD τ).loc main_arg5) :=
  (StableHlo.after_of_writes_sub hostOps1 _ hostOps1_writes (by decide : main_arg5 ∉ hostOps1_W)).trans (B4_arg5 m ρ c)
theorem B6_arg5 (c : Dev nD) : B6 m ρ c (Proc.devRef .tc main_arg5) = m ((c : Thread nD τ).loc main_arg5) :=
  (B6_of_ne m ρ c main_arg5 (by decide)).trans (B5_arg5 m ρ c)
theorem B7_arg5 (c : Dev nD) : B7 m ρ c (Proc.devRef .tc main_arg5) = m ((c : Thread nD τ).loc main_arg5) :=
  (StableHlo.after_of_writes_sub hostOps2 _ hostOps2_writes (by decide : main_arg5 ∉ hostOps2_W)).trans (B6_arg5 m ρ c)
theorem B8_arg5 (c : Dev nD) : B8 m ρ c (Proc.devRef .tc main_arg5) = m ((c : Thread nD τ).loc main_arg5) :=
  (B8_of_ne m ρ c main_arg5 (by decide)).trans (B7_arg5 m ρ c)
theorem B9_arg5 (c : Dev nD) : B9 m ρ c (Proc.devRef .tc main_arg5) = m ((c : Thread nD τ).loc main_arg5) :=
  (StableHlo.after_of_writes_sub hostOps3 _ hostOps3_writes (by decide : main_arg5 ∉ hostOps3_W)).trans (B8_arg5 m ρ c)
theorem B10_arg5 (c : Dev nD) : B10 m ρ c (Proc.devRef .tc main_arg5) = m ((c : Thread nD τ).loc main_arg5) :=
  (B10_of_ne m ρ c main_arg5 (by decide)).trans (B9_arg5 m ρ c)

theorem B0_arg6 (c : Dev nD) : B0 m ρ c (Proc.devRef .tc main_arg6) = m ((c : Thread nD τ).loc main_arg6) := rfl
theorem B1_arg6 (c : Dev nD) : B1 m ρ c (Proc.devRef .tc main_arg6) = m ((c : Thread nD τ).loc main_arg6) :=
  (StableHlo.after_of_writes_sub hostOps0 _ hostOps0_writes (by decide : main_arg6 ∉ hostOps0_W)).trans (B0_arg6 m ρ c)
theorem B2_arg6 (c : Dev nD) : B2 m ρ c (Proc.devRef .tc main_arg6) = m ((c : Thread nD τ).loc main_arg6) :=
  (StableHlo.after_of_writes_sub hostOps0_1 _ hostOps0_1_writes (by decide : main_arg6 ∉ hostOps0_1_W)).trans (B1_arg6 m ρ c)
theorem B3_arg6 (c : Dev nD) : B3 m ρ c (Proc.devRef .tc main_arg6) = m ((c : Thread nD τ).loc main_arg6) :=
  (StableHlo.after_of_writes_sub hostOps0_2 _ hostOps0_2_writes (by decide : main_arg6 ∉ hostOps0_2_W)).trans (B2_arg6 m ρ c)
theorem B4_arg6 (c : Dev nD) : B4 m ρ c (Proc.devRef .tc main_arg6) = m ((c : Thread nD τ).loc main_arg6) :=
  (B4_of_ne m ρ c main_arg6 (by decide)).trans (B3_arg6 m ρ c)
theorem B5_arg6 (c : Dev nD) : B5 m ρ c (Proc.devRef .tc main_arg6) = m ((c : Thread nD τ).loc main_arg6) :=
  (StableHlo.after_of_writes_sub hostOps1 _ hostOps1_writes (by decide : main_arg6 ∉ hostOps1_W)).trans (B4_arg6 m ρ c)
theorem B6_arg6 (c : Dev nD) : B6 m ρ c (Proc.devRef .tc main_arg6) = m ((c : Thread nD τ).loc main_arg6) :=
  (B6_of_ne m ρ c main_arg6 (by decide)).trans (B5_arg6 m ρ c)
theorem B7_arg6 (c : Dev nD) : B7 m ρ c (Proc.devRef .tc main_arg6) = m ((c : Thread nD τ).loc main_arg6) :=
  (StableHlo.after_of_writes_sub hostOps2 _ hostOps2_writes (by decide : main_arg6 ∉ hostOps2_W)).trans (B6_arg6 m ρ c)
theorem B8_arg6 (c : Dev nD) : B8 m ρ c (Proc.devRef .tc main_arg6) = m ((c : Thread nD τ).loc main_arg6) :=
  ((B8_arr m ρ c 2).trans (((dat2 (U7 m ρ) c).arrAt_in 2 rfl _).trans (A_eq2 (U7 m ρ) c 2))).trans (B7_arg6 m ρ c)
theorem B9_arg6 (c : Dev nD) : B9 m ρ c (Proc.devRef .tc main_arg6) = m ((c : Thread nD τ).loc main_arg6) :=
  (StableHlo.after_of_writes_sub hostOps3 _ hostOps3_writes (by decide : main_arg6 ∉ hostOps3_W)).trans (B8_arg6 m ρ c)
theorem B10_arg6 (c : Dev nD) : B10 m ρ c (Proc.devRef .tc main_arg6) = m ((c : Thread nD τ).loc main_arg6) :=
  (B10_of_ne m ρ c main_arg6 (by decide)).trans (B9_arg6 m ρ c)

theorem B0_arg7 (c : Dev nD) : B0 m ρ c (Proc.devRef .tc main_arg7) = m ((c : Thread nD τ).loc main_arg7) := rfl
theorem B1_arg7 (c : Dev nD) : B1 m ρ c (Proc.devRef .tc main_arg7) = m ((c : Thread nD τ).loc main_arg7) :=
  (StableHlo.after_of_writes_sub hostOps0 _ hostOps0_writes (by decide : main_arg7 ∉ hostOps0_W)).trans (B0_arg7 m ρ c)
theorem B2_arg7 (c : Dev nD) : B2 m ρ c (Proc.devRef .tc main_arg7) = m ((c : Thread nD τ).loc main_arg7) :=
  (StableHlo.after_of_writes_sub hostOps0_1 _ hostOps0_1_writes (by decide : main_arg7 ∉ hostOps0_1_W)).trans (B1_arg7 m ρ c)
theorem B3_arg7 (c : Dev nD) : B3 m ρ c (Proc.devRef .tc main_arg7) = m ((c : Thread nD τ).loc main_arg7) :=
  (StableHlo.after_of_writes_sub hostOps0_2 _ hostOps0_2_writes (by decide : main_arg7 ∉ hostOps0_2_W)).trans (B2_arg7 m ρ c)
theorem B4_arg7 (c : Dev nD) : B4 m ρ c (Proc.devRef .tc main_arg7) = m ((c : Thread nD τ).loc main_arg7) :=
  (B4_of_ne m ρ c main_arg7 (by decide)).trans (B3_arg7 m ρ c)
theorem B5_arg7 (c : Dev nD) : B5 m ρ c (Proc.devRef .tc main_arg7) = m ((c : Thread nD τ).loc main_arg7) :=
  (StableHlo.after_of_writes_sub hostOps1 _ hostOps1_writes (by decide : main_arg7 ∉ hostOps1_W)).trans (B4_arg7 m ρ c)
theorem B6_arg7 (c : Dev nD) : B6 m ρ c (Proc.devRef .tc main_arg7) = m ((c : Thread nD τ).loc main_arg7) :=
  (B6_of_ne m ρ c main_arg7 (by decide)).trans (B5_arg7 m ρ c)
theorem B7_arg7 (c : Dev nD) : B7 m ρ c (Proc.devRef .tc main_arg7) = m ((c : Thread nD τ).loc main_arg7) :=
  (StableHlo.after_of_writes_sub hostOps2 _ hostOps2_writes (by decide : main_arg7 ∉ hostOps2_W)).trans (B6_arg7 m ρ c)
theorem B8_arg7 (c : Dev nD) : B8 m ρ c (Proc.devRef .tc main_arg7) = m ((c : Thread nD τ).loc main_arg7) :=
  (B8_of_ne m ρ c main_arg7 (by decide)).trans (B7_arg7 m ρ c)
theorem B9_arg7 (c : Dev nD) : B9 m ρ c (Proc.devRef .tc main_arg7) = m ((c : Thread nD τ).loc main_arg7) :=
  (StableHlo.after_of_writes_sub hostOps3 _ hostOps3_writes (by decide : main_arg7 ∉ hostOps3_W)).trans (B8_arg7 m ρ c)
theorem B10_arg7 (c : Dev nD) : B10 m ρ c (Proc.devRef .tc main_arg7) = m ((c : Thread nD τ).loc main_arg7) :=
  (B10_of_ne m ρ c main_arg7 (by decide)).trans (B9_arg7 m ρ c)

theorem B0_arg8 (c : Dev nD) : B0 m ρ c (Proc.devRef .tc main_arg8) = m ((c : Thread nD τ).loc main_arg8) := rfl
theorem B1_arg8 (c : Dev nD) : B1 m ρ c (Proc.devRef .tc main_arg8) = m ((c : Thread nD τ).loc main_arg8) :=
  (StableHlo.after_of_writes_sub hostOps0 _ hostOps0_writes (by decide : main_arg8 ∉ hostOps0_W)).trans (B0_arg8 m ρ c)
theorem B2_arg8 (c : Dev nD) : B2 m ρ c (Proc.devRef .tc main_arg8) = m ((c : Thread nD τ).loc main_arg8) :=
  (StableHlo.after_of_writes_sub hostOps0_1 _ hostOps0_1_writes (by decide : main_arg8 ∉ hostOps0_1_W)).trans (B1_arg8 m ρ c)
theorem B3_arg8 (c : Dev nD) : B3 m ρ c (Proc.devRef .tc main_arg8) = m ((c : Thread nD τ).loc main_arg8) :=
  (StableHlo.after_of_writes_sub hostOps0_2 _ hostOps0_2_writes (by decide : main_arg8 ∉ hostOps0_2_W)).trans (B2_arg8 m ρ c)
theorem B4_arg8 (c : Dev nD) : B4 m ρ c (Proc.devRef .tc main_arg8) = m ((c : Thread nD τ).loc main_arg8) :=
  (B4_of_ne m ρ c main_arg8 (by decide)).trans (B3_arg8 m ρ c)
theorem B5_arg8 (c : Dev nD) : B5 m ρ c (Proc.devRef .tc main_arg8) = m ((c : Thread nD τ).loc main_arg8) :=
  (StableHlo.after_of_writes_sub hostOps1 _ hostOps1_writes (by decide : main_arg8 ∉ hostOps1_W)).trans (B4_arg8 m ρ c)
theorem B6_arg8 (c : Dev nD) : B6 m ρ c (Proc.devRef .tc main_arg8) = m ((c : Thread nD τ).loc main_arg8) :=
  (B6_of_ne m ρ c main_arg8 (by decide)).trans (B5_arg8 m ρ c)
theorem B7_arg8 (c : Dev nD) : B7 m ρ c (Proc.devRef .tc main_arg8) = m ((c : Thread nD τ).loc main_arg8) :=
  (StableHlo.after_of_writes_sub hostOps2 _ hostOps2_writes (by decide : main_arg8 ∉ hostOps2_W)).trans (B6_arg8 m ρ c)
theorem B8_arg8 (c : Dev nD) : B8 m ρ c (Proc.devRef .tc main_arg8) = m ((c : Thread nD τ).loc main_arg8) :=
  (B8_of_ne m ρ c main_arg8 (by decide)).trans (B7_arg8 m ρ c)
theorem B9_arg8 (c : Dev nD) : B9 m ρ c (Proc.devRef .tc main_arg8) = m ((c : Thread nD τ).loc main_arg8) :=
  (StableHlo.after_of_writes_sub hostOps3 _ hostOps3_writes (by decide : main_arg8 ∉ hostOps3_W)).trans (B8_arg8 m ρ c)
theorem B10_arg8 (c : Dev nD) : B10 m ρ c (Proc.devRef .tc main_arg8) = m ((c : Thread nD τ).loc main_arg8) :=
  ((B10_arr m ρ c 2).trans (arrAt_in3_2 (U9 m ρ) c _)).trans (B9_arg8 m ρ c)

theorem B0_arg9 (c : Dev nD) : B0 m ρ c (Proc.devRef .tc main_arg9) = m ((c : Thread nD τ).loc main_arg9) := rfl
theorem B1_arg9 (c : Dev nD) : B1 m ρ c (Proc.devRef .tc main_arg9) = m ((c : Thread nD τ).loc main_arg9) :=
  (StableHlo.after_of_writes_sub hostOps0 _ hostOps0_writes (by decide : main_arg9 ∉ hostOps0_W)).trans (B0_arg9 m ρ c)
theorem B2_arg9 (c : Dev nD) : B2 m ρ c (Proc.devRef .tc main_arg9) = m ((c : Thread nD τ).loc main_arg9) :=
  (StableHlo.after_of_writes_sub hostOps0_1 _ hostOps0_1_writes (by decide : main_arg9 ∉ hostOps0_1_W)).trans (B1_arg9 m ρ c)
theorem B3_arg9 (c : Dev nD) : B3 m ρ c (Proc.devRef .tc main_arg9) = m ((c : Thread nD τ).loc main_arg9) :=
  (StableHlo.after_of_writes_sub hostOps0_2 _ hostOps0_2_writes (by decide : main_arg9 ∉ hostOps0_2_W)).trans (B2_arg9 m ρ c)
theorem B4_arg9 (c : Dev nD) : B4 m ρ c (Proc.devRef .tc main_arg9) = m ((c : Thread nD τ).loc main_arg9) :=
  (B4_of_ne m ρ c main_arg9 (by decide)).trans (B3_arg9 m ρ c)
theorem B5_arg9 (c : Dev nD) : B5 m ρ c (Proc.devRef .tc main_arg9) = m ((c : Thread nD τ).loc main_arg9) :=
  (StableHlo.after_of_writes_sub hostOps1 _ hostOps1_writes (by decide : main_arg9 ∉ hostOps1_W)).trans (B4_arg9 m ρ c)
theorem B6_arg9 (c : Dev nD) : B6 m ρ c (Proc.devRef .tc main_arg9) = m ((c : Thread nD τ).loc main_arg9) :=
  (B6_of_ne m ρ c main_arg9 (by decide)).trans (B5_arg9 m ρ c)
theorem B7_arg9 (c : Dev nD) : B7 m ρ c (Proc.devRef .tc main_arg9) = m ((c : Thread nD τ).loc main_arg9) :=
  (StableHlo.after_of_writes_sub hostOps2 _ hostOps2_writes (by decide : main_arg9 ∉ hostOps2_W)).trans (B6_arg9 m ρ c)
theorem B8_arg9 (c : Dev nD) : B8 m ρ c (Proc.devRef .tc main_arg9) = m ((c : Thread nD τ).loc main_arg9) :=
  (B8_of_ne m ρ c main_arg9 (by decide)).trans (B7_arg9 m ρ c)
theorem B9_arg9 (c : Dev nD) : B9 m ρ c (Proc.devRef .tc main_arg9) = m ((c : Thread nD τ).loc main_arg9) :=
  (StableHlo.after_of_writes_sub hostOps3 _ hostOps3_writes (by decide : main_arg9 ∉ hostOps3_W)).trans (B8_arg9 m ρ c)
theorem B10_arg9 (c : Dev nD) : B10 m ρ c (Proc.devRef .tc main_arg9) = m ((c : Thread nD τ).loc main_arg9) :=
  (B10_of_ne m ρ c main_arg9 (by decide)).trans (B9_arg9 m ρ c)

/-- THE FRAME at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (B10_arg0 m ρ c),
      (h c _ (mem_uc main_arg1 (by decide))).trans (B10_arg1 m ρ c),
      (h c _ (mem_uc main_arg2 (by decide))).trans (B10_arg2 m ρ c),
      (h c _ (mem_uc main_arg3 (by decide))).trans (B10_arg3 m ρ c),
      (h c _ (mem_uc main_arg4 (by decide))).trans (B10_arg4 m ρ c),
      (h c _ (mem_uc main_arg5 (by decide))).trans (B10_arg5 m ρ c),
      (h c _ (mem_uc main_arg6 (by decide))).trans (B10_arg6 m ρ c),
      (h c _ (mem_uc main_arg7 (by decide))).trans (B10_arg7 m ρ c),
      (h c _ (mem_uc main_arg8 (by decide))).trans (B10_arg8 m ρ c),
      (h c _ (mem_uc main_arg9 (by decide))).trans (B10_arg9 m ρ c)⟩)
    (run_all m ρ)

end Cert.Kernel.Chain

end
-- ==== Proof.MatA.lean ====
/-
  The first tiled matrix product of the network as a pipeline region: at grid point `t` the body reads rows
  `10000·t … 10000·t + 9999` of the node features and the whole 64×64 weight and writes the product tile; every
  tile is written back at its own point, so the region's output array is the whole product, tile by tile.
-/
import proofs.«113868_j87711822119195_1_alg».proof.Proof.Gen.KernelIdeal.Launch
import proofs.«113868_j87711822119195_1_alg».proof.Proof.Gen.KernelIdeal.Skeleton
import proofs.«113868_j87711822119195_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.MatA

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first matmul region: one 10000-row tile of `x` times the whole 64×64 weight per grid point

The block of a window at a grid point, read off the array the region finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether it was fetched at that point or
    earlier: the block index of an unfetched window has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-tile and whole-weight rectangles the body loads and stores through. -/
abbrev rT : Rect S10000x64 := Rect.unit (s := S10000x64) ![0, 0] S10000x64.size inb_S10000x64_S10000x64_0_0
abbrev rW : Rect S64x64 := Rect.unit (s := S64x64) ![0, 0] S64x64.size inb_S64x64_S64x64_0_0

/-- What the body leaves in the output tile: its one whole-tile store of the product of the two loaded blocks. -/
def out0_2 (x0 : Vec F S10000x64 .f32) (x1 : Vec F S64x64 .f32) : Vec F S10000x64 .f32 :=
  View.canon [⟨rT, k0_pay1 (View.ld x0 rT) (View.ld x1 rW)⟩]

/-- The one store is the whole tile, so it covers every index of it. -/
theorem cover_tile (p0 : Vec F S10000x64 .f32) (y : S10000x64.Idx) :
    ∃ pc ∈ ([⟨rT, p0⟩] : List (View.Piece (Elt F) S10000x64 .f32)), y ∈ pc.1.set :=
  View.cover_of_tiled [⟨rT, p0⟩] S10000x64.size (by rfl) y

set_option maxHeartbeats 1000000 in
/-- The body on whole staging buffers — the inputs at known contents, the output at anything — ends with the inputs
    as they were and the output tile at `out0_2` of the inputs. -/
theorem sound_kernel0 (c : Dev nD) (E : Set ℕ) (i : grid0.Coords) (arg1 : Memref sig .tc .vmem S10000x64 .f32) (harg1 : arg1.IsWhole) (arg2 : Memref sig .tc .vmem S64x64 .f32) (harg2 : arg2.IsWhole) (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_tile _)

/-- The proof data of the first matmul's pipeline: arrays as the region finds them; after the body each input buffer
    at its block and the output buffer at the product of the two input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at a point, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.MatA

end
-- ==== Proof.MatB.lean ====
/-
  A bias–relu–matmul layer of the network as a pipeline region: at grid point `t` the body reads rows
  `10000·t … 10000·t + 9999` of the aggregated features, adds the bias row, clips at zero, and multiplies by the whole
  64×64 weight; every tile is written back at its own point, so the region's output array is the whole layer output.
-/
import proofs.«113868_j87711822119195_1_alg».proof.Proof.Gen.KernelIdeal.Launch
import proofs.«113868_j87711822119195_1_alg».proof.Proof.Gen.KernelIdeal.Skeleton
import proofs.«113868_j87711822119195_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.MatB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # A bias–relu–matmul region: one 10000-row tile of the aggregated features, plus the bias row, clipped at zero,
times the whole 64×64 weight per grid point

The block of a window at a grid point, read off the array the region finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether it was fetched at that point or
    earlier: the block index of an unfetched window has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-tile, whole-bias-row and whole-weight rectangles the body loads and stores through. -/
abbrev rT : Rect S10000x64 := Rect.unit (s := S10000x64) ![0, 0] S10000x64.size inb_S10000x64_S10000x64_0_0
abbrev rB : Rect S1x64 := Rect.unit (s := S1x64) ![0, 0] S1x64.size inb_S1x64_S1x64_0_0
abbrev rW : Rect S64x64 := Rect.unit (s := S64x64) ![0, 0] S64x64.size inb_S64x64_S64x64_0_0

/-- What the body leaves in the output tile: its one whole-tile store. -/
def out1_3 (x0 : Vec F S10000x64 .f32) (x1 : Vec F S1x64 .f32) (x2 : Vec F S64x64 .f32) : Vec F S10000x64 .f32 :=
  View.canon [⟨rT, k1_pay1 (View.ld x0 rT) (View.ld x1 rB) (View.ld x2 rW)⟩]

/-- The one store is the whole tile, so it covers every index of it. -/
theorem cover_tile (p0 : Vec F S10000x64 .f32) (y : S10000x64.Idx) :
    ∃ pc ∈ ([⟨rT, p0⟩] : List (View.Piece (Elt F) S10000x64 .f32)), y ∈ pc.1.set :=
  View.cover_of_tiled [⟨rT, p0⟩] S10000x64.size (by rfl) y

set_option maxHeartbeats 1000000 in
/-- The body on whole staging buffers — the inputs at known contents, the output at anything — ends with the inputs
    as they were and the output tile at `out1_3` of the inputs. -/
theorem sound_kernel1 (c : Dev nD) (E : Set ℕ) (i : grid1.Coords) (arg1 : Memref sig .tc .vmem S10000x64 .f32) (harg1 : arg1.IsWhole) (arg2 : Memref sig .tc .vmem S1x64 .f32) (harg2 : arg2.IsWhole) (arg3 : Memref sig .tc .vmem S64x64 .f32) (harg3 : arg3.IsWhole) (arg4 : Memref sig .tc .vmem S10000x64 .f32) (harg4 : arg4.IsWhole)
    (x0 : Vec F S10000x64 .f32) (x1 : Vec F S1x64 .f32) (x2 : Vec F S64x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_tile _)

/-- The proof data of this region's pipeline: arrays as the region finds them; after the body each input buffer at
    its block and the output buffer at the body's tile; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at a point, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.MatB

end
-- ==== Proof.MatC.lean ====
/-
  A bias–relu–matmul layer of the network as a pipeline region: at grid point `t` the body reads rows
  `10000·t … 10000·t + 9999` of the aggregated features, adds the bias row, clips at zero, and multiplies by the whole
  64×64 weight; every tile is written back at its own point, so the region's output array is the whole layer output.
-/
import proofs.«113868_j87711822119195_1_alg».proof.Proof.Gen.KernelIdeal.Launch
import proofs.«113868_j87711822119195_1_alg».proof.Proof.Gen.KernelIdeal.Skeleton
import proofs.«113868_j87711822119195_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.MatC

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # A bias–relu–matmul region: one 10000-row tile of the aggregated features, plus the bias row, clipped at zero,
times the whole 64×64 weight per grid point

The block of a window at a grid point, read off the array the region finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether it was fetched at that point or
    earlier: the block index of an unfetched window has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-tile, whole-bias-row and whole-weight rectangles the body loads and stores through. -/
abbrev rT : Rect S10000x64 := Rect.unit (s := S10000x64) ![0, 0] S10000x64.size inb_S10000x64_S10000x64_0_0
abbrev rB : Rect S1x64 := Rect.unit (s := S1x64) ![0, 0] S1x64.size inb_S1x64_S1x64_0_0
abbrev rW : Rect S64x64 := Rect.unit (s := S64x64) ![0, 0] S64x64.size inb_S64x64_S64x64_0_0

/-- What the body leaves in the output tile: its one whole-tile store. -/
def out2_3 (x0 : Vec F S10000x64 .f32) (x1 : Vec F S1x64 .f32) (x2 : Vec F S64x64 .f32) : Vec F S10000x64 .f32 :=
  View.canon [⟨rT, k2_pay1 (View.ld x0 rT) (View.ld x1 rB) (View.ld x2 rW)⟩]

/-- The one store is the whole tile, so it covers every index of it. -/
theorem cover_tile (p0 : Vec F S10000x64 .f32) (y : S10000x64.Idx) :
    ∃ pc ∈ ([⟨rT, p0⟩] : List (View.Piece (Elt F) S10000x64 .f32)), y ∈ pc.1.set :=
  View.cover_of_tiled [⟨rT, p0⟩] S10000x64.size (by rfl) y

set_option maxHeartbeats 1000000 in
/-- The body on whole staging buffers — the inputs at known contents, the output at anything — ends with the inputs
    as they were and the output tile at `out2_3` of the inputs. -/
theorem sound_kernel2 (c : Dev nD) (E : Set ℕ) (i : grid2.Coords) (arg1 : Memref sig .tc .vmem S10000x64 .f32) (harg1 : arg1.IsWhole) (arg2 : Memref sig .tc .vmem S1x64 .f32) (harg2 : arg2.IsWhole) (arg3 : Memref sig .tc .vmem S64x64 .f32) (harg3 : arg3.IsWhole) (arg4 : Memref sig .tc .vmem S10000x64 .f32) (harg4 : arg4.IsWhole)
    (x0 : Vec F S10000x64 .f32) (x1 : Vec F S1x64 .f32) (x2 : Vec F S64x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2_kernel i arg1 harg1 arg2 harg2 arg3 harg3 arg4 harg4) K := by
  simp only [cc2_kernel_eq_skeleton]; unfold cc2_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_tile _)

/-- The proof data of this region's pipeline: arrays as the region finds them; after the body each input buffer at
    its block and the output buffer at the body's tile; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at a point, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.KernelIdeal.MatC

end
-- ==== Proof.PoolBase.lean ====
/- The pooling-and-linear kernel of the last region: the facts its per-point runs share.
   The kernel keeps a 1x64 accumulator in a scratch buffer across its ten grid points: at the
   first point it zeroes the accumulator, at every point it adds the column sums of the
   current 10000x64 block (bias added to every row first), and at the last point it stores
   accumulator · Wl + bl into the 1x10 output block.  Here: the two branch conditions in
   closed form over the grid, where the output window is idle, the memrefs the pipeline
   passes at a point, and the blocks of the windows read off the arrays at region entry. -/
import proofs.«113868_j87711822119195_1_alg».proof.Proof.Gen.KernelIdeal.Launch
import proofs.«113868_j87711822119195_1_alg».proof.Proof.Gen.KernelIdeal.Skeleton
import proofs.«113868_j87711822119195_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, in closed form -/

/-- The first branch (zero the accumulator) is taken when the grid coordinate is 0. -/
abbrev cond3_0 (i : grid3.Coords) : Prop :=
  (Scalar.cmpi .ne (Scalar.extui (Scalar.cmpi .eq (BitVec.ofNat 32 (i 0).val) 0#32)) 0#32) = 1#1
theorem hcond3_0 : ∀ t : Fin cfg3.N, cond3_0 (grid3.coords t) ↔ t.val % 10 = 0 :=
  (by decide +kernel : ∀ t : Fin grid3.N, cond3_0 (grid3.coords t) ↔ t.val % 10 = 0)

/-- The last branch (store the output) is taken when the grid coordinate is 9. -/
abbrev cond3_2 (i : grid3.Coords) : Prop := k3_cond2 i = 1#1
theorem hcond3_2 : ∀ t : Fin cfg3.N, cond3_2 (grid3.coords t) ↔ t.val % 10 = 9 :=
  (by decide +kernel : ∀ t : Fin grid3.N, cond3_2 (grid3.coords t) ↔ t.val % 10 = 9)

/-! ## Where the output window is idle -/

theorem idleAt3_4 : ∀ t : Fin cfg3.N, ¬cond3_2 (grid3.coords t) → cfg3.idle 4 (grid3.coords t) = true := by decide +kernel
theorem noFlush3_4 : ∀ t : Fin cfg3.N, ¬cond3_2 (grid3.coords t) → (cfg3.win 4).flush t = false := by decide +kernel
theorem liveAt3_4 : ∀ t : Fin cfg3.N, cond3_2 (grid3.coords t) → cfg3.idle 4 (grid3.coords t) = false := by decide +kernel
theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl

/-! ## The memrefs at a point -/

abbrev ms3_0 (t : Fin cfg3.N) : Memref sig .tc .vmem S10000x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S64x10 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x10 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x10 .f32 := win3_4.stage (cfg3.slots t 4)
abbrev hs3_4 (t : Fin cfg3.N) : (ms3_4 t).IsWhole := hstage3_4 ((cfg3.slots t 4).cast nbuf3_4)
/-- The accumulator: a whole scoped buffer of the kernel's own. -/
abbrev scM3 : Memref sig .tc .vmem S1x64 .f32 := Memref.whole cc3_scratch0
/-- The views through which the output block's and the accumulator's contents are stated. -/
abbrev VO3_4 : View sig .tc .vmem S1x10 .f32 := (Memref.whole cc3_stg4_0 : Memref sig .tc .vmem S1x10 .f32).view
abbrev VS3 : View sig .tc .vmem S1x64 .f32 := scM3.view

end Cert.KernelIdeal.Pool

end
-- ==== Proof.PoolRunB.lean ====
/- The pooling kernel at a middle grid point (neither branch taken): it reads the block and the
   bias, adds the block's column sums (bias added to each row) to the accumulator, and leaves the
   output buffer untouched. -/
import proofs.«113868_j87711822119195_1_alg».proof.Proof.PoolBase

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point where neither branch is taken: the pieces the accumulator ends with (last first),
    with the run of the body from the inputs at their contents, the output buffer at contents
    handed back untouched, and the accumulator at the contents `xs` the point before left. -/
noncomputable def kernelRun3_B (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S64x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x64 .f32) (harg6 : arg6.IsWhole) (hc0 : ¬cond3_0 i) (hc2 : ¬cond3_2 i)
    (x0 : Vec F S10000x64 .f32) (x1 : Vec F S1x64 .f32) (x2 : Vec F S64x10 .f32) (x3 : Vec F S1x10 .f32) (xs : Vec F S1x64 .f32) :
    { LS : List (View.Piece (Elt F) S1x64 .f32) //
      ∀ (xi4 : Vec F S1x10 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare xi4 ∗ owns (c : Thread nD τ) arg6 fullShare xs
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare xi4
                ∗ (∃ f, arg6.view.loc (c : Thread nD τ) ↦[arg6.view.set]{fullShare} arg6.view.writes (Elt F) f LS)) -∗ K ⟨⟩))
          ⊢ wp frame (wpE (defs₀ (F := F)) Variants.none c none) E (cc3__pool_linear_kernel i arg1 harg1 arg2 harg2 arg3 harg3 arg4 harg4 arg5 harg5 arg6 harg6) K } := by
  refine ⟨?_, fun xi4 E K => ?run⟩
  case run =>
    simp only [cc3__pool_linear_kernel_eq_skeleton]; unfold cc3__pool_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hfs
    sl_exec (disch := first | exact hc0 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS

end Cert.KernelIdeal.Pool

end
-- ==== Proof.PoolRunA.lean ====
/- The pooling kernel at the first grid point (the first branch taken, the last not): it stores
   zeros into the accumulator, then adds the first block's column sums (bias added to each row),
   and leaves the output buffer untouched. -/
import proofs.«113868_j87711822119195_1_alg».proof.Proof.PoolRunB

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first point: the pieces the accumulator ends with (last first), with the run of the body
    from the inputs at their contents, the output buffer at contents handed back untouched, and the
    accumulator at anything (the first store overwrites it). -/
noncomputable def kernelRun3_A (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S64x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x64 .f32) (harg6 : arg6.IsWhole) (hc0 : cond3_0 i) (hc2 : ¬cond3_2 i)
    (x0 : Vec F S10000x64 .f32) (x1 : Vec F S1x64 .f32) (x2 : Vec F S64x10 .f32) (x3 : Vec F S1x10 .f32) :
    { LS : List (View.Piece (Elt F) S1x64 .f32) //
      ∀ (xi4 : Vec F S1x10 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare xi4
                ∗ (∃ f, arg6.view.loc (c : Thread nD τ) ↦[arg6.view.set]{fullShare} arg6.view.writes (Elt F) f LS)) -∗ K ⟨⟩))
          ⊢ wp frame (wpE (defs₀ (F := F)) Variants.none c none) E (cc3__pool_linear_kernel i arg1 harg1 arg2 harg2 arg3 harg3 arg4 harg4 arg5 harg5 arg6 harg6) K } := by
  refine ⟨?_, fun xi4 E K => ?run⟩
  case run =>
    simp only [cc3__pool_linear_kernel_eq_skeleton]; unfold cc3__pool_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS

end Cert.KernelIdeal.Pool

end
-- ==== Proof.PoolRunC.lean ====
/- The pooling kernel at the last grid point (the first branch not taken, the last taken): it adds
   the last block's column sums (bias added to each row) to the accumulator, then reads the
   accumulator back and stores accumulator · Wl + bl into the output buffer. -/
import proofs.«113868_j87711822119195_1_alg».proof.Proof.PoolRunA

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the last point: the pieces the output buffer and the accumulator end with (last first), with
    the run of the body from the inputs at their contents, the output buffer at anything, and the
    accumulator at the contents `xs` the point before left. -/
noncomputable def kernelRun3_C (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S64x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x64 .f32) (harg6 : arg6.IsWhole) (hc0 : ¬cond3_0 i) (hc2 : cond3_2 i)
    (x0 : Vec F S10000x64 .f32) (x1 : Vec F S1x64 .f32) (x2 : Vec F S64x10 .f32) (x3 : Vec F S1x10 .f32) (xs : Vec F S1x64 .f32) :
    Σ' (L4 : List (View.Piece (Elt F) S1x10 .f32)), { LS : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2
                ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc3__pool_linear_kernel i arg1 harg1 arg2 harg2 arg3 harg3 arg4 harg4 arg5 harg5 arg6 harg6) K } := by
  refine ⟨?_, ?_, fun E K => ?run⟩
  case run =>
    simp only [cc3__pool_linear_kernel_eq_skeleton]; unfold cc3__pool_linear_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg1.eq_unread hf0; obtain rfl := harg2.eq_unread hf1; obtain rfl := harg3.eq_unread hf2
    obtain rfl := harg4.eq_unread hf3; obtain rfl := harg6.eq_unread hfs
    sl_exec (disch := first | exact hc0 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS

end Cert.KernelIdeal.Pool

end
-- ==== Proof.PoolData.lean ====
/- The frame of the pooling-and-linear region: what the accumulator and the output buffer hold
   after each grid point, the region's invariant carrying the accumulator at those contents, the
   pipeline's proof data at the buffer contents the region is entered with, and the body obligation
   at every point, by cases on the point (first, middle, last). -/
import proofs.«113868_j87711822119195_1_alg».proof.Proof.PoolRunC

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, read back from the pieces its run found -/

/-- The accumulator after the first point. -/
def sout3_A (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S64x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x64 .f32) (harg6 : arg6.IsWhole) (hc0 : cond3_0 i) (hc2 : ¬cond3_2 i) (x0 : Vec F S10000x64 .f32) (x1 : Vec F S1x64 .f32) (x2 : Vec F S64x10 .f32) (x3 : Vec F S1x10 .f32) : Vec F S1x64 .f32 :=
  VS3.read (Elt F) (VS3.writes (Elt F) VS3.junk (kernelRun3_A c i arg1 harg1 arg2 harg2 arg3 harg3 arg4 harg4 arg5 harg5 arg6 harg6 hc0 hc2 x0 x1 x2 x3).1)
/-- Its pieces tile the 1x64 buffer. -/
theorem scover3_A (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S64x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x64 .f32) (harg6 : arg6.IsWhole) (hc0 : cond3_0 i) (hc2 : ¬cond3_2 i) (x0 : Vec F S10000x64 .f32) (x1 : Vec F S1x64 .f32) (x2 : Vec F S64x10 .f32) (x3 : Vec F S1x10 .f32) (y : S1x64.Idx) :
    ∃ pc ∈ (kernelRun3_A c i arg1 harg1 arg2 harg2 arg3 harg3 arg4 harg4 arg5 harg5 arg6 harg6 hc0 hc2 x0 x1 x2 x3).1, y ∈ pc.1.set :=
  View.cover_of_tiledL (kernelRun3_A c i arg1 harg1 arg2 harg2 arg3 harg3 arg4 harg4 arg5 harg5 arg6 harg6 hc0 hc2 x0 x1 x2 x3).1 S1x64.size (by sl_kernel_rfl) y

/-- The accumulator after a middle point, from what the point before left in it. -/
def sout3_B (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S64x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x64 .f32) (harg6 : arg6.IsWhole) (hc0 : ¬cond3_0 i) (hc2 : ¬cond3_2 i) (x0 : Vec F S10000x64 .f32) (x1 : Vec F S1x64 .f32) (x2 : Vec F S64x10 .f32) (x3 : Vec F S1x10 .f32) (xs : Vec F S1x64 .f32) : Vec F S1x64 .f32 :=
  VS3.read (Elt F) (VS3.writes (Elt F) VS3.junk (kernelRun3_B c i arg1 harg1 arg2 harg2 arg3 harg3 arg4 harg4 arg5 harg5 arg6 harg6 hc0 hc2 x0 x1 x2 x3 xs).1)
theorem scover3_B (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S64x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x64 .f32) (harg6 : arg6.IsWhole) (hc0 : ¬cond3_0 i) (hc2 : ¬cond3_2 i) (x0 : Vec F S10000x64 .f32) (x1 : Vec F S1x64 .f32) (x2 : Vec F S64x10 .f32) (x3 : Vec F S1x10 .f32) (xs : Vec F S1x64 .f32) (y : S1x64.Idx) :
    ∃ pc ∈ (kernelRun3_B c i arg1 harg1 arg2 harg2 arg3 harg3 arg4 harg4 arg5 harg5 arg6 harg6 hc0 hc2 x0 x1 x2 x3 xs).1, y ∈ pc.1.set :=
  View.cover_of_tiledL (kernelRun3_B c i arg1 harg1 arg2 harg2 arg3 harg3 arg4 harg4 arg5 harg5 arg6 harg6 hc0 hc2 x0 x1 x2 x3 xs).1 S1x64.size (by sl_kernel_rfl) y

/-- The accumulator and the output buffer after the last point. -/
def sout3_C (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S64x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x64 .f32) (harg6 : arg6.IsWhole) (hc0 : ¬cond3_0 i) (hc2 : cond3_2 i) (x0 : Vec F S10000x64 .f32) (x1 : Vec F S1x64 .f32) (x2 : Vec F S64x10 .f32) (x3 : Vec F S1x10 .f32) (xs : Vec F S1x64 .f32) : Vec F S1x64 .f32 :=
  VS3.read (Elt F) (VS3.writes (Elt F) VS3.junk (kernelRun3_C c i arg1 harg1 arg2 harg2 arg3 harg3 arg4 harg4 arg5 harg5 arg6 harg6 hc0 hc2 x0 x1 x2 x3 xs).2.1)
theorem scover3_C (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S64x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x64 .f32) (harg6 : arg6.IsWhole) (hc0 : ¬cond3_0 i) (hc2 : cond3_2 i) (x0 : Vec F S10000x64 .f32) (x1 : Vec F S1x64 .f32) (x2 : Vec F S64x10 .f32) (x3 : Vec F S1x10 .f32) (xs : Vec F S1x64 .f32) (y : S1x64.Idx) :
    ∃ pc ∈ (kernelRun3_C c i arg1 harg1 arg2 harg2 arg3 harg3 arg4 harg4 arg5 harg5 arg6 harg6 hc0 hc2 x0 x1 x2 x3 xs).2.1, y ∈ pc.1.set :=
  View.cover_of_tiledL (kernelRun3_C c i arg1 harg1 arg2 harg2 arg3 harg3 arg4 harg4 arg5 harg5 arg6 harg6 hc0 hc2 x0 x1 x2 x3 xs).2.1 S1x64.size (by sl_kernel_rfl) y
def out3_C (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S64x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x64 .f32) (harg6 : arg6.IsWhole) (hc0 : ¬cond3_0 i) (hc2 : cond3_2 i) (x0 : Vec F S10000x64 .f32) (x1 : Vec F S1x64 .f32) (x2 : Vec F S64x10 .f32) (x3 : Vec F S1x10 .f32) (xs : Vec F S1x64 .f32) : Vec F S1x10 .f32 :=
  VO3_4.read (Elt F) (VO3_4.writes (Elt F) VO3_4.junk (kernelRun3_C c i arg1 harg1 arg2 harg2 arg3 harg3 arg4 harg4 arg5 harg5 arg6 harg6 hc0 hc2 x0 x1 x2 x3 xs).1)
theorem cover3_C (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S64x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x64 .f32) (harg6 : arg6.IsWhole) (hc0 : ¬cond3_0 i) (hc2 : cond3_2 i) (x0 : Vec F S10000x64 .f32) (x1 : Vec F S1x64 .f32) (x2 : Vec F S64x10 .f32) (x3 : Vec F S1x10 .f32) (xs : Vec F S1x64 .f32) (y : S1x10.Idx) :
    ∃ pc ∈ (kernelRun3_C c i arg1 harg1 arg2 harg2 arg3 harg3 arg4 harg4 arg5 harg5 arg6 harg6 hc0 hc2 x0 x1 x2 x3 xs).1, y ∈ pc.1.set :=
  View.cover_of_tiledL (kernelRun3_C c i arg1 harg1 arg2 harg2 arg3 harg3 arg4 harg4 arg5 harg5 arg6 harg6 hc0 hc2 x0 x1 x2 x3 xs).1 S1x10.size (by sl_kernel_rfl) y

/-- A placeholder for the output buffer's contents at the points where the body stores nothing into it
    and the pipeline does not write it back: nothing reads it. -/
def idle4 : Vec F S1x10 .f32 := VO3_4.read (Elt F) VO3_4.junk

/-! ## The conditions at a point, from its number -/

theorem N3' : cfg3.N = 10 := N_3
theorem isc0 (t : Fin cfg3.N) (h : t.val = 0) : cond3_0 (grid3.coords t) := (hcond3_0 t).mpr (by rw [h])
theorem notc0 (t : Fin cfg3.N) (h : t.val ≠ 0) : ¬cond3_0 (grid3.coords t) := fun hc => by
  have h1 := (hcond3_0 t).mp hc; have hN : t.val < 10 := lt_of_lt_of_eq t.isLt N3'; omega
theorem isc2 (t : Fin cfg3.N) (h : t.val = 9) : cond3_2 (grid3.coords t) := (hcond3_2 t).mpr (by rw [h])
theorem notc2 (t : Fin cfg3.N) (h : t.val ≠ 9) : ¬cond3_2 (grid3.coords t) := fun hc => by
  have h1 := (hcond3_2 t).mp hc; have hN : t.val < 10 := lt_of_lt_of_eq t.isLt N3'; omega

section Frame

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any
    proof data whose array is the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The accumulation, point by point -/

/-- What the output buffer (first) and the accumulator (second) hold after the body at point `n`: the first
    point's run from nothing, every later point's from what the point before left in the accumulator; the
    output buffer is stored only at the last point. -/
def outsAt3 (c : Dev nD) : (n : ℕ) → n < cfg3.N → Vec F S1x10 .f32 × Vec F S1x64 .f32
  | 0, hn => (idle4, sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3 (Memref.isWhole_whole _) (isc0 ⟨0, hn⟩ rfl) (notc2 ⟨0, hn⟩ (by decide : (0 : ℕ) ≠ 9)) (iblk3 V c 0 ⟨0, hn⟩) (iblk3 V c 1 ⟨0, hn⟩) (iblk3 V c 2 ⟨0, hn⟩) (iblk3 V c 3 ⟨0, hn⟩))
  | n + 1, hn =>
    if h2 : n + 1 = 9 then
      (out3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3 (Memref.isWhole_whole _) (notc0 ⟨n + 1, hn⟩ (Nat.succ_ne_zero n)) (isc2 ⟨n + 1, hn⟩ h2) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2,
       sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3 (Memref.isWhole_whole _) (notc0 ⟨n + 1, hn⟩ (Nat.succ_ne_zero n)) (isc2 ⟨n + 1, hn⟩ h2) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2)
    else
      (idle4, sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3 (Memref.isWhole_whole _) (notc0 ⟨n + 1, hn⟩ (Nat.succ_ne_zero n)) (notc2 ⟨n + 1, hn⟩ h2) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2)

theorem outsAt3_A (c : Dev nD) (t : Fin cfg3.N) (h0 : t.val = 0) (h2 : t.val ≠ 9) :
    outsAt3 V c t.val t.isLt = (idle4, sout3_A c (grid3.coords t) (ms3_0 t) (hs3_0 t) (ms3_1 t) (hs3_1 t) (ms3_2 t) (hs3_2 t) (ms3_3 t) (hs3_3 t) (ms3_4 t) (hs3_4 t) scM3 (Memref.isWhole_whole _) (isc0 t h0) (notc2 t h2) (iblk3 V c 0 t) (iblk3 V c 1 t) (iblk3 V c 2 t) (iblk3 V c 3 t)) := by
  obtain ⟨n, hn⟩ := t
  cases n with
  | zero => rfl
  | succ n => exact absurd h0 (Nat.succ_ne_zero n)

theorem outsAt3_B (c : Dev nD) (t : Fin cfg3.N) (h0 : t.val ≠ 0) (h2 : t.val ≠ 9) :
    outsAt3 V c t.val t.isLt = (idle4, sout3_B c (grid3.coords t) (ms3_0 t) (hs3_0 t) (ms3_1 t) (hs3_1 t) (ms3_2 t) (hs3_2 t) (ms3_3 t) (hs3_3 t) (ms3_4 t) (hs3_4 t) scM3 (Memref.isWhole_whole _) (notc0 t h0) (notc2 t h2) (iblk3 V c 0 t) (iblk3 V c 1 t) (iblk3 V c 2 t) (iblk3 V c 3 t) (outsAt3 V c (t.val - 1) (Nat.lt_of_le_of_lt (Nat.sub_le _ _) t.isLt)).2) := by
  obtain ⟨n, hn⟩ := t
  cases n with
  | zero => exact absurd rfl h0
  | succ n => exact (dif_neg h2).trans rfl

theorem outsAt3_C (c : Dev nD) (t : Fin cfg3.N) (h0 : t.val ≠ 0) (h2 : t.val = 9) :
    outsAt3 V c t.val t.isLt = (out3_C c (grid3.coords t) (ms3_0 t) (hs3_0 t) (ms3_1 t) (hs3_1 t) (ms3_2 t) (hs3_2 t) (ms3_3 t) (hs3_3 t) (ms3_4 t) (hs3_4 t) scM3 (Memref.isWhole_whole _) (notc0 t h0) (isc2 t h2) (iblk3 V c 0 t) (iblk3 V c 1 t) (iblk3 V c 2 t) (iblk3 V c 3 t) (outsAt3 V c (t.val - 1) (Nat.lt_of_le_of_lt (Nat.sub_le _ _) t.isLt)).2,
      sout3_C c (grid3.coords t) (ms3_0 t) (hs3_0 t) (ms3_1 t) (hs3_1 t) (ms3_2 t) (hs3_2 t) (ms3_3 t) (hs3_3 t) (ms3_4 t) (hs3_4 t) scM3 (Memref.isWhole_whole _) (notc0 t h0) (isc2 t h2) (iblk3 V c 0 t) (iblk3 V c 1 t) (iblk3 V c 2 t) (iblk3 V c 3 t) (outsAt3 V c (t.val - 1) (Nat.lt_of_le_of_lt (Nat.sub_le _ _) t.isLt)).2) := by
  obtain ⟨n, hn⟩ := t
  cases n with
  | zero => exact absurd rfl h0
  | succ n => exact (dif_pos h2).trans rfl

/-! ## The region's invariant -/

/-- The core's scoped buffers other than this region's staging buffers and the accumulator, at some
    contents each: carried through the region unopened. -/
abbrev others3 (c : Dev nD) : sProp 𝕄 :=
  Pipeline.scopedRestBut (Ix := Unit) (Name := ℕ) (U := UR sig nD τ) (Lvl := ℕ) (Val := Elt F) spec3 c [cc3_scratch0]

/-- The scoped buffers no window stages are the accumulator and the others. -/
theorem scopedRest3_split (c : Dev nD) :
    (Pipeline.scopedRest (Ix := Unit) (Name := ℕ) (U := UR sig nD τ) (Lvl := ℕ) (Val := Elt F) spec3 c : sProp 𝕄)
      = iprop((∃ d, owns (c : Thread nD τ) scM3 fullShare d) ∗ others3 c) := by
  rw [Pipeline.scopedRest_split_of_list spec3 c [cc3_scratch0] (by decide) (by decide)]
  simp only [bigSepL_singleton, scM3, owns_whole]; try rfl

/-- The invariant before point `n`: before the first point the scoped rest at anything and the generator
    register at some state; afterwards the same with the accumulator at what the point before left. -/
def PhiS3 (c : Dev nD) : (n : ℕ) → n ≤ cfg3.N → sProp 𝕄
  | 0, _ => Pipeline.ΦA spec3 c
  | n + 1, hn => iprop((owns (c : Thread nD τ) scM3 fullShare ((outsAt3 V c n hn).2) ∗ others3 c) ∗ (∃ r, prngReg c r))

theorem PhiA3_eq (c : Dev nD) :
    (Pipeline.ΦA spec3 c : sProp 𝕄) = iprop(((∃ d, owns (c : Thread nD τ) scM3 fullShare d) ∗ others3 c) ∗ (∃ r, prngReg c r)) := by
  unfold Pipeline.ΦA; rw [scopedRest3_split]

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop((owns (c : Thread nD τ) scM3 fullShare ((outsAt3 V c n hn).2) ∗ others3 c) ∗ (∃ r, prngReg c r)) := rfl
theorem PhiS3_pos (c : Dev nD) (n : ℕ) (h : n ≤ cfg3.N) (hz : n ≠ 0) :
    PhiS3 V c n h = iprop((owns (c : Thread nD τ) scM3 fullShare ((outsAt3 V c (n - 1) (by omega)).2) ∗ others3 c) ∗ (∃ r, prngReg c r)) := by
  cases n with
  | zero => exact absurd rfl hz
  | succ n => rfl

/-! ## The pipeline's proof data -/

/-- The proof data of the pooling pipeline on core `c`: the arrays as the region finds them; after the body
    each input's buffer at its block and the output's at `outsAt3`; the invariant `PhiS3`; nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- The input arrays are never written: at every count of write-backs they hold the entry contents. -/
theorem arrAt_in3_0 (c : Dev nD) (n : ℕ) : (dat3 V c).arrAt 0 n = V c main_v74 :=
  ((dat3 V c).arrAt_in 0 rfl n).trans (A_eq3 V c 0)
theorem arrAt_in3_1 (c : Dev nD) (n : ℕ) : (dat3 V c).arrAt 1 n = V c main_v75 :=
  ((dat3 V c).arrAt_in 1 rfl n).trans (A_eq3 V c 1)
theorem arrAt_in3_2 (c : Dev nD) (n : ℕ) : (dat3 V c).arrAt 2 n = V c main_arg8 :=
  ((dat3 V c).arrAt_in 2 rfl n).trans (A_eq3 V c 2)
theorem arrAt_in3_3 (c : Dev nD) (n : ℕ) : (dat3 V c).arrAt 3 n = V c main_v76 :=
  ((dat3 V c).arrAt_in 3 rfl n).trans (A_eq3 V c 3)

end Frame

end Cert.KernelIdeal.Pool

end
-- ==== Proof.PoolFrame.lean ====
/- The body obligation of the pooling-and-linear region and the two entailments that carry its
   invariant in and out of the region: by cases on the grid point (first, middle, last), the run of
   that case applies; the invariant hands the body the accumulator at what the point before left
   (at anything at the first point) and takes it back at this point's contents. -/
import proofs.«113868_j87711822119195_1_alg».proof.Proof.PoolData

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Frame

variable (V : (c : Dev nD) → (b : Ref sig .tc) → Buf (Elt F) ((c : Thread nD τ).loc b))

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t
    ∗ (dat3 V c).leavesExact 3 t ∗ (dat3 V c).leavesExact 4 t)

set_option maxHeartbeats 4800000 in
/-- The body at any point. The inputs' buffers hold their blocks; the point's number says which case it is
    in; at the first and the middle points the output buffer is handed back as found, at the last it is
    stored whole; the accumulator comes out of the invariant and goes back at this point's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
      unfold Dat.leavesExact; rw [liveAt3_0 t], after3_0]
  rw [show (dat3 V c).leavesExact 1 t = owns (c : Thread nD τ) (ms3_1 t) fullShare ((dat3 V c).after 1 t) from by
      unfold Dat.leavesExact; rw [liveAt3_1 t], after3_1]
  rw [show (dat3 V c).leavesExact 2 t = owns (c : Thread nD τ) (ms3_2 t) fullShare ((dat3 V c).after 2 t) from by
      unfold Dat.leavesExact; rw [liveAt3_2 t], after3_2]
  rw [show (dat3 V c).leavesExact 3 t = owns (c : Thread nD τ) (ms3_3 t) fullShare ((dat3 V c).after 3 t) from by
      unfold Dat.leavesExact; rw [liveAt3_3 t], after3_3]
  have hN : t.val < 10 := lt_of_lt_of_eq t.isLt N3'
  by_cases h0 : t.val = 0
  · have h2 : t.val ≠ 9 := by omega
    rw [Dat.leavesExact_idle (dat3 V c) 4 t (idleAt3_4 t (notc2 t h2)) (noFlush3_4 t (notc2 t h2))]
    rw [outsAt3_A V c t h0 h2]
    unfold sout3_A; (try dsimp only)
    rw [PhiS3_castSucc V c t, PhiS3_zero V c _ _ h0, PhiA3_eq]
    iintro ⟨⟨⟨HS, Hoth⟩, Hg⟩, Ho, ⟨%d0, H0⟩, ⟨%d1, H1⟩, ⟨%d2, H2⟩, ⟨%d3, H3⟩, ⟨%d4, H4⟩⟩
    iapply ((kernelRun3_A c (grid3.coords t) _ _ _ _ _ _ _ _ _ _ _ _ (isc0 t h0) (notc2 t h2) (iblk3 V c 0 t) (iblk3 V c 1 t) (iblk3 V c 2 t) (iblk3 V c 3 t)).2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HS Hoth Hg]
    · isplitl [HS Hoth]
      · isplitl [HS]
        · unfold owns; iexists _; isplitr
          swap; · iexact HS
          ipureintro; exact View.read_writes_of_cover _ _ _ _ _ (scover3_A c _ _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := h0
    by_cases h2 : t.val = 9
    · rw [show (dat3 V c).leavesExact 4 t = owns (c : Thread nD τ) (ms3_4 t) fullShare ((dat3 V c).after 4 t) from by
        unfold Dat.leavesExact; rw [liveAt3_4 t (isc2 t h2)], after3_4]
      rw [outsAt3_C V c t h0 h2]
      unfold out3_C sout3_C; (try dsimp only)
      rw [PhiS3_castSucc V c t, PhiS3_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((kernelRun3_C c (grid3.coords t) _ _ _ _ _ _ _ _ _ _ _ _ (notc0 t h0) (isc2 t h2) (iblk3 V c 0 t) (iblk3 V c 1 t) (iblk3 V c 2 t) (iblk3 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hoth Hg]
      · isplitl [HS Hoth]
        · isplitl [HS]
          · unfold owns; iexists _; isplitr
            swap; · iexact HS
            ipureintro; exact View.read_writes_of_cover _ _ _ _ _ (scover3_C c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover3_C c _ _ _ _ _ _ _ _ _ _ _ _ _ _ _ _ _ _ _ _)
    · rw [Dat.leavesExact_idle (dat3 V c) 4 t (idleAt3_4 t (notc2 t h2)) (noFlush3_4 t (notc2 t h2))]
      rw [outsAt3_B V c t h0 h2]
      unfold sout3_B; (try dsimp only)
      rw [PhiS3_castSucc V c t, PhiS3_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((kernelRun3_B c (grid3.coords t) _ _ _ _ _ _ _ _ _ _ _ _ (notc0 t h0) (notc2 t h2) (iblk3 V c 0 t) (iblk3 V c 1 t) (iblk3 V c 2 t) (iblk3 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (scover3_B c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the region hands its kernel — the generator register at some state, the scoped buffers no window
    stages at anything, and anything else `R`, which is dropped — is the invariant before the first point. -/
theorem hin3 (c : Dev nD) (R : sProp 𝕄) :
    iprop((∃ r, prngReg c r) ∗ R ∗ Pipeline.scopedRest (Ix := Unit) (Name := ℕ) (U := UR sig nD τ) (Lvl := ℕ) (Val := Elt F) spec3 c) ⊢ (dat3 V c).Φ 0 := by
  rw [show (dat3 V c).Φ 0 = PhiS3 V c 0 (Nat.zero_le _) from rfl, PhiS3_zero V c 0 _ rfl]; unfold Pipeline.ΦA
  iintro ⟨Hp, -, Hr⟩
  isplitl [Hr]; · iexact Hr
  iexact Hp

/-- After the last point the invariant gives the same back: the accumulator's contents are forgotten. -/
theorem hout3 (c : Dev nD) :
    (dat3 V c).Φ (Fin.last cfg3.N) ⊢ iprop((∃ r, prngReg c r) ∗ Pipeline.ownSems0 (fun k : PEmpty => (k.elim : SemLoc sig)) c
      ∗ Pipeline.scopedRest (Ix := Unit) (Name := ℕ) (U := UR sig nD τ) (Lvl := ℕ) (Val := Elt F) spec3 c) := by
  rw [Pipeline.ownSems0_none, show (dat3 V c).Φ (Fin.last cfg3.N) = PhiS3 V c (Fin.last cfg3.N).val (Nat.le_of_lt_succ (Fin.last cfg3.N).isLt) from rfl,
    PhiS3_pos V c _ _ (by rw [Fin.val_last]; have := N3'; omega), scopedRest3_split]
  iintro ⟨⟨HS, Hoth⟩, Hg⟩
  isplitl [Hg]; · iexact Hg
  isplitr; · iempintro
  isplitl [HS]; · iexists _; iexact HS
  iexact Hoth

end Frame

end Cert.KernelIdeal.Pool

end
-- ==== Proof.Chain.lean ====
/-
  The whole program as a chain of segments: three stretches of host operations (the edge lists, the degrees and the
  normalisation weights), then four pipeline regions — three tiled matrix products and the pooled linear head — each
  but the first preceded by the host stretch that gathers, scales and scatter-adds the previous region's output.
  The buffer contents at every boundary are named (`B0 … B10`): a host stretch applies its operations to the
  contents before it; a region replaces its own arrays by what its pipeline leaves in them and touches nothing else.
  The run ends with every unscoped buffer at `B10`.
-/
import proofs.«113868_j87711822119195_1_alg».proof.Proof.MatA
import proofs.«113868_j87711822119195_1_alg».proof.Proof.MatB
import proofs.«113868_j87711822119195_1_alg».proof.Proof.MatC
import proofs.«113868_j87711822119195_1_alg».proof.Proof.PoolFrame
import proofs.«113868_j87711822119195_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Chain

open Cert.KernelIdeal Cert.KernelIdeal.Gen
open Cert.KernelIdeal.MatA Cert.KernelIdeal.MatB Cert.KernelIdeal.MatC Cert.KernelIdeal.Pool
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => (s₀ m ρ).mem ((c : Dev nD), b)
/-- After the edge-list and degree operations. -/
abbrev B1 : Dev nD → Valuation τ sig (Elt F) := fun c => StableHlo.after hostOps0 (B0 m ρ c)
/-- After the select that guards the reciprocal square root of the degree. -/
abbrev B2 : Dev nD → Valuation τ sig (Elt F) := fun c => StableHlo.after hostOps0_1 (B1 m ρ c)
/-- After the normalisation weights: the first region's entry. -/
abbrev B3 : Dev nD → Valuation τ sig (Elt F) := fun c => StableHlo.after hostOps0_2 (B2 m ρ c)

/-- The same contents read at the TensorCore's references: what region 0's proof data take. -/
abbrev U3 : (c : Dev nD) → (b : Ref sig .tc) → Buf (Elt F) ((c : Thread nD τ).loc b) := fun c b => B3 m ρ c b
/-- At region 0's exit: its arrays at what the pipeline leaves (an input as entered, the output with every tile's
    write-back folded in), every other buffer as entered. -/
def B4 (c : Dev nD) : Valuation τ sig (Elt F) :=
  Pipeline.withArrays spec0 c (B3 m ρ c) fun w => (dat0 (U3 m ρ) c).arrAt w cfg0.N
theorem B4_arr (c : Dev nD) (w : Fin cfg0.W) :
    B4 m ρ c (Proc.devRef .tc (Pipeline.arrRef spec0 w)) = (dat0 (U3 m ρ) c).arrAt w cfg0.N := by
  unfold B4; exact Pipeline.withArrays_arr spec0 launch0.win.arr_inj c _ _ w
theorem B4_of_ne (c : Dev nD) (b : Ref sig .tc) (hb : ∀ w, Pipeline.arrRef spec0 w ≠ b) :
    B4 m ρ c (Proc.devRef .tc b) = B3 m ρ c (Proc.devRef .tc b) := by
  unfold B4; exact Pipeline.withArrays_of_ne spec0 c _ _ b hb
abbrev U4 : (c : Dev nD) → (b : Ref sig .tc) → Buf (Elt F) ((c : Thread nD τ).loc b) := fun c b => B4 m ρ c b
theorem hF0 (c : Dev nD) (w : Fin cfg0.W) : (dat0 (U3 m ρ) c).arrAt w cfg0.N = U4 m ρ c (Pipeline.arrRef spec0 w) :=
  (B4_arr m ρ c w).symm
theorem hrest0 (c : Dev nD) : ∀ b, b ∉ Finset.univ.image (Pipeline.arrRef spec0) → U4 m ρ c b = U3 m ρ c b :=
  fun b hb => B4_of_ne m ρ c b fun w e => hb (Finset.mem_image.mpr ⟨w, Finset.mem_univ _, e⟩)

/-- After the first aggregation: the second region's entry. -/
abbrev B5 : Dev nD → Valuation τ sig (Elt F) := fun c => StableHlo.after hostOps1 (B4 m ρ c)

/-- The same contents read at the TensorCore's references: what region 1's proof data take. -/
abbrev U5 : (c : Dev nD) → (b : Ref sig .tc) → Buf (Elt F) ((c : Thread nD τ).loc b) := fun c b => B5 m ρ c b
/-- At region 1's exit: its arrays at what the pipeline leaves (an input as entered, the output with every tile's
    write-back folded in), every other buffer as entered. -/
def B6 (c : Dev nD) : Valuation τ sig (Elt F) :=
  Pipeline.withArrays spec1 c (B5 m ρ c) fun w => (dat1 (U5 m ρ) c).arrAt w cfg1.N
theorem B6_arr (c : Dev nD) (w : Fin cfg1.W) :
    B6 m ρ c (Proc.devRef .tc (Pipeline.arrRef spec1 w)) = (dat1 (U5 m ρ) c).arrAt w cfg1.N := by
  unfold B6; exact Pipeline.withArrays_arr spec1 launch1.win.arr_inj c _ _ w
theorem B6_of_ne (c : Dev nD) (b : Ref sig .tc) (hb : ∀ w, Pipeline.arrRef spec1 w ≠ b) :
    B6 m ρ c (Proc.devRef .tc b) = B5 m ρ c (Proc.devRef .tc b) := by
  unfold B6; exact Pipeline.withArrays_of_ne spec1 c _ _ b hb
abbrev U6 : (c : Dev nD) → (b : Ref sig .tc) → Buf (Elt F) ((c : Thread nD τ).loc b) := fun c b => B6 m ρ c b
theorem hF1 (c : Dev nD) (w : Fin cfg1.W) : (dat1 (U5 m ρ) c).arrAt w cfg1.N = U6 m ρ c (Pipeline.arrRef spec1 w) :=
  (B6_arr m ρ c w).symm
theorem hrest1 (c : Dev nD) : ∀ b, b ∉ Finset.univ.image (Pipeline.arrRef spec1) → U6 m ρ c b = U5 m ρ c b :=
  fun b hb => B6_of_ne m ρ c b fun w e => hb (Finset.mem_image.mpr ⟨w, Finset.mem_univ _, e⟩)

/-- After the second aggregation: the third region's entry. -/
abbrev B7 : Dev nD → Valuation τ sig (Elt F) := fun c => StableHlo.after hostOps2 (B6 m ρ c)

/-- The same contents read at the TensorCore's references: what region 2's proof data take. -/
abbrev U7 : (c : Dev nD) → (b : Ref sig .tc) → Buf (Elt F) ((c : Thread nD τ).loc b) := fun c b => B7 m ρ c b
/-- At region 2's exit: its arrays at what the pipeline leaves (an input as entered, the output with every tile's
    write-back folded in), every other buffer as entered. -/
def B8 (c : Dev nD) : Valuation τ sig (Elt F) :=
  Pipeline.withArrays spec2 c (B7 m ρ c) fun w => (dat2 (U7 m ρ) c).arrAt w cfg2.N
theorem B8_arr (c : Dev nD) (w : Fin cfg2.W) :
    B8 m ρ c (Proc.devRef .tc (Pipeline.arrRef spec2 w)) = (dat2 (U7 m ρ) c).arrAt w cfg2.N := by
  unfold B8; exact Pipeline.withArrays_arr spec2 launch2.win.arr_inj c _ _ w
theorem B8_of_ne (c : Dev nD) (b : Ref sig .tc) (hb : ∀ w, Pipeline.arrRef spec2 w ≠ b) :
    B8 m ρ c (Proc.devRef .tc b) = B7 m ρ c (Proc.devRef .tc b) := by
  unfold B8; exact Pipeline.withArrays_of_ne spec2 c _ _ b hb
abbrev U8 : (c : Dev nD) → (b : Ref sig .tc) → Buf (Elt F) ((c : Thread nD τ).loc b) := fun c b => B8 m ρ c b
theorem hF2 (c : Dev nD) (w : Fin cfg2.W) : (dat2 (U7 m ρ) c).arrAt w cfg2.N = U8 m ρ c (Pipeline.arrRef spec2 w) :=
  (B8_arr m ρ c w).symm
theorem hrest2 (c : Dev nD) : ∀ b, b ∉ Finset.univ.image (Pipeline.arrRef spec2) → U8 m ρ c b = U7 m ρ c b :=
  fun b hb => B8_of_ne m ρ c b fun w e => hb (Finset.mem_image.mpr ⟨w, Finset.mem_univ _, e⟩)

/-- After the third aggregation: the last region's entry. -/
abbrev B9 : Dev nD → Valuation τ sig (Elt F) := fun c => StableHlo.after hostOps3 (B8 m ρ c)

/-- The same contents read at the TensorCore's references: what region 3's proof data take. -/
abbrev U9 : (c : Dev nD) → (b : Ref sig .tc) → Buf (Elt F) ((c : Thread nD τ).loc b) := fun c b => B9 m ρ c b
/-- At region 3's exit: its arrays at what the pipeline leaves (an input as entered, the output with every tile's
    write-back folded in), every other buffer as entered. -/
def B10 (c : Dev nD) : Valuation τ sig (Elt F) :=
  Pipeline.withArrays spec3 c (B9 m ρ c) fun w => (dat3 (U9 m ρ) c).arrAt w cfg3.N
theorem B10_arr (c : Dev nD) (w : Fin cfg3.W) :
    B10 m ρ c (Proc.devRef .tc (Pipeline.arrRef spec3 w)) = (dat3 (U9 m ρ) c).arrAt w cfg3.N := by
  unfold B10; exact Pipeline.withArrays_arr spec3 launch3.win.arr_inj c _ _ w
theorem B10_of_ne (c : Dev nD) (b : Ref sig .tc) (hb : ∀ w, Pipeline.arrRef spec3 w ≠ b) :
    B10 m ρ c (Proc.devRef .tc b) = B9 m ρ c (Proc.devRef .tc b) := by
  unfold B10; exact Pipeline.withArrays_of_ne spec3 c _ _ b hb
abbrev U10 : (c : Dev nD) → (b : Ref sig .tc) → Buf (Elt F) ((c : Thread nD τ).loc b) := fun c b => B10 m ρ c b
theorem hF3 (c : Dev nD) (w : Fin cfg3.W) : (dat3 (U9 m ρ) c).arrAt w cfg3.N = U10 m ρ c (Pipeline.arrRef spec3 w) :=
  (B10_arr m ρ c w).symm
theorem hrest3 (c : Dev nD) : ∀ b, b ∉ Finset.univ.image (Pipeline.arrRef spec3) → U10 m ρ c b = U9 m ρ c b :=
  fun b hb => B10_of_ne m ρ c b fun w e => hb (Finset.mem_image.mpr ⟨w, Finset.mem_univ _, e⟩)

/-! ## The proof data family and the thread state -/

/-- No pipeline has a prefetched table. -/
abbrev tadm : (p : Fin 4) → (pcfgs (F := F) p).Adm := fun p => (cfgs p).toPCfg_adm
/-- Every pipeline's proof data, each at its region's entry contents. -/
def pd : (p : Fin 4) → (c : Dev nD) → Dat τ (Elt F) Unit ℕ (UR sig nD τ) ℕ (Pipeline.pin (pcfgs (F := F)) tadm p) c
  | ⟨0, _⟩ => fun c => dat0 (U3 m ρ) c
  | ⟨1, _⟩ => fun c => dat1 (U5 m ρ) c
  | ⟨2, _⟩ => fun c => dat2 (U7 m ρ) c
  | ⟨3, _⟩ => fun c => dat3 (U9 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (B10 m ρ c) ∗ ∃ r, prngReg c r)

/-! ## The regions as segments -/

set_option backward.isDefEq.respectTransparency.types false in
/-- Region 0 over the thread state: entered with every unscoped buffer at `B3`, left with them at `B4`. Its
    arrays are split out of the unscoped buffers and put back at what the pipeline leaves in them; the generator
    register goes into the pipeline's invariant and comes back; nothing is owed; the kernel has no semaphore of its own. -/
def rg0 : Pipeline.RegionSeg (pcfgs (F := F)) tadm (pd m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U3 m ρ) c).loose
  hwaits := Pipeline.hwaits_of_owed_zero _ _ _ _ L lv 0 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec0 c (U3 m ρ c)
  hentry c := by
    rw [Pipeline.ownSems0_none]
    have hsplit := Pipeline.arrays_of_unscopedBufs (p := 0) (pcfgs (F := F)) tadm (pd m ρ) launch0.win launch0.arr_whole c
      ((pd m ρ 0 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pd m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tadm (Ix := Unit) (Name := ℕ) (U := UR sig nD τ) (Lvl := ℕ)
      launch0.win launch0.arr_whole c (pd m ρ) ((pd m ρ 0 c).share_full fun _ => rfl)
      (U3 m ρ c) (U4 m ρ c) ((pd m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `B5`, left with them at `B6`. Its
    arrays are split out of the unscoped buffers and put back at what the pipeline leaves in them; the generator
    register goes into the pipeline's invariant and comes back; nothing is owed; the kernel has no semaphore of its own. -/
def rg1 : Pipeline.RegionSeg (pcfgs (F := F)) tadm (pd m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U5 m ρ) c).loose
  hwaits := Pipeline.hwaits_of_owed_zero _ _ _ _ L lv 1 fun _ _ => rfl
  pre c := iprop(StableHlo.held (c : Thread nD τ) (Pipeline.ucRefs τ sig) (B5 m ρ c) ∗ R c)
  post c := iprop(StableHlo.held (c : Thread nD τ) (Pipeline.ucRefs τ sig) (B6 m ρ c) ∗ R c)
  X c := iprop(∃ r, prngReg c r)
  Y c := iprop(∃ r, prngReg c r)
  Z c := Pipeline.unscopedRest (Ix := Unit) (Name := ℕ) (U := UR sig nD τ) (Lvl := ℕ) spec1 c (U5 m ρ c)
  hentry c := by
    rw [Pipeline.ownSems0_none]
    have hsplit := Pipeline.arrays_of_unscopedBufs (p := 1) (pcfgs (F := F)) tadm (pd m ρ) launch1.win launch1.arr_whole c
      ((pd m ρ 1 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pd m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tadm (Ix := Unit) (Name := ℕ) (U := UR sig nD τ) (Lvl := ℕ)
      launch1.win launch1.arr_whole c (pd m ρ) ((pd m ρ 1 c).share_full fun _ => rfl)
      (U5 m ρ c) (U6 m ρ c) ((pd m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `B7`, left with them at `B8`. Its
    arrays are split out of the unscoped buffers and put back at what the pipeline leaves in them; the generator
    register goes into the pipeline's invariant and comes back; nothing is owed; the kernel has no semaphore of its own. -/
def rg2 : Pipeline.RegionSeg (pcfgs (F := F)) tadm (pd m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U7 m ρ) c).loose
  hwaits := Pipeline.hwaits_of_owed_zero _ _ _ _ L lv 2 fun _ _ => rfl
  pre c := iprop(StableHlo.held (c : Thread nD τ) (Pipeline.ucRefs τ sig) (B7 m ρ c) ∗ R c)
  post c := iprop(StableHlo.held (c : Thread nD τ) (Pipeline.ucRefs τ sig) (B8 m ρ c) ∗ R c)
  X c := iprop(∃ r, prngReg c r)
  Y c := iprop(∃ r, prngReg c r)
  Z c := Pipeline.unscopedRest (Ix := Unit) (Name := ℕ) (U := UR sig nD τ) (Lvl := ℕ) spec2 c (U7 m ρ c)
  hentry c := by
    rw [Pipeline.ownSems0_none]
    have hsplit := Pipeline.arrays_of_unscopedBufs (p := 2) (pcfgs (F := F)) tadm (pd m ρ) launch2.win launch2.arr_whole c
      ((pd m ρ 2 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pd m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) tadm (Ix := Unit) (Name := ℕ) (U := UR sig nD τ) (Lvl := ℕ)
      launch2.win launch2.arr_whole c (pd m ρ) ((pd m ρ 2 c).share_full fun _ => rfl)
      (U7 m ρ c) (U8 m ρ c) ((pd m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `B9`, left with them at `B10`. Its
    arrays are split out of the unscoped buffers and put back at what the pipeline leaves in them; the generator
    register goes into the pipeline's invariant and comes back; nothing is owed; the kernel has no semaphore of its own. -/
def rg3 : Pipeline.RegionSeg (pcfgs (F := F)) tadm (pd m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U9 m ρ) c).loose
  hwaits := Pipeline.hwaits_of_owed_zero _ _ _ _ L lv 3 fun _ _ => rfl
  pre c := iprop(StableHlo.held (c : Thread nD τ) (Pipeline.ucRefs τ sig) (B9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (U9 m ρ c)
  hentry c := by
    rw [Pipeline.ownSems0_none]
    have hsplit := Pipeline.arrays_of_unscopedBufs (p := 3) (pcfgs (F := F)) tadm (pd m ρ) launch3.win launch3.arr_whole c
      ((pd m ρ 3 c).share_full fun _ => rfl) (U9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin3 (U9 m ρ) c _
  hout c := hout3 (U9 m ρ) c
  hexit c := by
    have hjoin := Pipeline.unscopedBufs_of_arrays (p := 3) (pcfgs (F := F)) tadm (Ix := Unit) (Name := ℕ) (U := UR sig nD τ) (Lvl := ℕ)
      launch3.win launch3.arr_whole c (pd m ρ) ((pd m ρ 3 c).share_full fun _ => rfl)
      (U9 m ρ c) (U10 m ρ c) ((pd m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the run -/

abbrev sgs : List (Pipeline.Seg (pcfgs (F := F)) tadm (pd m ρ) () defs₀ 𝒱₀ L lv) :=
  [ .host (hseg hostOps0 hostOps0_sub hostOps0_fresh (B0 m ρ)),
    .host (hseg hostOps0_1 hostOps0_1_sub hostOps0_1_fresh (B1 m ρ)),
    .host (hseg hostOps0_2 hostOps0_2_sub hostOps0_2_fresh (B2 m ρ)),
    .region (rg0 m ρ),
    .host (hseg hostOps1 hostOps1_sub hostOps1_fresh (B4 m ρ)),
    .region (rg1 m ρ),
    .host (hseg hostOps2 hostOps2_sub hostOps2_fresh (B6 m ρ)),
    .region (rg2 m ρ),
    .host (hseg hostOps3 hostOps3_sub hostOps3_fresh (B8 m ρ)),
    .region (rg3 m ρ) ]

theorem main_run (c : Dev nD) : main (F := F) c = Pipeline.Seg.run (sgs m ρ) := (main_chain c).trans (by chain_rfl)

set_option backward.isDefEq.respectTransparency.types false in
/-- THE RUN. From any memory with zero counters every weakly fair execution of the program terminates, nothing
    faulting, and in the final state every unscoped buffer of every core holds the last boundary's contents `B10`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B10 m ρ c b) :=
  Pipeline.θ_run_regions_kit (pcfgs (F := F)) tadm (pd m ρ) () cellOf_inj emb₁ defs₀ 𝒱₀ L lv m ρ main (sgs m ρ)
    (fun c Q => by rw [main_run m ρ c])
    (by simp only [sgs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B10 m ρ c b)
    (hfin := fun c s' => by
      iintro ⟨⟨Hh, -⟩, HSI⟩
      unfold StableHlo.held
      imodintro
      iapply (pointsTo_read_all (Pipeline.ucRefs τ sig) (fun b => (((c : Thread nD τ)).1, b)) (B10 m ρ c) s')
      isplitl [Hh] <;> iassumption)
    (hQ := fun s h c => h c)

end Cert.KernelIdeal.Chain

end
-- ==== Proof.FrameK.lean ====
/-
  The frame of the program: it runs to the end, nothing faults, and every argument array ends holding what it was
  launched with. Each argument's buffer is followed from boundary to boundary: a host stretch does not write it; a
  region bypasses it, or stages it as an input window, which is never written back.
-/
import proofs.«113868_j87711822119195_1_alg».proof.Proof.Chain

set_option maxRecDepth 16384

noncomputable section

namespace Cert.KernelIdeal.Chain

open Cert.KernelIdeal Cert.KernelIdeal.Gen
open Cert.KernelIdeal.MatA Cert.KernelIdeal.MatB Cert.KernelIdeal.MatC Cert.KernelIdeal.Pool
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

/-! ## Every argument's buffer at every boundary holds its launch contents -/

theorem B0_arg0 (c : Dev nD) : B0 m ρ c (Proc.devRef .tc main_arg0) = m ((c : Thread nD τ).loc main_arg0) := rfl
theorem B1_arg0 (c : Dev nD) : B1 m ρ c (Proc.devRef .tc main_arg0) = m ((c : Thread nD τ).loc main_arg0) :=
  (StableHlo.after_of_writes_sub hostOps0 _ hostOps0_writes (by decide : main_arg0 ∉ hostOps0_W)).trans (B0_arg0 m ρ c)
theorem B2_arg0 (c : Dev nD) : B2 m ρ c (Proc.devRef .tc main_arg0) = m ((c : Thread nD τ).loc main_arg0) :=
  (StableHlo.after_of_writes_sub hostOps0_1 _ hostOps0_1_writes (by decide : main_arg0 ∉ hostOps0_1_W)).trans (B1_arg0 m ρ c)
theorem B3_arg0 (c : Dev nD) : B3 m ρ c (Proc.devRef .tc main_arg0) = m ((c : Thread nD τ).loc main_arg0) :=
  (StableHlo.after_of_writes_sub hostOps0_2 _ hostOps0_2_writes (by decide : main_arg0 ∉ hostOps0_2_W)).trans (B2_arg0 m ρ c)
theorem B4_arg0 (c : Dev nD) : B4 m ρ c (Proc.devRef .tc main_arg0) = m ((c : Thread nD τ).loc main_arg0) :=
  ((B4_arr m ρ c 0).trans (((dat0 (U3 m ρ) c).arrAt_in 0 rfl _).trans (A_eq0 (U3 m ρ) c 0))).trans (B3_arg0 m ρ c)
theorem B5_arg0 (c : Dev nD) : B5 m ρ c (Proc.devRef .tc main_arg0) = m ((c : Thread nD τ).loc main_arg0) :=
  (StableHlo.after_of_writes_sub hostOps1 _ hostOps1_writes (by decide : main_arg0 ∉ hostOps1_W)).trans (B4_arg0 m ρ c)
theorem B6_arg0 (c : Dev nD) : B6 m ρ c (Proc.devRef .tc main_arg0) = m ((c : Thread nD τ).loc main_arg0) :=
  (B6_of_ne m ρ c main_arg0 (by decide)).trans (B5_arg0 m ρ c)
theorem B7_arg0 (c : Dev nD) : B7 m ρ c (Proc.devRef .tc main_arg0) = m ((c : Thread nD τ).loc main_arg0) :=
  (StableHlo.after_of_writes_sub hostOps2 _ hostOps2_writes (by decide : main_arg0 ∉ hostOps2_W)).trans (B6_arg0 m ρ c)
theorem B8_arg0 (c : Dev nD) : B8 m ρ c (Proc.devRef .tc main_arg0) = m ((c : Thread nD τ).loc main_arg0) :=
  (B8_of_ne m ρ c main_arg0 (by decide)).trans (B7_arg0 m ρ c)
theorem B9_arg0 (c : Dev nD) : B9 m ρ c (Proc.devRef .tc main_arg0) = m ((c : Thread nD τ).loc main_arg0) :=
  (StableHlo.after_of_writes_sub hostOps3 _ hostOps3_writes (by decide : main_arg0 ∉ hostOps3_W)).trans (B8_arg0 m ρ c)
theorem B10_arg0 (c : Dev nD) : B10 m ρ c (Proc.devRef .tc main_arg0) = m ((c : Thread nD τ).loc main_arg0) :=
  (B10_of_ne m ρ c main_arg0 (by decide)).trans (B9_arg0 m ρ c)

theorem B0_arg1 (c : Dev nD) : B0 m ρ c (Proc.devRef .tc main_arg1) = m ((c : Thread nD τ).loc main_arg1) := rfl
theorem B1_arg1 (c : Dev nD) : B1 m ρ c (Proc.devRef .tc main_arg1) = m ((c : Thread nD τ).loc main_arg1) :=
  (StableHlo.after_of_writes_sub hostOps0 _ hostOps0_writes (by decide : main_arg1 ∉ hostOps0_W)).trans (B0_arg1 m ρ c)
theorem B2_arg1 (c : Dev nD) : B2 m ρ c (Proc.devRef .tc main_arg1) = m ((c : Thread nD τ).loc main_arg1) :=
  (StableHlo.after_of_writes_sub hostOps0_1 _ hostOps0_1_writes (by decide : main_arg1 ∉ hostOps0_1_W)).trans (B1_arg1 m ρ c)
theorem B3_arg1 (c : Dev nD) : B3 m ρ c (Proc.devRef .tc main_arg1) = m ((c : Thread nD τ).loc main_arg1) :=
  (StableHlo.after_of_writes_sub hostOps0_2 _ hostOps0_2_writes (by decide : main_arg1 ∉ hostOps0_2_W)).trans (B2_arg1 m ρ c)
theorem B4_arg1 (c : Dev nD) : B4 m ρ c (Proc.devRef .tc main_arg1) = m ((c : Thread nD τ).loc main_arg1) :=
  (B4_of_ne m ρ c main_arg1 (by decide)).trans (B3_arg1 m ρ c)
theorem B5_arg1 (c : Dev nD) : B5 m ρ c (Proc.devRef .tc main_arg1) = m ((c : Thread nD τ).loc main_arg1) :=
  (StableHlo.after_of_writes_sub hostOps1 _ hostOps1_writes (by decide : main_arg1 ∉ hostOps1_W)).trans (B4_arg1 m ρ c)
theorem B6_arg1 (c : Dev nD) : B6 m ρ c (Proc.devRef .tc main_arg1) = m ((c : Thread nD τ).loc main_arg1) :=
  (B6_of_ne m ρ c main_arg1 (by decide)).trans (B5_arg1 m ρ c)
theorem B7_arg1 (c : Dev nD) : B7 m ρ c (Proc.devRef .tc main_arg1) = m ((c : Thread nD τ).loc main_arg1) :=
  (StableHlo.after_of_writes_sub hostOps2 _ hostOps2_writes (by decide : main_arg1 ∉ hostOps2_W)).trans (B6_arg1 m ρ c)
theorem B8_arg1 (c : Dev nD) : B8 m ρ c (Proc.devRef .tc main_arg1) = m ((c : Thread nD τ).loc main_arg1) :=
  (B8_of_ne m ρ c main_arg1 (by decide)).trans (B7_arg1 m ρ c)
theorem B9_arg1 (c : Dev nD) : B9 m ρ c (Proc.devRef .tc main_arg1) = m ((c : Thread nD τ).loc main_arg1) :=
  (StableHlo.after_of_writes_sub hostOps3 _ hostOps3_writes (by decide : main_arg1 ∉ hostOps3_W)).trans (B8_arg1 m ρ c)
theorem B10_arg1 (c : Dev nD) : B10 m ρ c (Proc.devRef .tc main_arg1) = m ((c : Thread nD τ).loc main_arg1) :=
  (B10_of_ne m ρ c main_arg1 (by decide)).trans (B9_arg1 m ρ c)

theorem B0_arg2 (c : Dev nD) : B0 m ρ c (Proc.devRef .tc main_arg2) = m ((c : Thread nD τ).loc main_arg2) := rfl
theorem B1_arg2 (c : Dev nD) : B1 m ρ c (Proc.devRef .tc main_arg2) = m ((c : Thread nD τ).loc main_arg2) :=
  (StableHlo.after_of_writes_sub hostOps0 _ hostOps0_writes (by decide : main_arg2 ∉ hostOps0_W)).trans (B0_arg2 m ρ c)
theorem B2_arg2 (c : Dev nD) : B2 m ρ c (Proc.devRef .tc main_arg2) = m ((c : Thread nD τ).loc main_arg2) :=
  (StableHlo.after_of_writes_sub hostOps0_1 _ hostOps0_1_writes (by decide : main_arg2 ∉ hostOps0_1_W)).trans (B1_arg2 m ρ c)
theorem B3_arg2 (c : Dev nD) : B3 m ρ c (Proc.devRef .tc main_arg2) = m ((c : Thread nD τ).loc main_arg2) :=
  (StableHlo.after_of_writes_sub hostOps0_2 _ hostOps0_2_writes (by decide : main_arg2 ∉ hostOps0_2_W)).trans (B2_arg2 m ρ c)
theorem B4_arg2 (c : Dev nD) : B4 m ρ c (Proc.devRef .tc main_arg2) = m ((c : Thread nD τ).loc main_arg2) :=
  ((B4_arr m ρ c 1).trans (((dat0 (U3 m ρ) c).arrAt_in 1 rfl _).trans (A_eq0 (U3 m ρ) c 1))).trans (B3_arg2 m ρ c)
theorem B5_arg2 (c : Dev nD) : B5 m ρ c (Proc.devRef .tc main_arg2) = m ((c : Thread nD τ).loc main_arg2) :=
  (StableHlo.after_of_writes_sub hostOps1 _ hostOps1_writes (by decide : main_arg2 ∉ hostOps1_W)).trans (B4_arg2 m ρ c)
theorem B6_arg2 (c : Dev nD) : B6 m ρ c (Proc.devRef .tc main_arg2) = m ((c : Thread nD τ).loc main_arg2) :=
  (B6_of_ne m ρ c main_arg2 (by decide)).trans (B5_arg2 m ρ c)
theorem B7_arg2 (c : Dev nD) : B7 m ρ c (Proc.devRef .tc main_arg2) = m ((c : Thread nD τ).loc main_arg2) :=
  (StableHlo.after_of_writes_sub hostOps2 _ hostOps2_writes (by decide : main_arg2 ∉ hostOps2_W)).trans (B6_arg2 m ρ c)
theorem B8_arg2 (c : Dev nD) : B8 m ρ c (Proc.devRef .tc main_arg2) = m ((c : Thread nD τ).loc main_arg2) :=
  (B8_of_ne m ρ c main_arg2 (by decide)).trans (B7_arg2 m ρ c)
theorem B9_arg2 (c : Dev nD) : B9 m ρ c (Proc.devRef .tc main_arg2) = m ((c : Thread nD τ).loc main_arg2) :=
  (StableHlo.after_of_writes_sub hostOps3 _ hostOps3_writes (by decide : main_arg2 ∉ hostOps3_W)).trans (B8_arg2 m ρ c)
theorem B10_arg2 (c : Dev nD) : B10 m ρ c (Proc.devRef .tc main_arg2) = m ((c : Thread nD τ).loc main_arg2) :=
  (B10_of_ne m ρ c main_arg2 (by decide)).trans (B9_arg2 m ρ c)

theorem B0_arg3 (c : Dev nD) : B0 m ρ c (Proc.devRef .tc main_arg3) = m ((c : Thread nD τ).loc main_arg3) := rfl
theorem B1_arg3 (c : Dev nD) : B1 m ρ c (Proc.devRef .tc main_arg3) = m ((c : Thread nD τ).loc main_arg3) :=
  (StableHlo.after_of_writes_sub hostOps0 _ hostOps0_writes (by decide : main_arg3 ∉ hostOps0_W)).trans (B0_arg3 m ρ c)
theorem B2_arg3 (c : Dev nD) : B2 m ρ c (Proc.devRef .tc main_arg3) = m ((c : Thread nD τ).loc main_arg3) :=
  (StableHlo.after_of_writes_sub hostOps0_1 _ hostOps0_1_writes (by decide : main_arg3 ∉ hostOps0_1_W)).trans (B1_arg3 m ρ c)
theorem B3_arg3 (c : Dev nD) : B3 m ρ c (Proc.devRef .tc main_arg3) = m ((c : Thread nD τ).loc main_arg3) :=
  (StableHlo.after_of_writes_sub hostOps0_2 _ hostOps0_2_writes (by decide : main_arg3 ∉ hostOps0_2_W)).trans (B2_arg3 m ρ c)
theorem B4_arg3 (c : Dev nD) : B4 m ρ c (Proc.devRef .tc main_arg3) = m ((c : Thread nD τ).loc main_arg3) :=
  (B4_of_ne m ρ c main_arg3 (by decide)).trans (B3_arg3 m ρ c)
theorem B5_arg3 (c : Dev nD) : B5 m ρ c (Proc.devRef .tc main_arg3) = m ((c : Thread nD τ).loc main_arg3) :=
  (StableHlo.after_of_writes_sub hostOps1 _ hostOps1_writes (by decide : main_arg3 ∉ hostOps1_W)).trans (B4_arg3 m ρ c)
theorem B6_arg3 (c : Dev nD) : B6 m ρ c (Proc.devRef .tc main_arg3) = m ((c : Thread nD τ).loc main_arg3) :=
  (B6_of_ne m ρ c main_arg3 (by decide)).trans (B5_arg3 m ρ c)
theorem B7_arg3 (c : Dev nD) : B7 m ρ c (Proc.devRef .tc main_arg3) = m ((c : Thread nD τ).loc main_arg3) :=
  (StableHlo.after_of_writes_sub hostOps2 _ hostOps2_writes (by decide : main_arg3 ∉ hostOps2_W)).trans (B6_arg3 m ρ c)
theorem B8_arg3 (c : Dev nD) : B8 m ρ c (Proc.devRef .tc main_arg3) = m ((c : Thread nD τ).loc main_arg3) :=
  (B8_of_ne m ρ c main_arg3 (by decide)).trans (B7_arg3 m ρ c)
theorem B9_arg3 (c : Dev nD) : B9 m ρ c (Proc.devRef .tc main_arg3) = m ((c : Thread nD τ).loc main_arg3) :=
  (StableHlo.after_of_writes_sub hostOps3 _ hostOps3_writes (by decide : main_arg3 ∉ hostOps3_W)).trans (B8_arg3 m ρ c)
theorem B10_arg3 (c : Dev nD) : B10 m ρ c (Proc.devRef .tc main_arg3) = m ((c : Thread nD τ).loc main_arg3) :=
  (B10_of_ne m ρ c main_arg3 (by decide)).trans (B9_arg3 m ρ c)

theorem B0_arg4 (c : Dev nD) : B0 m ρ c (Proc.devRef .tc main_arg4) = m ((c : Thread nD τ).loc main_arg4) := rfl
theorem B1_arg4 (c : Dev nD) : B1 m ρ c (Proc.devRef .tc main_arg4) = m ((c : Thread nD τ).loc main_arg4) :=
  (StableHlo.after_of_writes_sub hostOps0 _ hostOps0_writes (by decide : main_arg4 ∉ hostOps0_W)).trans (B0_arg4 m ρ c)
theorem B2_arg4 (c : Dev nD) : B2 m ρ c (Proc.devRef .tc main_arg4) = m ((c : Thread nD τ).loc main_arg4) :=
  (StableHlo.after_of_writes_sub hostOps0_1 _ hostOps0_1_writes (by decide : main_arg4 ∉ hostOps0_1_W)).trans (B1_arg4 m ρ c)
theorem B3_arg4 (c : Dev nD) : B3 m ρ c (Proc.devRef .tc main_arg4) = m ((c : Thread nD τ).loc main_arg4) :=
  (StableHlo.after_of_writes_sub hostOps0_2 _ hostOps0_2_writes (by decide : main_arg4 ∉ hostOps0_2_W)).trans (B2_arg4 m ρ c)
theorem B4_arg4 (c : Dev nD) : B4 m ρ c (Proc.devRef .tc main_arg4) = m ((c : Thread nD τ).loc main_arg4) :=
  (B4_of_ne m ρ c main_arg4 (by decide)).trans (B3_arg4 m ρ c)
theorem B5_arg4 (c : Dev nD) : B5 m ρ c (Proc.devRef .tc main_arg4) = m ((c : Thread nD τ).loc main_arg4) :=
  (StableHlo.after_of_writes_sub hostOps1 _ hostOps1_writes (by decide : main_arg4 ∉ hostOps1_W)).trans (B4_arg4 m ρ c)
theorem B6_arg4 (c : Dev nD) : B6 m ρ c (Proc.devRef .tc main_arg4) = m ((c : Thread nD τ).loc main_arg4) :=
  ((B6_arr m ρ c 2).trans (((dat1 (U5 m ρ) c).arrAt_in 2 rfl _).trans (A_eq1 (U5 m ρ) c 2))).trans (B5_arg4 m ρ c)
theorem B7_arg4 (c : Dev nD) : B7 m ρ c (Proc.devRef .tc main_arg4) = m ((c : Thread nD τ).loc main_arg4) :=
  (StableHlo.after_of_writes_sub hostOps2 _ hostOps2_writes (by decide : main_arg4 ∉ hostOps2_W)).trans (B6_arg4 m ρ c)
theorem B8_arg4 (c : Dev nD) : B8 m ρ c (Proc.devRef .tc main_arg4) = m ((c : Thread nD τ).loc main_arg4) :=
  (B8_of_ne m ρ c main_arg4 (by decide)).trans (B7_arg4 m ρ c)
theorem B9_arg4 (c : Dev nD) : B9 m ρ c (Proc.devRef .tc main_arg4) = m ((c : Thread nD τ).loc main_arg4) :=
  (StableHlo.after_of_writes_sub hostOps3 _ hostOps3_writes (by decide : main_arg4 ∉ hostOps3_W)).trans (B8_arg4 m ρ c)
theorem B10_arg4 (c : Dev nD) : B10 m ρ c (Proc.devRef .tc main_arg4) = m ((c : Thread nD τ).loc main_arg4) :=
  (B10_of_ne m ρ c main_arg4 (by decide)).trans (B9_arg4 m ρ c)

theorem B0_arg5 (c : Dev nD) : B0 m ρ c (Proc.devRef .tc main_arg5) = m ((c : Thread nD τ).loc main_arg5) := rfl
theorem B1_arg5 (c : Dev nD) : B1 m ρ c (Proc.devRef .tc main_arg5) = m ((c : Thread nD τ).loc main_arg5) :=
  (StableHlo.after_of_writes_sub hostOps0 _ hostOps0_writes (by decide : main_arg5 ∉ hostOps0_W)).trans (B0_arg5 m ρ c)
theorem B2_arg5 (c : Dev nD) : B2 m ρ c (Proc.devRef .tc main_arg5) = m ((c : Thread nD τ).loc main_arg5) :=
  (StableHlo.after_of_writes_sub hostOps0_1 _ hostOps0_1_writes (by decide : main_arg5 ∉ hostOps0_1_W)).trans (B1_arg5 m ρ c)
theorem B3_arg5 (c : Dev nD) : B3 m ρ c (Proc.devRef .tc main_arg5) = m ((c : Thread nD τ).loc main_arg5) :=
  (StableHlo.after_of_writes_sub hostOps0_2 _ hostOps0_2_writes (by decide : main_arg5 ∉ hostOps0_2_W)).trans (B2_arg5 m ρ c)
theorem B4_arg5 (c : Dev nD) : B4 m ρ c (Proc.devRef .tc main_arg5) = m ((c : Thread nD τ).loc main_arg5) :=
  (B4_of_ne m ρ c main_arg5 (by decide)).trans (B3_arg5 m ρ c)
theorem B5_arg5 (c : Dev nD) : B5 m ρ c (Proc.devRef .tc main_arg5) = m ((c : Thread nD τ).loc main_arg5) :=
  (StableHlo.after_of_writes_sub hostOps1 _ hostOps1_writes (by decide : main_arg5 ∉ hostOps1_W)).trans (B4_arg5 m ρ c)
theorem B6_arg5 (c : Dev nD) : B6 m ρ c (Proc.devRef .tc main_arg5) = m ((c : Thread nD τ).loc main_arg5) :=
  (B6_of_ne m ρ c main_arg5 (by decide)).trans (B5_arg5 m ρ c)
theorem B7_arg5 (c : Dev nD) : B7 m ρ c (Proc.devRef .tc main_arg5) = m ((c : Thread nD τ).loc main_arg5) :=
  (StableHlo.after_of_writes_sub hostOps2 _ hostOps2_writes (by decide : main_arg5 ∉ hostOps2_W)).trans (B6_arg5 m ρ c)
theorem B8_arg5 (c : Dev nD) : B8 m ρ c (Proc.devRef .tc main_arg5) = m ((c : Thread nD τ).loc main_arg5) :=
  (B8_of_ne m ρ c main_arg5 (by decide)).trans (B7_arg5 m ρ c)
theorem B9_arg5 (c : Dev nD) : B9 m ρ c (Proc.devRef .tc main_arg5) = m ((c : Thread nD τ).loc main_arg5) :=
  (StableHlo.after_of_writes_sub hostOps3 _ hostOps3_writes (by decide : main_arg5 ∉ hostOps3_W)).trans (B8_arg5 m ρ c)
theorem B10_arg5 (c : Dev nD) : B10 m ρ c (Proc.devRef .tc main_arg5) = m ((c : Thread nD τ).loc main_arg5) :=
  (B10_of_ne m ρ c main_arg5 (by decide)).trans (B9_arg5 m ρ c)

theorem B0_arg6 (c : Dev nD) : B0 m ρ c (Proc.devRef .tc main_arg6) = m ((c : Thread nD τ).loc main_arg6) := rfl
theorem B1_arg6 (c : Dev nD) : B1 m ρ c (Proc.devRef .tc main_arg6) = m ((c : Thread nD τ).loc main_arg6) :=
  (StableHlo.after_of_writes_sub hostOps0 _ hostOps0_writes (by decide : main_arg6 ∉ hostOps0_W)).trans (B0_arg6 m ρ c)
theorem B2_arg6 (c : Dev nD) : B2 m ρ c (Proc.devRef .tc main_arg6) = m ((c : Thread nD τ).loc main_arg6) :=
  (StableHlo.after_of_writes_sub hostOps0_1 _ hostOps0_1_writes (by decide : main_arg6 ∉ hostOps0_1_W)).trans (B1_arg6 m ρ c)
theorem B3_arg6 (c : Dev nD) : B3 m ρ c (Proc.devRef .tc main_arg6) = m ((c : Thread nD τ).loc main_arg6) :=
  (StableHlo.after_of_writes_sub hostOps0_2 _ hostOps0_2_writes (by decide : main_arg6 ∉ hostOps0_2_W)).trans (B2_arg6 m ρ c)
theorem B4_arg6 (c : Dev nD) : B4 m ρ c (Proc.devRef .tc main_arg6) = m ((c : Thread nD τ).loc main_arg6) :=
  (B4_of_ne m ρ c main_arg6 (by decide)).trans (B3_arg6 m ρ c)
theorem B5_arg6 (c : Dev nD) : B5 m ρ c (Proc.devRef .tc main_arg6) = m ((c : Thread nD τ).loc main_arg6) :=
  (StableHlo.after_of_writes_sub hostOps1 _ hostOps1_writes (by decide : main_arg6 ∉ hostOps1_W)).trans (B4_arg6 m ρ c)
theorem B6_arg6 (c : Dev nD) : B6 m ρ c (Proc.devRef .tc main_arg6) = m ((c : Thread nD τ).loc main_arg6) :=
  (B6_of_ne m ρ c main_arg6 (by decide)).trans (B5_arg6 m ρ c)
theorem B7_arg6 (c : Dev nD) : B7 m ρ c (Proc.devRef .tc main_arg6) = m ((c : Thread nD τ).loc main_arg6) :=
  (StableHlo.after_of_writes_sub hostOps2 _ hostOps2_writes (by decide : main_arg6 ∉ hostOps2_W)).trans (B6_arg6 m ρ c)
theorem B8_arg6 (c : Dev nD) : B8 m ρ c (Proc.devRef .tc main_arg6) = m ((c : Thread nD τ).loc main_arg6) :=
  ((B8_arr m ρ c 2).trans (((dat2 (U7 m ρ) c).arrAt_in 2 rfl _).trans (A_eq2 (U7 m ρ) c 2))).trans (B7_arg6 m ρ c)
theorem B9_arg6 (c : Dev nD) : B9 m ρ c (Proc.devRef .tc main_arg6) = m ((c : Thread nD τ).loc main_arg6) :=
  (StableHlo.after_of_writes_sub hostOps3 _ hostOps3_writes (by decide : main_arg6 ∉ hostOps3_W)).trans (B8_arg6 m ρ c)
theorem B10_arg6 (c : Dev nD) : B10 m ρ c (Proc.devRef .tc main_arg6) = m ((c : Thread nD τ).loc main_arg6) :=
  (B10_of_ne m ρ c main_arg6 (by decide)).trans (B9_arg6 m ρ c)

theorem B0_arg7 (c : Dev nD) : B0 m ρ c (Proc.devRef .tc main_arg7) = m ((c : Thread nD τ).loc main_arg7) := rfl
theorem B1_arg7 (c : Dev nD) : B1 m ρ c (Proc.devRef .tc main_arg7) = m ((c : Thread nD τ).loc main_arg7) :=
  (StableHlo.after_of_writes_sub hostOps0 _ hostOps0_writes (by decide : main_arg7 ∉ hostOps0_W)).trans (B0_arg7 m ρ c)
theorem B2_arg7 (c : Dev nD) : B2 m ρ c (Proc.devRef .tc main_arg7) = m ((c : Thread nD τ).loc main_arg7) :=
  (StableHlo.after_of_writes_sub hostOps0_1 _ hostOps0_1_writes (by decide : main_arg7 ∉ hostOps0_1_W)).trans (B1_arg7 m ρ c)
theorem B3_arg7 (c : Dev nD) : B3 m ρ c (Proc.devRef .tc main_arg7) = m ((c : Thread nD τ).loc main_arg7) :=
  (StableHlo.after_of_writes_sub hostOps0_2 _ hostOps0_2_writes (by decide : main_arg7 ∉ hostOps0_2_W)).trans (B2_arg7 m ρ c)
theorem B4_arg7 (c : Dev nD) : B4 m ρ c (Proc.devRef .tc main_arg7) = m ((c : Thread nD τ).loc main_arg7) :=
  (B4_of_ne m ρ c main_arg7 (by decide)).trans (B3_arg7 m ρ c)
theorem B5_arg7 (c : Dev nD) : B5 m ρ c (Proc.devRef .tc main_arg7) = m ((c : Thread nD τ).loc main_arg7) :=
  (StableHlo.after_of_writes_sub hostOps1 _ hostOps1_writes (by decide : main_arg7 ∉ hostOps1_W)).trans (B4_arg7 m ρ c)
theorem B6_arg7 (c : Dev nD) : B6 m ρ c (Proc.devRef .tc main_arg7) = m ((c : Thread nD τ).loc main_arg7) :=
  (B6_of_ne m ρ c main_arg7 (by decide)).trans (B5_arg7 m ρ c)
theorem B7_arg7 (c : Dev nD) : B7 m ρ c (Proc.devRef .tc main_arg7) = m ((c : Thread nD τ).loc main_arg7) :=
  (StableHlo.after_of_writes_sub hostOps2 _ hostOps2_writes (by decide : main_arg7 ∉ hostOps2_W)).trans (B6_arg7 m ρ c)
theorem B8_arg7 (c : Dev nD) : B8 m ρ c (Proc.devRef .tc main_arg7) = m ((c : Thread nD τ).loc main_arg7) :=
  (B8_of_ne m ρ c main_arg7 (by decide)).trans (B7_arg7 m ρ c)
theorem B9_arg7 (c : Dev nD) : B9 m ρ c (Proc.devRef .tc main_arg7) = m ((c : Thread nD τ).loc main_arg7) :=
  (StableHlo.after_of_writes_sub hostOps3 _ hostOps3_writes (by decide : main_arg7 ∉ hostOps3_W)).trans (B8_arg7 m ρ c)
theorem B10_arg7 (c : Dev nD) : B10 m ρ c (Proc.devRef .tc main_arg7) = m ((c : Thread nD τ).loc main_arg7) :=
  (B10_of_ne m ρ c main_arg7 (by decide)).trans (B9_arg7 m ρ c)

theorem B0_arg8 (c : Dev nD) : B0 m ρ c (Proc.devRef .tc main_arg8) = m ((c : Thread nD τ).loc main_arg8) := rfl
theorem B1_arg8 (c : Dev nD) : B1 m ρ c (Proc.devRef .tc main_arg8) = m ((c : Thread nD τ).loc main_arg8) :=
  (StableHlo.after_of_writes_sub hostOps0 _ hostOps0_writes (by decide : main_arg8 ∉ hostOps0_W)).trans (B0_arg8 m ρ c)
theorem B2_arg8 (c : Dev nD) : B2 m ρ c (Proc.devRef .tc main_arg8) = m ((c : Thread nD τ).loc main_arg8) :=
  (StableHlo.after_of_writes_sub hostOps0_1 _ hostOps0_1_writes (by decide : main_arg8 ∉ hostOps0_1_W)).trans (B1_arg8 m ρ c)
theorem B3_arg8 (c : Dev nD) : B3 m ρ c (Proc.devRef .tc main_arg8) = m ((c : Thread nD τ).loc main_arg8) :=
  (StableHlo.after_of_writes_sub hostOps0_2 _ hostOps0_2_writes (by decide : main_arg8 ∉ hostOps0_2_W)).trans (B2_arg8 m ρ c)
theorem B4_arg8 (c : Dev nD) : B4 m ρ c (Proc.devRef .tc main_arg8) = m ((c : Thread nD τ).loc main_arg8) :=
  (B4_of_ne m ρ c main_arg8 (by decide)).trans (B3_arg8 m ρ c)
theorem B5_arg8 (c : Dev nD) : B5 m ρ c (Proc.devRef .tc main_arg8) = m ((c : Thread nD τ).loc main_arg8) :=
  (StableHlo.after_of_writes_sub hostOps1 _ hostOps1_writes (by decide : main_arg8 ∉ hostOps1_W)).trans (B4_arg8 m ρ c)
theorem B6_arg8 (c : Dev nD) : B6 m ρ c (Proc.devRef .tc main_arg8) = m ((c : Thread nD τ).loc main_arg8) :=
  (B6_of_ne m ρ c main_arg8 (by decide)).trans (B5_arg8 m ρ c)
theorem B7_arg8 (c : Dev nD) : B7 m ρ c (Proc.devRef .tc main_arg8) = m ((c : Thread nD τ).loc main_arg8) :=
  (StableHlo.after_of_writes_sub hostOps2 _ hostOps2_writes (by decide : main_arg8 ∉ hostOps2_W)).trans (B6_arg8 m ρ c)
theorem B8_arg8 (c : Dev nD) : B8 m ρ c (Proc.devRef .tc main_arg8) = m ((c : Thread nD τ).loc main_arg8) :=
  (B8_of_ne m ρ c main_arg8 (by decide)).trans (B7_arg8 m ρ c)
theorem B9_arg8 (c : Dev nD) : B9 m ρ c (Proc.devRef .tc main_arg8) = m ((c : Thread nD τ).loc main_arg8) :=
  (StableHlo.after_of_writes_sub hostOps3 _ hostOps3_writes (by decide : main_arg8 ∉ hostOps3_W)).trans (B8_arg8 m ρ c)
theorem B10_arg8 (c : Dev nD) : B10 m ρ c (Proc.devRef .tc main_arg8) = m ((c : Thread nD τ).loc main_arg8) :=
  ((B10_arr m ρ c 2).trans (arrAt_in3_2 (U9 m ρ) c _)).trans (B9_arg8 m ρ c)

theorem B0_arg9 (c : Dev nD) : B0 m ρ c (Proc.devRef .tc main_arg9) = m ((c : Thread nD τ).loc main_arg9) := rfl
theorem B1_arg9 (c : Dev nD) : B1 m ρ c (Proc.devRef .tc main_arg9) = m ((c : Thread nD τ).loc main_arg9) :=
  (StableHlo.after_of_writes_sub hostOps0 _ hostOps0_writes (by decide : main_arg9 ∉ hostOps0_W)).trans (B0_arg9 m ρ c)
theorem B2_arg9 (c : Dev nD) : B2 m ρ c (Proc.devRef .tc main_arg9) = m ((c : Thread nD τ).loc main_arg9) :=
  (StableHlo.after_of_writes_sub hostOps0_1 _ hostOps0_1_writes (by decide : main_arg9 ∉ hostOps0_1_W)).trans (B1_arg9 m ρ c)
theorem B3_arg9 (c : Dev nD) : B3 m ρ c (Proc.devRef .tc main_arg9) = m ((c : Thread nD τ).loc main_arg9) :=
  (StableHlo.after_of_writes_sub hostOps0_2 _ hostOps0_2_writes (by decide : main_arg9 ∉ hostOps0_2_W)).trans (B2_arg9 m ρ c)
theorem B4_arg9 (c : Dev nD) : B4 m ρ c (Proc.devRef .tc main_arg9) = m ((c : Thread nD τ).loc main_arg9) :=
  (B4_of_ne m ρ c main_arg9 (by decide)).trans (B3_arg9 m ρ c)
theorem B5_arg9 (c : Dev nD) : B5 m ρ c (Proc.devRef .tc main_arg9) = m ((c : Thread nD τ).loc main_arg9) :=
  (StableHlo.after_of_writes_sub hostOps1 _ hostOps1_writes (by decide : main_arg9 ∉ hostOps1_W)).trans (B4_arg9 m ρ c)
theorem B6_arg9 (c : Dev nD) : B6 m ρ c (Proc.devRef .tc main_arg9) = m ((c : Thread nD τ).loc main_arg9) :=
  (B6_of_ne m ρ c main_arg9 (by decide)).trans (B5_arg9 m ρ c)
theorem B7_arg9 (c : Dev nD) : B7 m ρ c (Proc.devRef .tc main_arg9) = m ((c : Thread nD τ).loc main_arg9) :=
  (StableHlo.after_of_writes_sub hostOps2 _ hostOps2_writes (by decide : main_arg9 ∉ hostOps2_W)).trans (B6_arg9 m ρ c)
theorem B8_arg9 (c : Dev nD) : B8 m ρ c (Proc.devRef .tc main_arg9) = m ((c : Thread nD τ).loc main_arg9) :=
  (B8_of_ne m ρ c main_arg9 (by decide)).trans (B7_arg9 m ρ c)
theorem B9_arg9 (c : Dev nD) : B9 m ρ c (Proc.devRef .tc main_arg9) = m ((c : Thread nD τ).loc main_arg9) :=
  (StableHlo.after_of_writes_sub hostOps3 _ hostOps3_writes (by decide : main_arg9 ∉ hostOps3_W)).trans (B8_arg9 m ρ c)
theorem B10_arg9 (c : Dev nD) : B10 m ρ c (Proc.devRef .tc main_arg9) = m ((c : Thread nD τ).loc main_arg9) :=
  (B10_of_ne m ρ c main_arg9 (by decide)).trans (B9_arg9 m ρ c)

/-- THE FRAME at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (B10_arg0 m ρ c),
      (h c _ (mem_uc main_arg1 (by decide))).trans (B10_arg1 m ρ c),
      (h c _ (mem_uc main_arg2 (by decide))).trans (B10_arg2 m ρ c),
      (h c _ (mem_uc main_arg3 (by decide))).trans (B10_arg3 m ρ c),
      (h c _ (mem_uc main_arg4 (by decide))).trans (B10_arg4 m ρ c),
      (h c _ (mem_uc main_arg5 (by decide))).trans (B10_arg5 m ρ c),
      (h c _ (mem_uc main_arg6 (by decide))).trans (B10_arg6 m ρ c),
      (h c _ (mem_uc main_arg7 (by decide))).trans (B10_arg7 m ρ c),
      (h c _ (mem_uc main_arg8 (by decide))).trans (B10_arg8 m ρ c),
      (h c _ (mem_uc main_arg9 (by decide))).trans (B10_arg9 m ρ c)⟩)
    (run_all m ρ)

end Cert.KernelIdeal.Chain

end
-- ==== Proof.RefDefs.lean ====
/-
  The reference's stages as functions of arrays, at the ideal instance. Each definition is the reference program's own
  composition of printed operations for one stage; the data-dependent operations (concatenate, gather, scatter-add) stay
  the opaque library functions they are printed as. The lemmas read the regular stages index by index: a matrix product
  is the sum over the contracted coordinate, the bias is added along rows, the rectifier is the maximum with zero, the
  pooling is the zero word plus the sum over the rows.
-/
import proofs.«113868_j87711822119195_1_alg».proof.Proof.Gen.ReferenceIdeal
import Idealize.ShloMosaic.Lib.Pipeline.Value
import Idealize.ShloMosaic.Lib.ValueIdx
import Idealize.ShloMosaic.PureOps.Ideal.Laws

noncomputable section

namespace Cert.RefSide

open Cert.ReferenceIdeal Cert.ReferenceIdeal.Gen Idealize.ShloMosaic Idealize.ShloMosaic.TcCoe Idealize.SL.Sem
  Idealize.ShloMosaic.StableHlo Idealize.ShloMosaic.ValueIdx

/-- The integer contents of the edge array `[2, 1200000]`. -/
abbrev EdgeArr : Type := (⟨S2x1200000, .i32⟩ : BufTy).Contents (Elt Ideal)
/-- The integer contents of a flat list of 1300000 node numbers. -/
abbrev NodeList : Type := (⟨S1300000, .i32⟩ : BufTy).Contents (Elt Ideal)
/-- The same list as a column `[1300000, 1]` of start indices. -/
abbrev NodeCol : Type := (⟨S1300000x1, .i32⟩ : BufTy).Contents (Elt Ideal)

/-! ## The graph data: sources, destinations, the normalisation -/

/-- The sources: row 0 of the edge array followed by the self loops `0 … 99999`. -/
def refSrc (e : EdgeArr) : NodeList :=
  concatenate S1300000 0 [⟨S1200000, shapeCast _ (extractStridedSlice S1x1200000 ![0, 0] e slices_S2x1200000_S1x1200000_0_0) shapeCasts_S1x1200000_S1200000⟩, ⟨S100000, iotaInDim S100000 32 0⟩] concatenates_S1200000_S100000_S1300000_d0

/-- The destinations: row 1 of the edge array followed by the self loops. -/
def refDst (e : EdgeArr) : NodeList :=
  concatenate S1300000 0 [⟨S1200000, shapeCast _ (extractStridedSlice S1x1200000 ![1, 0] e slices_S2x1200000_S1x1200000_1_0) shapeCasts_S1x1200000_S1200000⟩, ⟨S100000, iotaInDim S100000 32 0⟩] concatenates_S1200000_S100000_S1300000_d0

/-- A node list as a column of start indices. -/
def refCol (v : NodeList) : NodeCol :=
  broadcastInDim S1300000x1 ![0] bcast_S1300000_S1300000x1_0 v

/-- A node list with its negative entries moved up by 100000 (an index counted from the end), as a column. -/
def refWrapCol (v : NodeList) : NodeCol :=
  broadcastInDim S1300000x1 ![0] bcast_S1300000_S1300000x1_0
    (select (cmpi .slt v (broadcastInDim S1300000 ![] bcast_S_S1300000 (constantI S_ 32 0#32)))
      (addi v (broadcastInDim S1300000 ![] bcast_S_S1300000 (constantI S_ 32 100000#32))) v)

/-- The degrees: ones scatter-added into zeros at the destinations. -/
def refDeg (e : EdgeArr) : FVec Ideal S100000 .f32 :=
  Host.scatterAdd scatter_S100000_S1300000x1_S1300000_n_0_0_1
    (broadcastInDim S100000 ![] bcast_S_S100000 (constant S_ .f32 0x00000000#32))
    (refCol (refDst e))
    (broadcastInDim S1300000 ![] bcast_S_S1300000 (constant S_ .f32 0x3F800000#32))

/-- The inverse square roots of the positive degrees, zero elsewhere. -/
def refDinv (e : EdgeArr) : FVec Ideal S100000 .f32 :=
  select (cmpf .ogt (refDeg e) (broadcastInDim S100000 ![] bcast_S_S100000 (constant S_ .f32 0x00000000#32)))
    (Host.rsqrt (refDeg e))
    (broadcastInDim S100000 ![] bcast_S_S100000 (id (constant S_ .f32 0x00000000#32)))

/-- The edge weights: the product of the two ends' inverse square-root degrees. -/
def refNorm (e : EdgeArr) : FVec Ideal S1300000 .f32 :=
  mulf (Host.gather gather_S100000_S1300000x1_S1300000_n_0_n_n_0_1_1 (refDinv e) (refWrapCol (refSrc e)))
    (Host.gather gather_S100000_S1300000x1_S1300000_n_0_n_n_0_1_1 (refDinv e) (refWrapCol (refDst e)))

/-! ## One layer's aggregation -/

/-- Gather the rows at the sources, scale each by its edge weight, scatter-add them into zeros at the destinations. -/
def refAgg (e : EdgeArr) (h : FVec Ideal S100000x64 .f32) : FVec Ideal S100000x64 .f32 :=
  Host.scatterAdd scatter_S100000x64_S1300000x1_S1300000x64_1_0_0_1
    (broadcastInDim S100000x64 ![] bcast_S_S100000x64 (constant S_ .f32 0x00000000#32))
    (refCol (refDst e))
    (mulf (Host.gather gather_S100000x64_S1300000x1_S1300000x64_1_0_n_n_0_1_164 h (refWrapCol (refSrc e)))
      (broadcastInDim S1300000x64 ![0, 1] bcast_S1300000x1_S1300000x64_0_1
        (broadcastInDim S1300000x1 ![0] bcast_S1300000_S1300000x1_0 (refNorm e))))

/-! ## The regular stages -/

/-- The matrix product of the node features with a layer's weights. -/
def refL0 (x : FVec Ideal S100000x64 .f32) (w : FVec Ideal S64x64 .f32) : FVec Ideal S100000x64 .f32 :=
  Host.dotGeneral dot_S100000x64_S64x64_S100000x64_1_0_0_1_n_n none x w

/-- A bias row repeated down the 100000 rows. -/
def refRows (b : FVec Ideal S64 .f32) : FVec Ideal S100000x64 .f32 :=
  broadcastInDim S100000x64 ![0, 1] bcast_S1x64_S100000x64_0_1 (broadcastInDim S1x64 ![1] bcast_S64_S1x64_1 b)

/-- The bias added (the last layer, no rectifier). -/
def refBias (a : FVec Ideal S100000x64 .f32) (b : FVec Ideal S64 .f32) : FVec Ideal S100000x64 .f32 :=
  addf a (refRows b)

/-- The bias added, then the rectifier: the maximum with the zero word. -/
def refBiasRelu (a : FVec Ideal S100000x64 .f32) (b : FVec Ideal S64 .f32) : FVec Ideal S100000x64 .f32 :=
  maximumf (addf a (refRows b)) (broadcastInDim S100000x64 ![] bcast_S_S100000x64 (constant S_ .f32 0x00000000#32))

/-- The pooling: the sum over the 100000 rows, from the zero word. -/
def refPool (a : FVec Ideal S100000x64 .f32) : FVec Ideal S64 .f32 :=
  Host.reduceAdd a (constant S_ .f32 0x00000000#32) reducesTo_S100000x64_S64_d0 h_S_

/-- The head: the pooled row times the last weights, plus the last bias. -/
def refHead (g : FVec Ideal S64 .f32) (wl : FVec Ideal S64x10 .f32) (bl : FVec Ideal S10 .f32) : FVec Ideal S1x10 .f32 :=
  addf (Host.dotGeneral dot_S1x64_S64x10_S1x10_1_0_0_1_n_n none (broadcastInDim S1x64 ![1] bcast_S64_S1x64_1 g) wl)
    (broadcastInDim S1x10 ![1] bcast_S10_S1x10_1 bl)

/-! ## The regular stages at an index -/

/-- A layer's bias row read at row `i`, column `j`: the bias at `j`. -/
theorem refRows_apply (b : FVec Ideal S64 .f32) (i : Fin 100000) (j : Fin 64) :
    refRows b (ix2 i j) = b (ix1 j) := by
  unfold refRows
  rw [broadcastInDim_apply _ bcast_S1x64_S100000x64_0_1 _ (ix2 i j) (ix2 (0 : Fin 1) j) (fun a => match a with
    | ⟨0, _⟩ => by show 0 = if (1 : Nat) = 1 then 0 else i.val; rw [if_pos rfl]
    | ⟨1, _⟩ => by show j.val = if (64 : Nat) = 1 then 0 else j.val; rw [if_neg (by decide)])]
  exact broadcastInDim_apply _ bcast_S64_S1x64_1 b (ix2 (0 : Fin 1) j) (ix1 j) (fun a => match a with
    | ⟨0, _⟩ => by show j.val = if (64 : Nat) = 1 then 0 else j.val; rw [if_neg (by decide)])

/-- The last layer's bias stage at an index. -/
theorem refBias_apply (a : FVec Ideal S100000x64 .f32) (b : FVec Ideal S64 .f32) (i : Fin 100000) (j : Fin 64) :
    refBias a b (ix2 i j) = a (ix2 i j) + b (ix1 j) := by
  unfold refBias
  rw [addf_apply, refRows_apply]

/-- The bias-and-rectifier stage at an index: the maximum of the biased element and the zero word. -/
theorem refBiasRelu_apply (a : FVec Ideal S100000x64 .f32) (b : FVec Ideal S64 .f32) (i : Fin 100000) (j : Fin 64) :
    refBiasRelu a b (ix2 i j) = max (a (ix2 i j) + b (ix1 j)) (Ideal.ofBits .f32 0x00000000#32) := by
  unfold refBiasRelu
  rw [maximumf_apply, addf_apply, refRows_apply]
  refine congrArg (max _) ?_
  exact broadcastInDim_apply _ bcast_S_S100000x64 _ (ix2 i j) ix0 (fun a => a.elim0)

/-- The pooled array at column `j`: the zero word plus the sum of column `j` over the 100000 rows. -/
theorem refPool_apply (a : FVec Ideal S100000x64 .f32) (j : Fin 64) :
    refPool a (ix1 j) = Ideal.ofBits .f32 0x00000000#32 + ∑ r : Fin 100000, a (ix2 r j) := by
  unfold refPool
  simp only [Host.reduceAdd, Ideal.hostReduceAdd_def]
  rw [Ideal.hostReduceAdd_single reducesTo_S100000x64_S64_d0 (by decide)]
  refine congrArg (_ + ·) (Finset.sum_congr rfl fun k _ => ?_)
  exact congrArg a (funext fun d => Fin.ext (by match d with | ⟨0, _⟩ => rfl | ⟨1, _⟩ => rfl))

/-! ## The two matrix products at an index -/

/-- The first product's operand coordinates at a result index and a contraction index. -/
theorem refL0_lhs0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
theorem refL0_lhs1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q
theorem refL0_rhs0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q
theorem refL0_rhs1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

/-- The layer product at row `i`, column `j`: the sum over the contracted coordinate. -/
theorem refL0_apply (x : FVec Ideal S100000x64 .f32) (w : FVec Ideal S64x64 .f32) (i : Fin 100000) (j : Fin 64) :
    refL0 x w (ix2 i j) = ∑ k : Fin 64, x (ix2 i k) * w (ix2 k j) := by
  unfold refL0
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 i j) ((contrEquiv1 dot_S100000x64_S64x64_S100000x64_1_0_0_1_n_n 64 rfl rfl).symm k) = ix2 i k := funext fun a => Fin.ext (by
    match a with
    | ⟨0, _⟩ => exact refL0_lhs0 _ _
    | ⟨1, _⟩ => exact (refL0_lhs1 _ _).trans hk)
  have er : dot_S100000x64_S64x64_S100000x64_1_0_0_1_n_n.rhsIdx (ix2 i j) ((contrEquiv1 dot_S100000x64_S64x64_S100000x64_1_0_0_1_n_n 64 rfl rfl).symm k) = ix2 k j := funext fun a => Fin.ext (by
    match a with
    | ⟨0, _⟩ => exact (refL0_rhs0 _ _).trans hk
    | ⟨1, _⟩ => exact refL0_rhs1 _ _)
  rw [el, er]

/-- The head product's operand coordinates at a result index and a contraction index. -/
theorem refHead_lhs0 (i : S1x10.Idx) (q : dot_S1x64_S64x10_S1x10_1_0_0_1_n_n.contr.Idx) :
    (dot_S1x64_S64x10_S1x10_1_0_0_1_n_n.lhsIdx i q 0).val = (i 0).val := by
  unfold DotDims.lhsIdx
  rw [dif_neg (show ¬(0 : Fin S1x64.rank) ∈ dot_S1x64_S64x10_S1x10_1_0_0_1_n_n.lhsBatch by decide), dif_pos (show (0 : Fin S1x64.rank) ∈ dot_S1x64_S64x10_S1x10_1_0_0_1_n_n.lhsNonContracting by decide)]
  rfl
theorem refHead_lhs1 (i : S1x10.Idx) (q : dot_S1x64_S64x10_S1x10_1_0_0_1_n_n.contr.Idx) :
    (dot_S1x64_S64x10_S1x10_1_0_0_1_n_n.lhsIdx i q 1).val = (q ⟨0, by decide⟩).val :=
  dot_S1x64_S64x10_S1x10_1_0_0_1_n_n.lhsIdx_val_of_single rfl i q
theorem refHead_rhs0 (i : S1x10.Idx) (q : dot_S1x64_S64x10_S1x10_1_0_0_1_n_n.contr.Idx) :
    (dot_S1x64_S64x10_S1x10_1_0_0_1_n_n.rhsIdx i q 0).val = (q ⟨0, by decide⟩).val :=
  dot_S1x64_S64x10_S1x10_1_0_0_1_n_n.rhsIdx_val_of_single rfl i q
theorem refHead_rhs1 (i : S1x10.Idx) (q : dot_S1x64_S64x10_S1x10_1_0_0_1_n_n.contr.Idx) :
    (dot_S1x64_S64x10_S1x10_1_0_0_1_n_n.rhsIdx i q 1).val = (i 1).val := by
  unfold DotDims.rhsIdx
  rw [dif_neg (show ¬(1 : Fin S64x10.rank) ∈ dot_S1x64_S64x10_S1x10_1_0_0_1_n_n.rhsBatch by decide), dif_pos (show (1 : Fin S64x10.rank) ∈ dot_S1x64_S64x10_S1x10_1_0_0_1_n_n.rhsNonContracting by decide)]
  rfl

/-- The result at column `j`: the pooled row times column `j` of the last weights, plus the last bias at `j`. -/
theorem refHead_apply (g : FVec Ideal S64 .f32) (wl : FVec Ideal S64x10 .f32) (bl : FVec Ideal S10 .f32) (j : Fin 10) :
    refHead g wl bl (ix2 (0 : Fin 1) j) = (∑ k : Fin 64, g (ix1 k) * wl (ix2 k j)) + bl (ix1 j) := by
  unfold refHead
  rw [addf_apply]
  have hb : broadcastInDim S1x10 ![1] bcast_S10_S1x10_1 bl (ix2 (0 : Fin 1) j) = bl (ix1 j) :=
    broadcastInDim_apply _ bcast_S10_S1x10_1 bl (ix2 (0 : Fin 1) j) (ix1 j) (fun a => match a with
      | ⟨0, _⟩ => by show j.val = if (10 : Nat) = 1 then 0 else j.val; rw [if_neg (by decide)])
  rw [hb]
  refine congrArg (· + _) ?_
  simp only [Host.dotGeneral]
  rw [Ideal.dotGeneral_apply, ← Equiv.sum_comp (contrEquiv1 dot_S1x64_S64x10_S1x10_1_0_0_1_n_n 64 rfl rfl).symm]
  refine Finset.sum_congr rfl fun k _ => ?_
  have hk := contrEquiv1_symm_val dot_S1x64_S64x10_S1x10_1_0_0_1_n_n 64 rfl rfl k
  have el : dot_S1x64_S64x10_S1x10_1_0_0_1_n_n.lhsIdx (ix2 (0 : Fin 1) j) ((contrEquiv1 dot_S1x64_S64x10_S1x10_1_0_0_1_n_n 64 rfl rfl).symm k) = ix2 (0 : Fin 1) k := funext fun a => Fin.ext (by
    match a with
    | ⟨0, _⟩ => exact refHead_lhs0 _ _
    | ⟨1, _⟩ => exact (refHead_lhs1 _ _).trans hk)
  have er : dot_S1x64_S64x10_S1x10_1_0_0_1_n_n.rhsIdx (ix2 (0 : Fin 1) j) ((contrEquiv1 dot_S1x64_S64x10_S1x10_1_0_0_1_n_n 64 rfl rfl).symm k) = ix2 k j := funext fun a => Fin.ext (by
    match a with
    | ⟨0, _⟩ => exact (refHead_rhs0 _ _).trans hk
    | ⟨1, _⟩ => exact refHead_rhs1 _ _)
  rw [el, er]
  refine congrArg (· * _) ?_
  exact broadcastInDim_apply _ bcast_S64_S1x64_1 g (ix2 (0 : Fin 1) k) (ix1 k) (fun a => match a with
    | ⟨0, _⟩ => by show k.val = if (64 : Nat) = 1 then 0 else k.val; rw [if_neg (by decide)])

end Cert.RefSide

end
-- ==== Proof.KHost.lean ====
/-
  The host stretches of the program read as functions: the opening stretches compute the graph data (source and
  destination lists with the self loops appended, and the edge weights from the degrees), and each later stretch gathers
  the rows of the previous product at the sources, scales them by the edge weights and scatter-adds them at the
  destinations. They are the same operations the reference applies, so each is the reference's own stage function.
-/
import proofs.«113868_j87711822119195_1_alg».proof.Proof.Gen.KernelIdeal.Launch
import proofs.«113868_j87711822119195_1_alg».proof.Proof.Gen.KernelIdeal.Regions
import proofs.«113868_j87711822119195_1_alg».proof.Proof.RefDefs
import Idealize.ShloMosaic.Lib.StableHlo.Run

set_option maxRecDepth 16384

noncomputable section

namespace Cert.KernelIdeal.KHost

open Cert.KernelIdeal Cert.KernelIdeal.Gen Cert.RefSide
open Idealize.ShloMosaic Idealize.ShloMosaic.TcCoe Idealize.SL.Sem Idealize.ShloMosaic.StableHlo

/-- After the three opening stretches the source list is the reference's. -/
theorem src_eq (W : Valuation τ sig (Elt Ideal)) :
    after hostOps0_2 (after hostOps0_1 (after hostOps0 W)) (main_v3 : DevRef τ sig) = refSrc (W (main_arg1 : DevRef τ sig)) := by
  after_results
  rfl
/-- … the destination list is the reference's, -/
theorem dst_eq (W : Valuation τ sig (Elt Ideal)) :
    after hostOps0_2 (after hostOps0_1 (after hostOps0 W)) (main_v7 : DevRef τ sig) = refDst (W (main_arg1 : DevRef τ sig)) := by
  after_results
  rfl
/-- The degree comparison, the reciprocal square roots and the zero the select falls back to, after the first stretch. -/
theorem cmp_eq (W : Valuation τ sig (Elt Ideal)) :
    after hostOps0 W (main_v13 : DevRef τ sig)
      = cmpf .ogt (refDeg (W (main_arg1 : DevRef τ sig))) (broadcastInDim S100000 ![] bcast_S_S100000 (constant S_ .f32 0x00000000#32)) := by
  after_results
  rfl
theorem rsq_eq (W : Valuation τ sig (Elt Ideal)) :
    after hostOps0 W (main_v14 : DevRef τ sig) = Host.rsqrt (refDeg (W (main_arg1 : DevRef τ sig))) := by
  after_results
  rfl
theorem zero_eq (W : Valuation τ sig (Elt Ideal)) :
    after hostOps0 W (main_cst_2 : DevRef τ sig) = constant (F := Ideal) S_ .f32 0x00000000#32 := by
  after_results
theorem src0_eq (W : Valuation τ sig (Elt Ideal)) :
    after hostOps0 W (main_v3 : DevRef τ sig) = refSrc (W (main_arg1 : DevRef τ sig)) := by
  after_results
  rfl
theorem dst0_eq (W : Valuation τ sig (Elt Ideal)) :
    after hostOps0 W (main_v7 : DevRef τ sig) = refDst (W (main_arg1 : DevRef τ sig)) := by
  after_results
  rfl

/-- Contents moved to a typed reference's buffer and back are unchanged. -/
theorem ofBuf_toBuf {Val : EltTy → Type} {T : BufTy} (x : TRef sig T) (v : T.Contents Val) : x.ofBuf (x.toBuf v) = v := by
  obtain ⟨r, rfl, _, _⟩ := x; rfl

/-- At a literal reference the buffer's type is the value's, and the move between them is the identity: the four
    buffers the guarded select reads and writes. -/
theorem ofBuf_cmp (h1 h2 h3) (v : IVec S100000 1) :
    (TRef.of (T := ⟨S100000, .i1⟩) main_v13 h1 h2 h3).ofBuf (Val := Elt Ideal) v = v := rfl
theorem ofBuf_rsq (h1 h2 h3) (v : FVec Ideal S100000 .f32) :
    (TRef.of (T := ⟨S100000, .f32⟩) main_v14 h1 h2 h3).ofBuf (Val := Elt Ideal) v = v := rfl
theorem ofBuf_zero (h1 h2 h3) (v : FVec Ideal S_ .f32) :
    (TRef.of (T := ⟨S_, .f32⟩) main_cst_2 h1 h2 h3).ofBuf (Val := Elt Ideal) v = v := rfl
theorem toBuf_dinv (h1 h2 h3) (v : FVec Ideal S100000 .f32) :
    (TRef.of (T := ⟨S100000, .f32⟩) main_v15 h1 h2 h3).toBuf (Val := Elt Ideal) v = v := rfl

/-- The guarded reciprocal square root of the degrees, after the second stretch. -/
theorem dinv_eq (W : Valuation τ sig (Elt Ideal)) (e : EdgeArr)
    (hc : W (main_v13 : DevRef τ sig) = cmpf .ogt (refDeg e) (broadcastInDim S100000 ![] bcast_S_S100000 (constant S_ .f32 0x00000000#32)))
    (hr : W (main_v14 : DevRef τ sig) = Host.rsqrt (refDeg e)) (hz : W (main_cst_2 : DevRef τ sig) = constant (F := Ideal) S_ .f32 0x00000000#32) :
    after hostOps0_1 W (main_v15 : DevRef τ sig) = refDinv e := by
  after_results
  rw [hc, hr, hz]
  rw [ofBuf_toBuf, ofBuf_toBuf]
  rw [ofBuf_cmp, ofBuf_rsq, ofBuf_zero, toBuf_dinv]
  unfold refDinv
  rfl

set_option maxHeartbeats 4000000 in
/-- The edge weights, after the third stretch. -/
theorem norm_of (W : Valuation τ sig (Elt Ideal)) (e : EdgeArr)
    (hv : W (main_v15 : DevRef τ sig) = refDinv e) (hs : W (main_v3 : DevRef τ sig) = refSrc e) (hd : W (main_v7 : DevRef τ sig) = refDst e) :
    after hostOps0_2 W (main_v30 : DevRef τ sig) = refNorm e := by
  after_results_simp
  rw [hv, hs, hd]
  rfl

/-- … and so are the edge weights: the three stretches composed (the second and third write neither list). -/
theorem norm_eq (W : Valuation τ sig (Elt Ideal)) :
    after hostOps0_2 (after hostOps0_1 (after hostOps0 W)) (main_v30 : DevRef τ sig) = refNorm (W (main_arg1 : DevRef τ sig)) :=
  norm_of _ _
    (dinv_eq _ _ (cmp_eq W) (rsq_eq W) (zero_eq W))
    ((StableHlo.after_of_writes_sub hostOps0_1 _ hostOps0_1_writes (by decide : main_v3 ∉ hostOps0_1_W)).trans (src0_eq W))
    ((StableHlo.after_of_writes_sub hostOps0_1 _ hostOps0_1_writes (by decide : main_v7 ∉ hostOps0_1_W)).trans (dst0_eq W))

set_option maxRecDepth 65536 in
set_option maxHeartbeats 8000000 in
/-- The first aggregation stretch: with the source, destination and weight lists at the graph data of `e`, it leaves the
    aggregation of the previous product, and the layer's bias as a one-row matrix. -/
theorem agg1 (W : Valuation τ sig (Elt Ideal)) (e : EdgeArr)
    (hs : W (main_v3 : DevRef τ sig) = refSrc e) (hd : W (main_v7 : DevRef τ sig) = refDst e) (hn : W (main_v30 : DevRef τ sig) = refNorm e) :
    after hostOps1 W (main_v44 : DevRef τ sig) = refAgg e (W (main_v31 : DevRef τ sig)) := by
  after_results_simp
  rw [hs, hd, hn]
  rfl
theorem bias1 (W : Valuation τ sig (Elt Ideal)) :
    after hostOps1 W (main_v45 : DevRef τ sig) = shapeCast _ (W (main_arg3 : DevRef τ sig)) shapeCasts_S64_S1x64 := by
  after_results
  rfl

set_option maxRecDepth 65536 in
set_option maxHeartbeats 8000000 in
/-- The second aggregation stretch: with the source, destination and weight lists at the graph data of `e`, it leaves the
    aggregation of the previous product, and the layer's bias as a one-row matrix. -/
theorem agg2 (W : Valuation τ sig (Elt Ideal)) (e : EdgeArr)
    (hs : W (main_v3 : DevRef τ sig) = refSrc e) (hd : W (main_v7 : DevRef τ sig) = refDst e) (hn : W (main_v30 : DevRef τ sig) = refNorm e) :
    after hostOps2 W (main_v59 : DevRef τ sig) = refAgg e (W (main_v46 : DevRef τ sig)) := by
  after_results_simp
  rw [hs, hd, hn]
  rfl
theorem bias2 (W : Valuation τ sig (Elt Ideal)) :
    after hostOps2 W (main_v60 : DevRef τ sig) = shapeCast _ (W (main_arg5 : DevRef τ sig)) shapeCasts_S64_S1x64 := by
  after_results
  rfl

set_option maxRecDepth 65536 in
set_option maxHeartbeats 8000000 in
/-- The third aggregation stretch: with the source, destination and weight lists at the graph data of `e`, it leaves the
    aggregation of the previous product, and the layer's bias as a one-row matrix. -/
theorem agg3 (W : Valuation τ sig (Elt Ideal)) (e : EdgeArr)
    (hs : W (main_v3 : DevRef τ sig) = refSrc e) (hd : W (main_v7 : DevRef τ sig) = refDst e) (hn : W (main_v30 : DevRef τ sig) = refNorm e) :
    after hostOps3 W (main_v74 : DevRef τ sig) = refAgg e (W (main_v61 : DevRef τ sig)) := by
  after_results_simp
  rw [hs, hd, hn]
  rfl
theorem bias3 (W : Valuation τ sig (Elt Ideal)) :
    after hostOps3 W (main_v75 : DevRef τ sig) = shapeCast _ (W (main_arg7 : DevRef τ sig)) shapeCasts_S64_S1x64 := by
  after_results
  rfl
theorem lastBias (W : Valuation τ sig (Elt Ideal)) :
    after hostOps3 W (main_v76 : DevRef τ sig) = shapeCast _ (W (main_arg9 : DevRef τ sig)) shapeCasts_S10_S1x10 := by
  after_results
  rfl

end Cert.KernelIdeal.KHost

end
-- ==== Proof.MatAValue.lean ====
/-
  The first region's output array, read: each grid point writes back the matrix product of its 10000-row tile of the
  node features with the whole first weight, which is that row block of the whole product; the ten row blocks cover
  the array, so the array ends at the reference's product stage of the arrays the region finds.
-/
import proofs.«113868_j87711822119195_1_alg».proof.Proof.MatA
import proofs.«113868_j87711822119195_1_alg».proof.Proof.RefDefs
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.MatAV

open Cert.KernelIdeal Cert.KernelIdeal.Gen Cert.KernelIdeal.MatA
open Idealize.ShloMosaic Idealize.ShloMosaic.TcCoe Idealize.SL.Sem Idealize.ShloMosaic.ValueIdx
open Idealize.ShloMosaic.Pipeline (Dat)

/-- The contraction's operand coordinates at a result index and a contraction index. -/
theorem dot_lhs0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem dot_lhs1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem dot_rhs0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem dot_rhs1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A tile's matrix product into the zero accumulator at row `p`, column `q`: the sum over the contracted coordinate. -/
theorem tileDot_apply (l : FVec Ideal S10000x64 .bf16) (r : FVec Ideal S64x64 .bf16) (p : Fin 10000) (q : Fin 64) :
    matmul dot_S10000x64_S64x64_S10000x64_1_0_0_1_n_n none l r (constant S10000x64 .f32 0x00000000#32) (ix2 p q)
      = ∑ k : Fin 64, l (ix2 p k) * r (ix2 k q) := by
  show FloatOps.matmul _ _ _ _ _ _ = _
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact dot_lhs0 _ _
    | ⟨1, _⟩ => exact (dot_lhs1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (dot_rhs0 _ _).trans hk
    | ⟨1, _⟩ => exact dot_rhs1 _ _)
  rw [el, er]

/-- The first region's payload at row `p`, column `q` of the tile. -/
theorem pay0_apply (x0 : Vec Ideal S10000x64 .f32) (x1 : Vec Ideal S64x64 .f32) (p : Fin 10000) (q : Fin 64) :
    k0_pay1 x0 x1 (ix2 p q) = ∑ k : Fin 64, x0 (ix2 p k) * x1 (ix2 k q) := by
  unfold k0_pay1
  exact tileDot_apply _ _ p q

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the ten grid points: the row tile of the features and of the output is the point's
    own, on column block 0; the weight sits at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the arrays the region finds. -/
theorem flushed0_eq (c : Dev nD) (t : Fin cfg0.N) :
    (dat0 V c).flushed 2 t
      = ((cfg0.win 2).blk t).view.read (Elt Ideal) (Cert.RefSide.refL0 (V c main_arg0) (V c main_arg2)) := by
  show (cfg0.win 2).cut (grid0.coords t) ((dat0 V c).after 2 t) = _
  rw [after0_2]
  unfold out0_2
  rw [View.canon_unit_zero hz2]
  simp only [View.ld_unit_zero (S := S10000x64) hz2, View.ld_unit_zero (S := S64x64) hz2]
  obtain ⟨e0, e1, e2, e3, e4, e5⟩ := idx_facts0 t
  have hN : t.val < 10 := lt_of_lt_of_eq t.isLt N_0
  funext j
  obtain ⟨p, q, rfl⟩ : ∃ (p : Fin 10000) (q : Fin 64), j = ix2 p q := ⟨j 0, j 1, eq_ix2 j⟩
  refine (pay0_apply _ _ p q).trans ?_
  rw [View.read_apply]
  have hp : p.val < 10000 := p.isLt
  have hq : q.val < 64 := q.isLt
  have hout : ((cfg0.win 2).blk t).view.emb (ix2 p q) = ix2 (⟨t.val * 10000 + p.val, by omega⟩ : Fin 100000) q :=
    funext fun a => Fin.ext (by
      match a with
      | ⟨0, _⟩ => show win0_2.index t (0 : Fin 2) * 10000 + 1 * p.val = t.val * 10000 + p.val; rw [e4]; omega
      | ⟨1, _⟩ => show win0_2.index t (1 : Fin 2) * 64 + 1 * q.val = q.val; rw [e5]; omega)
  rw [hout, Cert.RefSide.refL0_apply]
  refine Finset.sum_congr rfl fun k _ => ?_
  have hk : k.val < 64 := k.isLt
  have h0 : iblk0 V c 0 t (ix2 p k) = V c main_arg0 (ix2 (⟨t.val * 10000 + p.val, by omega⟩ : Fin 100000) k) := by
    unfold iblk0
    rw [View.read_apply]
    show V c main_arg0 _ = _
    congr 1
    funext a
    apply Fin.ext
    match a with
    | ⟨0, _⟩ => show win0_0.index t (0 : Fin 2) * 10000 + 1 * p.val = t.val * 10000 + p.val; rw [e0]; omega
    | ⟨1, _⟩ => show win0_0.index t (1 : Fin 2) * 64 + 1 * k.val = k.val; rw [e1]; omega
  have h1 : iblk0 V c 1 t (ix2 k q) = V c main_arg2 (ix2 k q) := by
    unfold iblk0
    rw [View.read_apply]
    show V c main_arg2 _ = _
    congr 1
    funext a
    apply Fin.ext
    match a with
    | ⟨0, _⟩ => show win0_1.index t (0 : Fin 2) * 64 + 1 * k.val = k.val; rw [e2]; omega
    | ⟨1, _⟩ => show win0_1.index t (1 : Fin 2) * 64 + 1 * q.val = q.val; rw [e3]; omega
  rw [h0, h1]

/-- An index of the output array is in point `t`'s block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v31).slice (win0_2.rect t)).set ↔ _
  rw [View.set_slice_whole, Rect.mem_set_unit]
  exact Iff.rfl

/-- Row `r` of the output lies in the block of point `r / 10000`: the ten row tiles cover the array. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have ht : (i 0).val / 10000 < cfg0.N := by rw [show cfg0.N = 10 from N_0]; omega
  obtain ⟨e0, e1, e2, e3, e4, e5⟩ := idx_facts0 ⟨(i 0).val / 10000, ht⟩
  refine ⟨⟨(i 0).val / 10000, ht⟩, flush0_2 _, ?_⟩
  rw [mem_blk0]
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 64 ≤ (i 1).val ∧ (i 1).val < win0_2.index ⟨(i 0).val / 10000, ht⟩ (1 : Fin 2) * 64 + 64
    rw [e5]; omega

/-- The first region's output array after its ten points: the whole product of the features with the first weights. -/
theorem final0 (c : Dev nD) :
    (dat0 V c).arrAt 2 cfg0.N = Cert.RefSide.refL0 (V c main_arg0) (V c main_arg2) :=
  (dat0 V c).arrAt_eq_of_cover 2 _ (fun t _ => flushed0_eq V c t) cover0

end Cert.KernelIdeal.MatAV
end
-- ==== Proof.MatBValue.lean ====
/-
  A hidden layer's dense region, read: each grid point writes back, for its 10000-row tile, the matrix product of the
  rectified biased tile with the whole weight, which is that row block of the reference's stage (bias, rectifier,
  product) of the arrays the region finds; the ten row blocks cover the array.
-/
import proofs.«113868_j87711822119195_1_alg».proof.Proof.MatB
import proofs.«113868_j87711822119195_1_alg».proof.Proof.RefDefs
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.MatBV

open Cert.KernelIdeal Cert.KernelIdeal.Gen Cert.KernelIdeal.MatB
open Idealize.ShloMosaic Idealize.ShloMosaic.TcCoe Idealize.SL.Sem Idealize.ShloMosaic.ValueIdx
open Idealize.ShloMosaic.Pipeline (Dat)

/-- The contraction's operand coordinates at a result index and a contraction index. -/
theorem dot_lhs0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem dot_lhs1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem dot_rhs0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem dot_rhs1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A tile's matrix product into the zero accumulator at row `p`, column `q`: the sum over the contracted coordinate. -/
theorem tileDot_apply (l : FVec Ideal S10000x64 .bf16) (r : FVec Ideal S64x64 .bf16) (p : Fin 10000) (q : Fin 64) :
    matmul dot_S10000x64_S64x64_S10000x64_1_0_0_1_n_n none l r (constant S10000x64 .f32 0x00000000#32) (ix2 p q)
      = ∑ k : Fin 64, l (ix2 p k) * r (ix2 k q) := by
  show FloatOps.matmul _ _ _ _ _ _ = _
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact dot_lhs0 _ _
    | ⟨1, _⟩ => exact (dot_lhs1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (dot_rhs0 _ _).trans hk
    | ⟨1, _⟩ => exact dot_rhs1 _ _)
  rw [el, er]

/-- The region's payload at row `p`, column `q` of the tile: the rectified biased row times the weight's column. -/
theorem pay1_apply (x0 : Vec Ideal S10000x64 .f32) (x1 : Vec Ideal S1x64 .f32) (x2 : Vec Ideal S64x64 .f32)
    (p : Fin 10000) (q : Fin 64) :
    k1_pay1 x0 x1 x2 (ix2 p q)
      = ∑ k : Fin 64, max (x0 (ix2 p k) + x1 (ix2 (0 : Fin 1) k)) (Ideal.ofBits .f32 0x00000000#32) * x2 (ix2 k q) := by
  unfold k1_pay1
  refine (tileDot_apply _ _ p q).trans ?_
  refine Finset.sum_congr rfl fun k _ => ?_
  rw [truncf_apply, truncf_apply, maximumf_apply, addf_apply, shapeCast_self, shapeCast_self, broadcastTo_1b_ab_apply]
  rfl

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the ten grid points: the row tile of the input and of the output is the point's own,
    on column block 0; the bias row and the weight sit at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

set_option maxHeartbeats 1000000 in
/-- What point `t` writes back is block `t` of the layer's dense stage of the arrays the region finds, the bias row
    read as the flat bias `b`. -/
theorem flushed1_eq (c : Dev nD) (t : Fin cfg1.N) (b : FVec Ideal Cert.ReferenceIdeal.S64 .f32)
    (hb : ∀ k : Fin 64, V c main_v45 (ix2 (0 : Fin 1) k) = b (ix1 k)) :
    (dat1 V c).flushed 3 t
      = ((cfg1.win 3).blk t).view.read (Elt Ideal)
          (Cert.RefSide.refL0 (Cert.RefSide.refBiasRelu (V c main_v44) b) (V c main_arg4)) := by
  show (cfg1.win 3).cut (grid1.coords t) ((dat1 V c).after 3 t) = _
  rw [after1_3]
  unfold out1_3
  rw [View.canon_unit_zero hz2]
  simp only [View.ld_unit_zero (S := S10000x64) hz2, View.ld_unit_zero (S := S1x64) hz2, View.ld_unit_zero (S := S64x64) hz2]
  obtain ⟨e0, e1, e2, e3, e4, e5, e6, e7⟩ := idx_facts1 t
  have hN : t.val < 10 := lt_of_lt_of_eq t.isLt N_1
  funext j
  obtain ⟨p, q, rfl⟩ : ∃ (p : Fin 10000) (q : Fin 64), j = ix2 p q := ⟨j 0, j 1, eq_ix2 j⟩
  refine (pay1_apply _ _ _ p q).trans ?_
  rw [View.read_apply]
  have hp : p.val < 10000 := p.isLt
  have hq : q.val < 64 := q.isLt
  have hout : ((cfg1.win 3).blk t).view.emb (ix2 p q) = ix2 (⟨t.val * 10000 + p.val, by omega⟩ : Fin 100000) q :=
    funext fun a => Fin.ext (by
      match a with
      | ⟨0, _⟩ => show win1_3.index t (0 : Fin 2) * 10000 + 1 * p.val = t.val * 10000 + p.val; rw [e6]; omega
      | ⟨1, _⟩ => show win1_3.index t (1 : Fin 2) * 64 + 1 * q.val = q.val; rw [e7]; omega)
  rw [hout, Cert.RefSide.refL0_apply]
  refine Finset.sum_congr rfl fun k _ => ?_
  have hk : k.val < 64 := k.isLt
  have h0 : iblk1 V c 0 t (ix2 p k) = V c main_v44 (ix2 (⟨t.val * 10000 + p.val, by omega⟩ : Fin 100000) k) := by
    unfold iblk1
    rw [View.read_apply]
    show V c main_v44 _ = _
    congr 1
    funext a
    apply Fin.ext
    match a with
    | ⟨0, _⟩ => show win1_0.index t (0 : Fin 2) * 10000 + 1 * p.val = t.val * 10000 + p.val; rw [e0]; omega
    | ⟨1, _⟩ => show win1_0.index t (1 : Fin 2) * 64 + 1 * k.val = k.val; rw [e1]; omega
  have h1 : iblk1 V c 1 t (ix2 (0 : Fin 1) k) = V c main_v45 (ix2 (0 : Fin 1) k) := by
    unfold iblk1
    rw [View.read_apply]
    show V c main_v45 _ = _
    congr 1
    funext a
    apply Fin.ext
    match a with
    | ⟨0, _⟩ => show win1_1.index t (0 : Fin 2) * 1 + 1 * 0 = 0; rw [e2]
    | ⟨1, _⟩ => show win1_1.index t (1 : Fin 2) * 64 + 1 * k.val = k.val; rw [e3]; omega
  have h2 : iblk1 V c 2 t (ix2 k q) = V c main_arg4 (ix2 k q) := by
    unfold iblk1
    rw [View.read_apply]
    show V c main_arg4 _ = _
    congr 1
    funext a
    apply Fin.ext
    match a with
    | ⟨0, _⟩ => show win1_2.index t (0 : Fin 2) * 64 + 1 * k.val = k.val; rw [e4]; omega
    | ⟨1, _⟩ => show win1_2.index t (1 : Fin 2) * 64 + 1 * q.val = q.val; rw [e5]; omega
  rw [h0, h1, h2, hb k, Cert.RefSide.refBiasRelu_apply]

/-- An index of the output array is in point `t`'s block iff each coordinate is in the block's range on its axis. -/
theorem mem_blk1 (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v46).slice (win1_3.rect t)).set ↔ _
  rw [View.set_slice_whole, Rect.mem_set_unit]
  exact Iff.rfl

/-- Row `r` of the output lies in the block of point `r / 10000`: the ten row tiles cover the array. -/
theorem cover1 (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have ht : (i 0).val / 10000 < cfg1.N := by rw [show cfg1.N = 10 from N_1]; omega
  obtain ⟨e0, e1, e2, e3, e4, e5, e6, e7⟩ := idx_facts1 ⟨(i 0).val / 10000, ht⟩
  refine ⟨⟨(i 0).val / 10000, ht⟩, flush1_3 _, ?_⟩
  rw [mem_blk1]
  intro a
  match a with
  | ⟨0, _⟩ =>
    show win1_3.index ⟨(i 0).val / 10000, ht⟩ (0 : Fin 2) * 10000 ≤ (i 0).val ∧ (i 0).val < win1_3.index ⟨(i 0).val / 10000, ht⟩ (0 : Fin 2) * 10000 + 10000
    rw [e6]; show (i 0).val / 10000 * 10000 ≤ (i 0).val ∧ (i 0).val < (i 0).val / 10000 * 10000 + 10000; omega
  | ⟨1, _⟩ =>
    show win1_3.index ⟨(i 0).val / 10000, ht⟩ (1 : Fin 2) * 64 ≤ (i 1).val ∧ (i 1).val < win1_3.index ⟨(i 0).val / 10000, ht⟩ (1 : Fin 2) * 64 + 64
    rw [e7]; omega

/-- The region's output array after its ten points: the layer's dense stage — bias, rectifier, product with the
    weights — of the arrays the region finds. -/
theorem final1 (c : Dev nD) (b : FVec Ideal Cert.ReferenceIdeal.S64 .f32)
    (hb : ∀ k : Fin 64, V c main_v45 (ix2 (0 : Fin 1) k) = b (ix1 k)) :
    (dat1 V c).arrAt 3 cfg1.N
      = Cert.RefSide.refL0 (Cert.RefSide.refBiasRelu (V c main_v44) b) (V c main_arg4) :=
  (dat1 V c).arrAt_eq_of_cover 3 _ (fun t _ => flushed1_eq V c t b hb) cover1

end Cert.KernelIdeal.MatBV
end
-- ==== Proof.MatCValue.lean ====
/-
  A hidden layer's dense region, read: each grid point writes back, for its 10000-row tile, the matrix product of the
  rectified biased tile with the whole weight, which is that row block of the reference's stage (bias, rectifier,
  product) of the arrays the region finds; the ten row blocks cover the array.
-/
import proofs.«113868_j87711822119195_1_alg».proof.Proof.MatC
import proofs.«113868_j87711822119195_1_alg».proof.Proof.RefDefs
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.MatCV

open Cert.KernelIdeal Cert.KernelIdeal.Gen Cert.KernelIdeal.MatC
open Idealize.ShloMosaic Idealize.ShloMosaic.TcCoe Idealize.SL.Sem Idealize.ShloMosaic.ValueIdx
open Idealize.ShloMosaic.Pipeline (Dat)

/-- The contraction's operand coordinates at a result index and a contraction index. -/
theorem dot_lhs0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem dot_lhs1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem dot_rhs0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem dot_rhs1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A tile's matrix product into the zero accumulator at row `p`, column `q`: the sum over the contracted coordinate. -/
theorem tileDot_apply (l : FVec Ideal S10000x64 .bf16) (r : FVec Ideal S64x64 .bf16) (p : Fin 10000) (q : Fin 64) :
    matmul dot_S10000x64_S64x64_S10000x64_1_0_0_1_n_n none l r (constant S10000x64 .f32 0x00000000#32) (ix2 p q)
      = ∑ k : Fin 64, l (ix2 p k) * r (ix2 k q) := by
  show FloatOps.matmul _ _ _ _ _ _ = _
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact dot_lhs0 _ _
    | ⟨1, _⟩ => exact (dot_lhs1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (dot_rhs0 _ _).trans hk
    | ⟨1, _⟩ => exact dot_rhs1 _ _)
  rw [el, er]

/-- The region's payload at row `p`, column `q` of the tile: the rectified biased row times the weight's column. -/
theorem pay2_apply (x0 : Vec Ideal S10000x64 .f32) (x1 : Vec Ideal S1x64 .f32) (x2 : Vec Ideal S64x64 .f32)
    (p : Fin 10000) (q : Fin 64) :
    k2_pay1 x0 x1 x2 (ix2 p q)
      = ∑ k : Fin 64, max (x0 (ix2 p k) + x1 (ix2 (0 : Fin 1) k)) (Ideal.ofBits .f32 0x00000000#32) * x2 (ix2 k q) := by
  unfold k2_pay1
  refine (tileDot_apply _ _ p q).trans ?_
  refine Finset.sum_congr rfl fun k _ => ?_
  rw [truncf_apply, truncf_apply, maximumf_apply, addf_apply, shapeCast_self, shapeCast_self, broadcastTo_1b_ab_apply]
  rfl

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the ten grid points: the row tile of the input and of the output is the point's own,
    on column block 0; the bias row and the weight sit at block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

set_option maxHeartbeats 1000000 in
/-- What point `t` writes back is block `t` of the layer's dense stage of the arrays the region finds, the bias row
    read as the flat bias `b`. -/
theorem flushed2_eq (c : Dev nD) (t : Fin cfg2.N) (b : FVec Ideal Cert.ReferenceIdeal.S64 .f32)
    (hb : ∀ k : Fin 64, V c main_v60 (ix2 (0 : Fin 1) k) = b (ix1 k)) :
    (dat2 V c).flushed 3 t
      = ((cfg2.win 3).blk t).view.read (Elt Ideal)
          (Cert.RefSide.refL0 (Cert.RefSide.refBiasRelu (V c main_v59) b) (V c main_arg6)) := by
  show (cfg2.win 3).cut (grid2.coords t) ((dat2 V c).after 3 t) = _
  rw [after2_3]
  unfold out2_3
  rw [View.canon_unit_zero hz2]
  simp only [View.ld_unit_zero (S := S10000x64) hz2, View.ld_unit_zero (S := S1x64) hz2, View.ld_unit_zero (S := S64x64) hz2]
  obtain ⟨e0, e1, e2, e3, e4, e5, e6, e7⟩ := idx_facts2 t
  have hN : t.val < 10 := lt_of_lt_of_eq t.isLt N_2
  funext j
  obtain ⟨p, q, rfl⟩ : ∃ (p : Fin 10000) (q : Fin 64), j = ix2 p q := ⟨j 0, j 1, eq_ix2 j⟩
  refine (pay2_apply _ _ _ p q).trans ?_
  rw [View.read_apply]
  have hp : p.val < 10000 := p.isLt
  have hq : q.val < 64 := q.isLt
  have hout : ((cfg2.win 3).blk t).view.emb (ix2 p q) = ix2 (⟨t.val * 10000 + p.val, by omega⟩ : Fin 100000) q :=
    funext fun a => Fin.ext (by
      match a with
      | ⟨0, _⟩ => show win2_3.index t (0 : Fin 2) * 10000 + 1 * p.val = t.val * 10000 + p.val; rw [e6]; omega
      | ⟨1, _⟩ => show win2_3.index t (1 : Fin 2) * 64 + 1 * q.val = q.val; rw [e7]; omega)
  rw [hout, Cert.RefSide.refL0_apply]
  refine Finset.sum_congr rfl fun k _ => ?_
  have hk : k.val < 64 := k.isLt
  have h0 : iblk2 V c 0 t (ix2 p k) = V c main_v59 (ix2 (⟨t.val * 10000 + p.val, by omega⟩ : Fin 100000) k) := by
    unfold iblk2
    rw [View.read_apply]
    show V c main_v59 _ = _
    congr 1
    funext a
    apply Fin.ext
    match a with
    | ⟨0, _⟩ => show win2_0.index t (0 : Fin 2) * 10000 + 1 * p.val = t.val * 10000 + p.val; rw [e0]; omega
    | ⟨1, _⟩ => show win2_0.index t (1 : Fin 2) * 64 + 1 * k.val = k.val; rw [e1]; omega
  have h1 : iblk2 V c 1 t (ix2 (0 : Fin 1) k) = V c main_v60 (ix2 (0 : Fin 1) k) := by
    unfold iblk2
    rw [View.read_apply]
    show V c main_v60 _ = _
    congr 1
    funext a
    apply Fin.ext
    match a with
    | ⟨0, _⟩ => show win2_1.index t (0 : Fin 2) * 1 + 1 * 0 = 0; rw [e2]
    | ⟨1, _⟩ => show win2_1.index t (1 : Fin 2) * 64 + 1 * k.val = k.val; rw [e3]; omega
  have h2 : iblk2 V c 2 t (ix2 k q) = V c main_arg6 (ix2 k q) := by
    unfold iblk2
    rw [View.read_apply]
    show V c main_arg6 _ = _
    congr 1
    funext a
    apply Fin.ext
    match a with
    | ⟨0, _⟩ => show win2_2.index t (0 : Fin 2) * 64 + 1 * k.val = k.val; rw [e4]; omega
    | ⟨1, _⟩ => show win2_2.index t (1 : Fin 2) * 64 + 1 * q.val = q.val; rw [e5]; omega
  rw [h0, h1, h2, hb k, Cert.RefSide.refBiasRelu_apply]

/-- An index of the output array is in point `t`'s block iff each coordinate is in the block's range on its axis. -/
theorem mem_blk2 (t : Fin cfg2.N) (i : S100000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v61).slice (win2_3.rect t)).set ↔ _
  rw [View.set_slice_whole, Rect.mem_set_unit]
  exact Iff.rfl

/-- Row `r` of the output lies in the block of point `r / 10000`: the ten row tiles cover the array. -/
theorem cover2 (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have ht : (i 0).val / 10000 < cfg2.N := by rw [show cfg2.N = 10 from N_2]; omega
  obtain ⟨e0, e1, e2, e3, e4, e5, e6, e7⟩ := idx_facts2 ⟨(i 0).val / 10000, ht⟩
  refine ⟨⟨(i 0).val / 10000, ht⟩, flush2_3 _, ?_⟩
  rw [mem_blk2]
  intro a
  match a with
  | ⟨0, _⟩ =>
    show win2_3.index ⟨(i 0).val / 10000, ht⟩ (0 : Fin 2) * 10000 ≤ (i 0).val ∧ (i 0).val < win2_3.index ⟨(i 0).val / 10000, ht⟩ (0 : Fin 2) * 10000 + 10000
    rw [e6]; show (i 0).val / 10000 * 10000 ≤ (i 0).val ∧ (i 0).val < (i 0).val / 10000 * 10000 + 10000; omega
  | ⟨1, _⟩ =>
    show win2_3.index ⟨(i 0).val / 10000, ht⟩ (1 : Fin 2) * 64 ≤ (i 1).val ∧ (i 1).val < win2_3.index ⟨(i 0).val / 10000, ht⟩ (1 : Fin 2) * 64 + 64
    rw [e7]; omega

/-- The region's output array after its ten points: the layer's dense stage — bias, rectifier, product with the
    weights — of the arrays the region finds. -/
theorem final2 (c : Dev nD) (b : FVec Ideal Cert.ReferenceIdeal.S64 .f32)
    (hb : ∀ k : Fin 64, V c main_v60 (ix2 (0 : Fin 1) k) = b (ix1 k)) :
    (dat2 V c).arrAt 3 cfg2.N
      = Cert.RefSide.refL0 (Cert.RefSide.refBiasRelu (V c main_v59) b) (V c main_arg6) :=
  (dat2 V c).arrAt_eq_of_cover 3 _ (fun t _ => flushed2_eq V c t b hb) cover2

end Cert.KernelIdeal.MatCV
end
-- ==== Proof.PoolPieces.lean ====
/- What each case of the pooling kernel leaves in the accumulator and in the output buffer, as terms of
   the point's input blocks and of what the point before left in the accumulator: the first point
   leaves the block's biased column sums added to zeros; every later point adds its block's biased
   column sums to the accumulator; the last point stores (accumulator · Wl + bl) into the output. -/
import proofs.«113868_j87711822119195_1_alg».proof.Proof.PoolFrame
import Idealize.ShloMosaic.Lib.Pipeline.Value
import Idealize.ShloMosaic.Lib.Tactic

set_option maxRecDepth 16384

noncomputable section

namespace Cert.KernelIdeal.Pool

open Cert.KernelIdeal Cert.KernelIdeal.Gen
open Idealize.ShloMosaic Idealize.ShloMosaic.TcCoe Idealize.SL.Sem
open Idealize.ShloMosaic.Pipeline (Dat)

variable {F : FTy → Type} [FloatOps F]

theorem hz2 : (![0, 0] : Fin 2 → Nat) = fun _ => 0 := funext fun a => by fin_cases a <;> rfl

/-- The first point: zeros stored, read back, and the block's biased column sums added. -/
theorem soutA_eq (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S64x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x64 .f32) (harg6 : arg6.IsWhole) (hc0 : cond3_0 i) (hc2 : ¬cond3_2 i) (x0 : Vec F S10000x64 .f32) (x1 : Vec F S1x64 .f32) (x2 : Vec F S64x10 .f32) (x3 : Vec F S1x10 .f32) :
    sout3_A c i arg1 harg1 arg2 harg2 arg3 harg3 arg4 harg4 arg5 harg5 arg6 harg6 hc0 hc2 x0 x1 x2 x3 = k3_pay2 x0 x1 (k3_pay1) := by
  unfold sout3_A
  rw [View.read_writes_eq_canon _ _ _ (scover3_A c i arg1 harg1 arg2 harg2 arg3 harg3 arg4 harg4 arg5 harg5 arg6 harg6 hc0 hc2 x0 x1 x2 x3)]
  unfold kernelRun3_A
  dsimp only
  try sl_unfold_words
  rw [View.canon_cons_unit_zero hz2, View.readCov_unit_zero (S := S1x64) _ hz2]
  simp only [View.readAt_eq_ld, harg1.read_unread, harg2.read_unread, View.ld_unit_zero (S := S10000x64) hz2, View.ld_unit_zero (S := S1x64) hz2]

/-- A middle point: the block's biased column sums added to what the accumulator held. -/
theorem soutB_eq (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S64x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x64 .f32) (harg6 : arg6.IsWhole) (hc0 : ¬cond3_0 i) (hc2 : ¬cond3_2 i) (x0 : Vec F S10000x64 .f32) (x1 : Vec F S1x64 .f32) (x2 : Vec F S64x10 .f32) (x3 : Vec F S1x10 .f32) (xs : Vec F S1x64 .f32) :
    sout3_B c i arg1 harg1 arg2 harg2 arg3 harg3 arg4 harg4 arg5 harg5 arg6 harg6 hc0 hc2 x0 x1 x2 x3 xs = k3_pay2 x0 x1 xs := by
  unfold sout3_B
  rw [View.read_writes_eq_canon _ _ _ (scover3_B c i arg1 harg1 arg2 harg2 arg3 harg3 arg4 harg4 arg5 harg5 arg6 harg6 hc0 hc2 x0 x1 x2 x3 xs)]
  unfold kernelRun3_B
  dsimp only
  try sl_unfold_words
  rw [View.canon_unit_zero hz2]
  simp only [View.readAt_eq_ld, harg1.read_unread, harg2.read_unread, harg6.read_unread, View.ld_unit_zero (S := S10000x64) hz2, View.ld_unit_zero (S := S1x64) hz2]

/-- The last point leaves the same in the accumulator, -/
theorem soutC_eq (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S64x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x64 .f32) (harg6 : arg6.IsWhole) (hc0 : ¬cond3_0 i) (hc2 : cond3_2 i) (x0 : Vec F S10000x64 .f32) (x1 : Vec F S1x64 .f32) (x2 : Vec F S64x10 .f32) (x3 : Vec F S1x10 .f32) (xs : Vec F S1x64 .f32) :
    sout3_C c i arg1 harg1 arg2 harg2 arg3 harg3 arg4 harg4 arg5 harg5 arg6 harg6 hc0 hc2 x0 x1 x2 x3 xs = k3_pay2 x0 x1 xs := by
  unfold sout3_C
  rw [View.read_writes_eq_canon _ _ _ (scover3_C c i arg1 harg1 arg2 harg2 arg3 harg3 arg4 harg4 arg5 harg5 arg6 harg6 hc0 hc2 x0 x1 x2 x3 xs)]
  unfold kernelRun3_C
  dsimp only
  try sl_unfold_words
  rw [View.canon_unit_zero hz2]
  simp only [View.readAt_eq_ld, harg1.read_unread, harg2.read_unread, harg6.read_unread, View.ld_unit_zero (S := S10000x64) hz2, View.ld_unit_zero (S := S1x64) hz2]

/-- and stores the head of that into the output buffer. -/
theorem outC_eq (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S64x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x64 .f32) (harg6 : arg6.IsWhole) (hc0 : ¬cond3_0 i) (hc2 : cond3_2 i) (x0 : Vec F S10000x64 .f32) (x1 : Vec F S1x64 .f32) (x2 : Vec F S64x10 .f32) (x3 : Vec F S1x10 .f32) (xs : Vec F S1x64 .f32) :
    out3_C c i arg1 harg1 arg2 harg2 arg3 harg3 arg4 harg4 arg5 harg5 arg6 harg6 hc0 hc2 x0 x1 x2 x3 xs = k3_pay3 (k3_pay2 x0 x1 xs) x2 x3 := by
  unfold out3_C
  rw [View.read_writes_eq_canon _ _ _ (cover3_C c i arg1 harg1 arg2 harg2 arg3 harg3 arg4 harg4 arg5 harg5 arg6 harg6 hc0 hc2 x0 x1 x2 x3 xs)]
  unfold kernelRun3_C
  dsimp only
  try sl_unfold_words
  rw [View.canon_unit_zero hz2, View.readCov_unit_zero (S := S1x64) _ hz2]
  simp only [View.readAt_eq_ld, harg1.read_unread, harg2.read_unread, harg3.read_unread, harg4.read_unread, harg6.read_unread,
    View.ld_unit_zero (S := S10000x64) hz2, View.ld_unit_zero (S := S1x64) hz2, View.ld_unit_zero (S := S64x10) hz2, View.ld_unit_zero (S := S1x10) hz2]

end Cert.KernelIdeal.Pool

end
-- ==== Proof.PoolValue.lean ====
/- The value of the pooling-and-linear region at the ideal values.
   The payloads read at an index: the zero splat is zero; a point's accumulator update at column k is
   the old accumulator plus the sum over the block's 10000 rows of (block entry + bias entry); the head
   at column j is the sum over the 64 accumulator entries times column j of the weights, plus the last
   bias at j.  The accumulation is a recurrence over the grid points; a point's block is rows
   10000 t … 10000 t + 9999 of the pooled array, so after point n the accumulator's column k is the
   sum of the biased entries of the rows below 10000 (n + 1) — by induction on n, splitting the range —
   and after the last point the sum over all 100000 rows.  The one write-back, at the last point,
   covers the 1x10 result array, which therefore ends holding the head of that accumulator. -/
import proofs.«113868_j87711822119195_1_alg».proof.Proof.PoolPieces
import Idealize.ShloMosaic.Lib.ValueIdx
import Idealize.ShloMosaic.Lib.ValueLayout
import Idealize.ShloMosaic.PureOps.Ideal.Laws

set_option maxRecDepth 16384

noncomputable section

namespace Cert.KernelIdeal.Pool

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

/-- The accumulator's initial contents: zero at every entry. -/
theorem pay1_apply (y : S1x64.Idx) : k3_pay1 (F := Ideal) y = 0 := by
  unfold k3_pay1
  exact (congrFun (shapeCast_self _ _) y).trans Ideal.ofBits_zero_f32

/-- The index a row coordinate `r` inserted into column `k` names. -/
theorem lift_rows (k : Fin 64) (r : Fin 10000) :
    (reduces_S10000x64_S64.lift (ix1 k) r : S10000x64.Idx) = ix2 r k :=
  funext fun d => Fin.ext (by match d with | ⟨0, _⟩ => rfl | ⟨1, _⟩ => rfl)

/-- One point's update of the accumulator at column `k`. -/
theorem pay2_apply (x0 : FVec Ideal S10000x64 .f32) (x1 : FVec Ideal S1x64 .f32) (xs : FVec Ideal S1x64 .f32) (k : Fin 64) :
    k3_pay2 (F := Ideal) x0 x1 xs (ix2 (0 : Fin 1) k)
      = xs (ix2 (0 : Fin 1) k) + ∑ r : Fin 10000, (x0 (ix2 r k) + x1 (ix2 (0 : Fin 1) k)) := by
  unfold k3_pay2
  refine (congrFun (shapeCast_self _ _) _).trans ?_
  refine congrArg (xs (ix2 (0 : Fin 1) k) + ·) ?_
  refine (shapeCast_a_1a_apply _ shapeCasts_S64_S1x64 (0 : Fin 1) k).trans ?_
  refine (Ideal.multiReduction_add_single _ (0x00000000#32 : BitVec 32) reduces_S10000x64_S64 (.inl rfl) rfl (ix1 k)).trans ?_
  refine Finset.sum_congr rfl fun r _ => ?_
  refine (congrArg _ (lift_rows k r)).trans ?_
  show shapeCast S10000x64 x0 shapeCasts_S10000x64_S10000x64 (ix2 r k)
      + broadcastTo S10000x64 (shapeCast S1x64 x1 shapeCasts_S1x64_S1x64) broadcasts_S1x64_S10000x64 (ix2 r k) = _
  refine congrArg₂ (· + ·) (congrFun (shapeCast_self _ _) _) ?_
  refine (broadcastTo_1b_ab_apply _ broadcasts_S1x64_S10000x64 r k).trans ?_
  exact congrFun (shapeCast_self _ _) _

/-- The head product's operand coordinates at a result index and a contraction index. -/
theorem head_lhs0 (i : S1x10.Idx) (q : dot_S1x64_S64x10_S1x10_1_0_0_1_n_n.contr.Idx) : (dot_S1x64_S64x10_S1x10_1_0_0_1_n_n.lhsIdx i q 0).val = (i 0).val := by
  unfold DotDims.lhsIdx
  rw [dif_neg (show ¬(0 : Fin S1x64.rank) ∈ dot_S1x64_S64x10_S1x10_1_0_0_1_n_n.lhsBatch by decide), dif_pos (show (0 : Fin S1x64.rank) ∈ dot_S1x64_S64x10_S1x10_1_0_0_1_n_n.lhsNonContracting by decide)]
  rfl
theorem head_lhs1 (i : S1x10.Idx) (q : dot_S1x64_S64x10_S1x10_1_0_0_1_n_n.contr.Idx) : (dot_S1x64_S64x10_S1x10_1_0_0_1_n_n.lhsIdx i q 1).val = (q ⟨0, by decide⟩).val :=
  dot_S1x64_S64x10_S1x10_1_0_0_1_n_n.lhsIdx_val_of_single rfl i q
theorem head_rhs0 (i : S1x10.Idx) (q : dot_S1x64_S64x10_S1x10_1_0_0_1_n_n.contr.Idx) : (dot_S1x64_S64x10_S1x10_1_0_0_1_n_n.rhsIdx i q 0).val = (q ⟨0, by decide⟩).val :=
  dot_S1x64_S64x10_S1x10_1_0_0_1_n_n.rhsIdx_val_of_single rfl i q
theorem head_rhs1 (i : S1x10.Idx) (q : dot_S1x64_S64x10_S1x10_1_0_0_1_n_n.contr.Idx) : (dot_S1x64_S64x10_S1x10_1_0_0_1_n_n.rhsIdx i q 1).val = (i 1).val := by
  unfold DotDims.rhsIdx
  rw [dif_neg (show ¬(1 : Fin S64x10.rank) ∈ dot_S1x64_S64x10_S1x10_1_0_0_1_n_n.rhsBatch by decide), dif_pos (show (1 : Fin S64x10.rank) ∈ dot_S1x64_S64x10_S1x10_1_0_0_1_n_n.rhsNonContracting by decide)]
  rfl

/-- The head at column `j`: the accumulator row times column `j` of the weights, plus the bias at `j`
    (the change of format before the product is the identity at the ideal values). -/
theorem pay3_apply (v19 : FVec Ideal S1x64 .f32) (v21 : FVec Ideal S64x10 .f32) (v24 : FVec Ideal S1x10 .f32) (j : Fin 10) :
    k3_pay3 (F := Ideal) v19 v21 v24 (ix2 (0 : Fin 1) j)
      = (∑ k : Fin 64, v19 (ix2 (0 : Fin 1) k) * v21 (ix2 k j)) + v24 (ix2 (0 : Fin 1) j) := by
  unfold k3_pay3
  refine (addf_apply _ _ _).trans ?_
  refine congrArg₂ (· + ·) ?_ (congrFun (shapeCast_self _ _) _)
  refine (Ideal.matmul_constant_zero_apply dot_S1x64_S64x10_S1x10_1_0_0_1_n_n none _ _ (ix2 (0 : Fin 1) j)).trans ?_
  rw [← Equiv.sum_comp (contrEquiv1 dot_S1x64_S64x10_S1x10_1_0_0_1_n_n 64 rfl rfl).symm]
  refine Finset.sum_congr rfl fun k _ => ?_
  have hk := contrEquiv1_symm_val dot_S1x64_S64x10_S1x10_1_0_0_1_n_n 64 rfl rfl k
  have el : dot_S1x64_S64x10_S1x10_1_0_0_1_n_n.lhsIdx (ix2 (0 : Fin 1) j) ((contrEquiv1 dot_S1x64_S64x10_S1x10_1_0_0_1_n_n 64 rfl rfl).symm k) = ix2 (0 : Fin 1) k := funext fun a => Fin.ext (by
    match a with
    | ⟨0, _⟩ => exact head_lhs0 _ _
    | ⟨1, _⟩ => exact (head_lhs1 _ _).trans hk)
  have er : dot_S1x64_S64x10_S1x10_1_0_0_1_n_n.rhsIdx (ix2 (0 : Fin 1) j) ((contrEquiv1 dot_S1x64_S64x10_S1x10_1_0_0_1_n_n 64 rfl rfl).symm k) = ix2 k j := funext fun a => Fin.ext (by
    match a with
    | ⟨0, _⟩ => exact (head_rhs0 _ _).trans hk
    | ⟨1, _⟩ => exact head_rhs1 _ _)
  rw [el, er]
  rfl

section Value

variable (V : (c : Dev nD) → (b : Ref sig .tc) → Buf (Elt F) ((c : Thread nD τ).loc b))

/-! ## The accumulation as a recurrence over the payloads (any float type) -/

theorem lt3 {n : ℕ} (hn : n + 1 < cfg3.N) : n < cfg3.N := Nat.lt_of_succ_lt hn

/-- After the first point the accumulator is the first block's update of zeros. -/
theorem acc_zero (c : Dev nD) (hn : 0 < cfg3.N) :
    (outsAt3 V c 0 hn).2 = k3_pay2 (iblk3 V c 0 ⟨0, hn⟩) (iblk3 V c 1 ⟨0, hn⟩) k3_pay1 := by
  rw [show outsAt3 V c 0 hn = outsAt3 V c (⟨0, hn⟩ : Fin cfg3.N).val (⟨0, hn⟩ : Fin cfg3.N).isLt from rfl,
    outsAt3_A V c ⟨0, hn⟩ rfl (by decide : (0 : ℕ) ≠ 9)]
  dsimp only
  exact soutA_eq c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3 (Memref.isWhole_whole _) (isc0 ⟨0, hn⟩ rfl) (notc2 ⟨0, hn⟩ (by decide : (0 : ℕ) ≠ 9)) (iblk3 V c 0 ⟨0, hn⟩) (iblk3 V c 1 ⟨0, hn⟩) (iblk3 V c 2 ⟨0, hn⟩) (iblk3 V c 3 ⟨0, hn⟩)

/-- After every later point it is that point's update of what the point before left. -/
theorem acc_succ (c : Dev nD) (n : ℕ) (hn : n + 1 < cfg3.N) :
    (outsAt3 V c (n + 1) hn).2 = k3_pay2 (iblk3 V c 0 ⟨n + 1, hn⟩) (iblk3 V c 1 ⟨n + 1, hn⟩) (outsAt3 V c n (lt3 hn)).2 := by
  rw [show outsAt3 V c (n + 1) hn = outsAt3 V c (⟨n + 1, hn⟩ : Fin cfg3.N).val (⟨n + 1, hn⟩ : Fin cfg3.N).isLt from rfl]
  by_cases h2 : n + 1 = 9
  · rw [outsAt3_C V c ⟨n + 1, hn⟩ (Nat.succ_ne_zero n) h2]
    dsimp only
    exact soutC_eq c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3 (Memref.isWhole_whole _) (notc0 ⟨n + 1, hn⟩ (Nat.succ_ne_zero n)) (isc2 ⟨n + 1, hn⟩ h2) (iblk3 V c 0 ⟨n + 1, hn⟩) (iblk3 V c 1 ⟨n + 1, hn⟩) (iblk3 V c 2 ⟨n + 1, hn⟩) (iblk3 V c 3 ⟨n + 1, hn⟩) (outsAt3 V c n (lt3 hn)).2
  · rw [outsAt3_B V c ⟨n + 1, hn⟩ (Nat.succ_ne_zero n) h2]
    dsimp only
    exact soutB_eq c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3 (Memref.isWhole_whole _) (notc0 ⟨n + 1, hn⟩ (Nat.succ_ne_zero n)) (notc2 ⟨n + 1, hn⟩ h2) (iblk3 V c 0 ⟨n + 1, hn⟩) (iblk3 V c 1 ⟨n + 1, hn⟩) (iblk3 V c 2 ⟨n + 1, hn⟩) (iblk3 V c 3 ⟨n + 1, hn⟩) (outsAt3 V c n (lt3 hn)).2

/-- After the last point the output buffer holds the head of the accumulator. -/
theorem out_last (c : Dev nD) :
    (outsAt3 V c t3_9.val t3_9.isLt).1 = k3_pay3 (outsAt3 V c t3_9.val t3_9.isLt).2 (iblk3 V c 2 t3_9) (iblk3 V c 3 t3_9) := by
  rw [outsAt3_C V c t3_9 (by decide) rfl]
  dsimp only
  rw [outC_eq, soutC_eq]

end Value

section Reads

variable (V : (c : Dev nD) → (b : Ref sig .tc) → Buf (Elt F) ((c : Thread nD τ).loc b))

/-! ## The windows' blocks as entries of the arrays -/

theorem idx3_0 : ∀ t : Fin cfg3.N, win3_0.index t 0 = t.val ∧ win3_0.index t 1 = 0 :=
  (by decide +kernel : ∀ t : Fin grid3.N, win3_0.index t 0 = t.val ∧ win3_0.index t 1 = 0)
theorem idx3_1 : ∀ t : Fin cfg3.N, win3_1.index t 0 = 0 ∧ win3_1.index t 1 = 0 :=
  (by decide +kernel : ∀ t : Fin grid3.N, win3_1.index t 0 = 0 ∧ win3_1.index t 1 = 0)
theorem idx3_2 : ∀ t : Fin cfg3.N, win3_2.index t 0 = 0 ∧ win3_2.index t 1 = 0 :=
  (by decide +kernel : ∀ t : Fin grid3.N, win3_2.index t 0 = 0 ∧ win3_2.index t 1 = 0)
theorem idx3_3 : ∀ t : Fin cfg3.N, win3_3.index t 0 = 0 ∧ win3_3.index t 1 = 0 :=
  (by decide +kernel : ∀ t : Fin grid3.N, win3_3.index t 0 = 0 ∧ win3_3.index t 1 = 0)
theorem idx3_4 : ∀ t : Fin cfg3.N, win3_4.index t 0 = 0 ∧ win3_4.index t 1 = 0 :=
  (by decide +kernel : ∀ t : Fin grid3.N, win3_4.index t 0 = 0 ∧ win3_4.index t 1 = 0)

/-- The first window's block at point `t` is rows `10000 t … 10000 t + 9999` of its array. -/
theorem iblk0_apply (c : Dev nD) (t : Fin cfg3.N) (x : S10000x64.Idx) (k : S100000x64.Idx)
    (hk0 : (k 0).val = 10000 * t.val + (x 0).val) (hk1 : (k 1).val = (x 1).val) :
    (iblk3 V c 0 t : Vec F S10000x64 .f32) x = (V c main_v74 : S100000x64.Idx → Elt F .f32) k := by
  unfold iblk3
  rw [View.read_apply]
  show V c main_v74 _ = V c main_v74 _
  congr 1
  funext a
  apply Fin.ext
  match a with
  | ⟨0, _⟩ => show win3_0.index t 0 * 10000 + 1 * (x 0).val = (k 0).val; rw [(idx3_0 t).1, hk0]; omega
  | ⟨1, _⟩ => show win3_0.index t 1 * 64 + 1 * (x 1).val = (k 1).val; rw [(idx3_0 t).2, hk1]; omega

/-- Window 1's block is its whole array at every point. -/
theorem iblk1_apply (c : Dev nD) (t : Fin cfg3.N) (x : S1x64.Idx) :
    (iblk3 V c 1 t : Vec F S1x64 .f32) x = (V c main_v75 : S1x64.Idx → Elt F .f32) x := by
  unfold iblk3
  rw [View.read_apply]
  show V c main_v75 _ = V c main_v75 _
  congr 1
  funext a
  apply Fin.ext
  match a with
  | ⟨0, _⟩ => show win3_1.index t 0 * 1 + 1 * (x 0).val = (x 0).val; rw [(idx3_1 t).1]; omega
  | ⟨1, _⟩ => show win3_1.index t 1 * 64 + 1 * (x 1).val = (x 1).val; rw [(idx3_1 t).2]; omega
/-- Window 2's block is its whole array at every point. -/
theorem iblk2_apply (c : Dev nD) (t : Fin cfg3.N) (x : S64x10.Idx) :
    (iblk3 V c 2 t : Vec F S64x10 .f32) x = (V c main_arg8 : S64x10.Idx → Elt F .f32) x := by
  unfold iblk3
  rw [View.read_apply]
  show V c main_arg8 _ = V c main_arg8 _
  congr 1
  funext a
  apply Fin.ext
  match a with
  | ⟨0, _⟩ => show win3_2.index t 0 * 64 + 1 * (x 0).val = (x 0).val; rw [(idx3_2 t).1]; omega
  | ⟨1, _⟩ => show win3_2.index t 1 * 10 + 1 * (x 1).val = (x 1).val; rw [(idx3_2 t).2]; omega
/-- Window 3's block is its whole array at every point. -/
theorem iblk3_apply (c : Dev nD) (t : Fin cfg3.N) (x : S1x10.Idx) :
    (iblk3 V c 3 t : Vec F S1x10 .f32) x = (V c main_v76 : S1x10.Idx → Elt F .f32) x := by
  unfold iblk3
  rw [View.read_apply]
  show V c main_v76 _ = V c main_v76 _
  congr 1
  funext a
  apply Fin.ext
  match a with
  | ⟨0, _⟩ => show win3_3.index t 0 * 1 + 1 * (x 0).val = (x 0).val; rw [(idx3_3 t).1]; omega
  | ⟨1, _⟩ => show win3_3.index t 1 * 10 + 1 * (x 1).val = (x 1).val; rw [(idx3_3 t).2]; omega

end Reads

section AtIdeal

variable (V : (c : Dev nD) → (b : Ref sig .tc) → Buf (Elt Ideal) ((c : Thread nD τ).loc b))

/-! ## The accumulator in closed form -/

/-- The region's arrays and a point's blocks, at the types their entries are added and multiplied at. -/
abbrev A74 (c : Dev nD) : FVec Ideal S100000x64 .f32 := V c main_v74
abbrev B75 (c : Dev nD) : FVec Ideal S1x64 .f32 := V c main_v75
abbrev W8 (c : Dev nD) : FVec Ideal S64x10 .f32 := V c main_arg8
abbrev B76 (c : Dev nD) : FVec Ideal S1x10 .f32 := V c main_v76
abbrev x0At (c : Dev nD) (t : Fin cfg3.N) : FVec Ideal S10000x64 .f32 := iblk3 V c 0 t
abbrev x1At (c : Dev nD) (t : Fin cfg3.N) : FVec Ideal S1x64 .f32 := iblk3 V c 1 t
abbrev x2At (c : Dev nD) (t : Fin cfg3.N) : FVec Ideal S64x10 .f32 := iblk3 V c 2 t
abbrev x3At (c : Dev nD) (t : Fin cfg3.N) : FVec Ideal S1x10 .f32 := iblk3 V c 3 t
abbrev accAt (c : Dev nD) (n : ℕ) (hn : n < cfg3.N) : FVec Ideal S1x64 .f32 := (outsAt3 V c n hn).2

/-- Entry `(i, k)` of the pooled array with the bias at `k` added; zero beyond the last row. -/
def colv (c : Dev nD) (k : Fin 64) (i : ℕ) : EReal :=
  if h : i < 100000 then
    A74 V c (ix2 (⟨i, h⟩ : Fin 100000) k) + B75 V c (ix2 (0 : Fin 1) k)
  else 0

/-- A point's block contributes the biased entries of its 10000 rows. -/
theorem blocksum (c : Dev nD) (k : Fin 64) (t : Fin cfg3.N) :
    ∑ r : Fin 10000, (x0At V c t (ix2 r k) + x1At V c t (ix2 (0 : Fin 1) k))
      = ∑ r ∈ Finset.range 10000, colv V c k (10000 * t.val + r) := by
  rw [← Fin.sum_univ_eq_sum_range (fun r => colv V c k (10000 * t.val + r)) 10000]
  refine Finset.sum_congr rfl fun r _ => ?_
  have hN : t.val < 10 := lt_of_lt_of_eq t.isLt N3'
  have hlt : 10000 * t.val + r.val < 100000 := by have := r.isLt; omega
  unfold colv; rw [dif_pos hlt]
  refine congrArg₂ (· + ·) ?_ ?_
  · exact iblk0_apply V c t (ix2 r k) (ix2 (⟨10000 * t.val + r.val, hlt⟩ : Fin 100000) k) rfl rfl
  · exact iblk1_apply V c t (ix2 (0 : Fin 1) k)

/-- After point `n` the accumulator's column `k` is the sum of the biased entries of rows below `10000 (n + 1)`. -/
theorem acc_closed (c : Dev nD) (k : Fin 64) : ∀ (n : ℕ) (hn : n < cfg3.N),
    accAt V c n hn (ix2 (0 : Fin 1) k) = ∑ i ∈ Finset.range (10000 * (n + 1)), colv V c k i
  | 0, hn => by
    show (outsAt3 V c 0 hn).2 (ix2 (0 : Fin 1) k) = _
    rw [acc_zero V c hn]
    refine (pay2_apply (x0At V c ⟨0, hn⟩) (x1At V c ⟨0, hn⟩) k3_pay1 k).trans ?_
    rw [pay1_apply, zero_add]
    refine (blocksum V c k ⟨0, hn⟩).trans ?_
    simp only [Nat.mul_zero, Nat.zero_add, Nat.mul_one]
  | n + 1, hn => by
    show (outsAt3 V c (n + 1) hn).2 (ix2 (0 : Fin 1) k) = _
    rw [acc_succ V c n hn]
    refine (pay2_apply (x0At V c ⟨n + 1, hn⟩) (x1At V c ⟨n + 1, hn⟩) (accAt V c n (lt3 hn)) k).trans ?_
    rw [acc_closed c k n (lt3 hn), blocksum V c k ⟨n + 1, hn⟩,
      show 10000 * (n + 1 + 1) = 10000 * (n + 1) + 10000 by ring, Finset.sum_range_add]

/-- After the last point it is the sum over all 100000 rows. -/
theorem acc_last (c : Dev nD) (k : Fin 64) :
    accAt V c t3_9.val t3_9.isLt (ix2 (0 : Fin 1) k)
      = ∑ r : Fin 100000, (A74 V c (ix2 r k) + B75 V c (ix2 (0 : Fin 1) k)) := by
  rw [acc_closed V c k t3_9.val t3_9.isLt]
  rw [show 10000 * (t3_9.val + 1) = 100000 from rfl, ← Fin.sum_univ_eq_sum_range (fun i => colv V c k i) 100000]
  exact Finset.sum_congr rfl fun r _ => by unfold colv; rw [dif_pos r.isLt]

end AtIdeal

section ArrayEnd

variable (V : (c : Dev nD) → (b : Ref sig .tc) → Buf (Elt F) ((c : Thread nD τ).loc b))

/-! ## The result array after the region -/

/-- What the output buffer holds after the last point, as contents of the result array (its one block). -/
abbrev G3 (c : Dev nD) : Buf (Elt F) ((c : Thread nD τ).loc main_v77) := (outsAt3 V c t3_9.val t3_9.isLt).1

/-- The one write-back, at the last point, writes that: block (0, 0) of the 1x10 array is the array. -/
theorem flushed4_eq (c : Dev nD) (t : Fin cfg3.N) (hf : (cfg3.win 4).flush t = true) :
    (dat3 V c).flushed 4 t = ((cfg3.win 4).blk t).view.read (Elt F) (G3 V c) := by
  have h1 : t.val = 9 := by have := (flush3_4 t).mp hf; have := lt_of_lt_of_eq t.isLt N3'; omega
  obtain rfl : t = t3_9 := Fin.ext h1
  show (cfg3.win 4).cut (grid3.coords t3_9) ((dat3 V c).after 4 t3_9) = _
  rw [after3_4]
  have hz' : (fun a => win3_4.index t3_9 a * main_v77.ty.shape.size a) = fun _ => 0 := funext fun a => by fin_cases a <;> decide
  exact (Memref.read_access_unit_zero (Elt F) main_v77 hz' (fun a => by rw [congrFun hz' a]; simp) (G3 V c)).symm

/-- So the result array ends holding it: the last point's block covers the array. -/
theorem final4 (c : Dev nD) : (dat3 V c).arrAt 4 cfg3.N = G3 V c :=
  (dat3 V c).arrAt_eq_of_cover 4 (G3 V c) (flushed4_eq V c) fun i =>
    ⟨t3_9, (flush3_4 t3_9).mpr rfl, by
      show i ∈ ((View.whole main_v77).slice (win3_4.rect t3_9)).set
      rw [View.set_slice_whole, Rect.mem_set_unit]
      intro a
      have h0 : (i 0 : Nat) < 1 := (i 0).isLt
      have h1 : (i 1 : Nat) < 10 := (i 1).isLt
      match a with
      | ⟨0, _⟩ => show win3_4.index t3_9 0 * win3_4.size 0 ≤ (i 0 : Nat) ∧ (i 0 : Nat) < win3_4.index t3_9 0 * win3_4.size 0 + win3_4.xsize (grid3.coords t3_9) 0
                  rw [show win3_4.index t3_9 0 * win3_4.size 0 = 0 from by decide +kernel, show win3_4.xsize (grid3.coords t3_9) 0 = 1 from by decide +kernel]; omega
      | ⟨1, _⟩ => show win3_4.index t3_9 1 * win3_4.size 1 ≤ (i 1 : Nat) ∧ (i 1 : Nat) < win3_4.index t3_9 1 * win3_4.size 1 + win3_4.xsize (grid3.coords t3_9) 1
                  rw [show win3_4.index t3_9 1 * win3_4.size 1 = 0 from by decide +kernel, show win3_4.xsize (grid3.coords t3_9) 1 = 10 from by decide +kernel]; omega⟩

end ArrayEnd

section Result

variable (V : (c : Dev nD) → (b : Ref sig .tc) → Buf (Elt Ideal) ((c : Thread nD τ).loc b))

/-- THE VALUE of the region: entry `(0, j)` of the result array is the sum over the 64 columns `k` of
    (the sum over all 100000 rows of the pooled array's entry plus the bias at `k`) times the weight
    `(k, j)`, plus the last bias at `j`. -/
theorem final3_sum (c : Dev nD) (j : Fin 10) :
    ((dat3 (F := Ideal) V c).arrAt 4 cfg3.N) (ix2 (0 : Fin 1) j)
      = (∑ k : Fin 64, (∑ r : Fin 100000, (A74 V c (ix2 r k) + B75 V c (ix2 (0 : Fin 1) k))) * W8 V c (ix2 k j))
        + B76 V c (ix2 (0 : Fin 1) j) := by
  rw [final4 V c]
  show (outsAt3 V c t3_9.val t3_9.isLt).1 (ix2 (0 : Fin 1) j) = _
  rw [out_last V c]
  refine (pay3_apply (accAt V c t3_9.val t3_9.isLt) (x2At V c t3_9) (x3At V c t3_9) j).trans ?_
  refine congrArg₂ (· + ·) (Finset.sum_congr rfl fun k _ => congrArg₂ (· * ·) (acc_last V c k) ?_) ?_
  · exact iblk2_apply V c t3_9 (ix2 k j)
  · exact iblk3_apply V c t3_9 (ix2 (0 : Fin 1) j)

end Result

end Cert.KernelIdeal.Pool

end
-- ==== Proof.PoolRef.lean ====
/- The pooling-and-linear region's result in the reference's own terms: the result array after the
   region is the reference's head of the reference's pooling of the reference's bias stage, applied to
   the arrays the region is entered with — the kernel adds the ten blocks' column sums in grid order
   onto zeros, the reference sums all 100000 rows onto the zero word; on the extended reals the two
   are the same sum, regrouped. -/
import proofs.«113868_j87711822119195_1_alg».proof.Proof.PoolValue
import proofs.«113868_j87711822119195_1_alg».proof.Proof.RefDefs

set_option maxRecDepth 16384

noncomputable section

namespace Cert.KernelIdeal.Pool

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

/-- The kernel's closed form is the reference's head of its pooling of its bias stage, entry by entry: the
    zero word the reference's sum starts from is zero, and the bias rows agree. -/
theorem head_eq (a : FVec Ideal S100000x64 .f32) (b : FVec Ideal S1x64 .f32) (w : FVec Ideal S64x10 .f32) (b' : FVec Ideal S1x10 .f32)
    (b2 : FVec Ideal Cert.ReferenceIdeal.S64 .f32) (bl : FVec Ideal Cert.ReferenceIdeal.S10 .f32)
    (hb : ∀ k : Fin 64, b (ix2 (0 : Fin 1) k) = b2 (ix1 k)) (hl : ∀ j : Fin 10, b' (ix2 (0 : Fin 1) j) = bl (ix1 j)) (j : Fin 10) :
    (∑ k : Fin 64, (∑ r : Fin 100000, (a (ix2 r k) + b (ix2 (0 : Fin 1) k))) * w (ix2 k j)) + b' (ix2 (0 : Fin 1) j)
      = Cert.RefSide.refHead (Cert.RefSide.refPool (Cert.RefSide.refBias a b2)) w bl (ix2 (0 : Fin 1) j) := by
  refine Eq.trans ?_ (Cert.RefSide.refHead_apply (Cert.RefSide.refPool (Cert.RefSide.refBias a b2)) w bl j).symm
  refine congrArg₂ (· + ·) (Finset.sum_congr rfl fun k _ => congrArg (· * w (ix2 k j)) ?_) (hl j)
  refine Eq.trans ?_ (Cert.RefSide.refPool_apply (Cert.RefSide.refBias a b2) k).symm
  rw [Ideal.ofBits_zero_f32, zero_add]
  refine Finset.sum_congr rfl fun r _ => ?_
  refine Eq.trans ?_ (Cert.RefSide.refBias_apply a b2 r k).symm
  exact congrArg (a (ix2 r k) + ·) (hb k)

variable (V : (c : Dev nD) → (b : Ref sig .tc) → Buf (Elt Ideal) ((c : Thread nD τ).loc b))

/-- The result array after the region, given the two bias rows as the reference holds them (rank one). -/
theorem final3 (c : Dev nD) (b2 : FVec Ideal Cert.ReferenceIdeal.S64 .f32) (bl : FVec Ideal Cert.ReferenceIdeal.S10 .f32)
    (hb : ∀ k : Fin 64, V c main_v75 (ix2 (0 : Fin 1) k) = b2 (ix1 k))
    (hl : ∀ j : Fin 10, V c main_v76 (ix2 (0 : Fin 1) j) = bl (ix1 j)) :
    (dat3 (F := Ideal) V c).arrAt 4 cfg3.N
      = Cert.RefSide.refHead (Cert.RefSide.refPool (Cert.RefSide.refBias (V c main_v74) b2)) (V c main_arg8) bl := by
  funext i
  obtain ⟨u, j, rfl⟩ : ∃ (u : Fin 1) (j : Fin 10), i = ix2 u j := ⟨i 0, i 1, eq_ix2 i⟩
  obtain rfl : u = 0 := Subsingleton.elim _ _
  exact (final3_sum V c j).trans (head_eq (A74 V c) (B75 V c) (W8 V c) (B76 V c) b2 bl hb hl j)

end Cert.KernelIdeal.Pool

end
-- ==== Proof.RefResult.lean ====
/-
  The reference's result is the composition of its stages: the run's result term, unfolded, is literally the head of the
  pooled, biased third aggregation of the product of the rectified, biased second aggregation of the product of the
  rectified, biased first aggregation of the input's product — every stage the definition of that name, the three
  aggregations one and the same function of the edge array.
-/
import proofs.«113868_j87711822119195_1_alg».proof.Proof.RefRun
import proofs.«113868_j87711822119195_1_alg».proof.Proof.RefDefs

noncomputable section

namespace Cert.RefSide

open Cert.ReferenceIdeal Cert.ReferenceIdeal.Gen Idealize.ShloMosaic Idealize.ShloMosaic.TcCoe Idealize.SL.Sem
  Idealize.ShloMosaic.StableHlo

/-- The stages composed, as one function of the ten argument arrays. -/
def refResult (x : FVec Ideal S100000x64 .f32) (e : EdgeArr) (w0 : FVec Ideal S64x64 .f32) (b0 : FVec Ideal S64 .f32)
    (w1 : FVec Ideal S64x64 .f32) (b1 : FVec Ideal S64 .f32) (w2 : FVec Ideal S64x64 .f32) (b2 : FVec Ideal S64 .f32)
    (wl : FVec Ideal S64x10 .f32) (bl : FVec Ideal S10 .f32) : FVec Ideal S1x10 .f32 :=
  refHead (refPool (refBias (refAgg e (refL0 (refBiasRelu (refAgg e (refL0 (refBiasRelu (refAgg e (refL0 x w0)) b0) w1)) b1) w2)) b2)) wl bl

set_option maxRecDepth 8192 in
/-- The reference run's result term is the stages composed, at the argument arrays. -/
theorem ref_result (m : (ℓ : Loc nD τ sig) → Buf (Elt Ideal) ℓ) (c : Dev nD) :
    Cert.ReferenceIdeal.ValueP.res_main_v88 (F := Ideal) m c =
      refHead (refPool (refBias (refAgg (m ((c.tc : Thread nD τ).loc main_arg1))
        (refL0 (refBiasRelu (refAgg (m ((c.tc : Thread nD τ).loc main_arg1))
          (refL0 (refBiasRelu (refAgg (m ((c.tc : Thread nD τ).loc main_arg1))
            (refL0 (m ((c.tc : Thread nD τ).loc main_arg0)) (m ((c.tc : Thread nD τ).loc main_arg2))))
            (m ((c.tc : Thread nD τ).loc main_arg3))) (m ((c.tc : Thread nD τ).loc main_arg4))))
          (m ((c.tc : Thread nD τ).loc main_arg5))) (m ((c.tc : Thread nD τ).loc main_arg6))))
        (m ((c.tc : Thread nD τ).loc main_arg7))))
        (m ((c.tc : Thread nD τ).loc main_arg8)) (m ((c.tc : Thread nD τ).loc main_arg9)) := by
  unfold Cert.ReferenceIdeal.ValueP.res_main_v88
  rfl

/-- The same, with the composition named. -/
theorem ref_result' (m : (ℓ : Loc nD τ sig) → Buf (Elt Ideal) ℓ) (c : Dev nD) :
    Cert.ReferenceIdeal.ValueP.res_main_v88 (F := Ideal) m c =
      refResult (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) (m ((c.tc : Thread nD τ).loc main_arg9)) :=
  ref_result m c

end Cert.RefSide

end
-- ==== Proof.KValue.lean ====
/-
  The value of the program at the ideal instance. Boundary by boundary: the first region's output array is the product
  of the features with the first weights; each aggregation stretch applies the reference's own aggregation to the
  previous product; each later matmul region's output is the product of the rectified, biased aggregate with its
  weights; the last region's output is the head applied to the pooled, biased aggregate. Composed, the result buffer
  holds exactly the reference's stage functions of the arguments.
-/
import proofs.«113868_j87711822119195_1_alg».proof.Proof.Chain
import proofs.«113868_j87711822119195_1_alg».proof.Proof.FrameK
import proofs.«113868_j87711822119195_1_alg».proof.Proof.KHost
import proofs.«113868_j87711822119195_1_alg».proof.Proof.MatAValue
import proofs.«113868_j87711822119195_1_alg».proof.Proof.MatBValue
import proofs.«113868_j87711822119195_1_alg».proof.Proof.MatCValue
import proofs.«113868_j87711822119195_1_alg».proof.Proof.PoolRef
import proofs.«113868_j87711822119195_1_alg».proof.Proof.RefResult
import Idealize.ShloMosaic.Lib.ValueLayout
import Idealize.ShloMosaic.Lib.ValueIdx

set_option maxRecDepth 16384

noncomputable section

namespace Cert.KernelIdeal.Chain

open Cert.KernelIdeal Cert.KernelIdeal.Gen Cert.RefSide
open Cert.KernelIdeal.MatA Cert.KernelIdeal.MatB Cert.KernelIdeal.MatC Cert.KernelIdeal.Pool
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg) (c : Dev nD)

/-! ## The graph data at every later boundary: no later stretch or region writes it -/

theorem src3 : B3 m ρ c (Proc.devRef .tc main_v3) = refSrc (m ((c : Thread nD τ).loc main_arg1)) := KHost.src_eq (B0 m ρ c)
theorem src4 : B4 m ρ c (Proc.devRef .tc main_v3) = refSrc (m ((c : Thread nD τ).loc main_arg1)) := (B4_of_ne m ρ c main_v3 (by decide)).trans (src3 m ρ c)
theorem src5 : B5 m ρ c (Proc.devRef .tc main_v3) = refSrc (m ((c : Thread nD τ).loc main_arg1)) :=
  (StableHlo.after_of_writes_sub hostOps1 _ hostOps1_writes (by decide : main_v3 ∉ hostOps1_W)).trans (src4 m ρ c)
theorem src6 : B6 m ρ c (Proc.devRef .tc main_v3) = refSrc (m ((c : Thread nD τ).loc main_arg1)) := (B6_of_ne m ρ c main_v3 (by decide)).trans (src5 m ρ c)
theorem src7 : B7 m ρ c (Proc.devRef .tc main_v3) = refSrc (m ((c : Thread nD τ).loc main_arg1)) :=
  (StableHlo.after_of_writes_sub hostOps2 _ hostOps2_writes (by decide : main_v3 ∉ hostOps2_W)).trans (src6 m ρ c)
theorem src8 : B8 m ρ c (Proc.devRef .tc main_v3) = refSrc (m ((c : Thread nD τ).loc main_arg1)) := (B8_of_ne m ρ c main_v3 (by decide)).trans (src7 m ρ c)

theorem dst3 : B3 m ρ c (Proc.devRef .tc main_v7) = refDst (m ((c : Thread nD τ).loc main_arg1)) := KHost.dst_eq (B0 m ρ c)
theorem dst4 : B4 m ρ c (Proc.devRef .tc main_v7) = refDst (m ((c : Thread nD τ).loc main_arg1)) := (B4_of_ne m ρ c main_v7 (by decide)).trans (dst3 m ρ c)
theorem dst5 : B5 m ρ c (Proc.devRef .tc main_v7) = refDst (m ((c : Thread nD τ).loc main_arg1)) :=
  (StableHlo.after_of_writes_sub hostOps1 _ hostOps1_writes (by decide : main_v7 ∉ hostOps1_W)).trans (dst4 m ρ c)
theorem dst6 : B6 m ρ c (Proc.devRef .tc main_v7) = refDst (m ((c : Thread nD τ).loc main_arg1)) := (B6_of_ne m ρ c main_v7 (by decide)).trans (dst5 m ρ c)
theorem dst7 : B7 m ρ c (Proc.devRef .tc main_v7) = refDst (m ((c : Thread nD τ).loc main_arg1)) :=
  (StableHlo.after_of_writes_sub hostOps2 _ hostOps2_writes (by decide : main_v7 ∉ hostOps2_W)).trans (dst6 m ρ c)
theorem dst8 : B8 m ρ c (Proc.devRef .tc main_v7) = refDst (m ((c : Thread nD τ).loc main_arg1)) := (B8_of_ne m ρ c main_v7 (by decide)).trans (dst7 m ρ c)

theorem nrm3 : B3 m ρ c (Proc.devRef .tc main_v30) = refNorm (m ((c : Thread nD τ).loc main_arg1)) := KHost.norm_eq (B0 m ρ c)
theorem nrm4 : B4 m ρ c (Proc.devRef .tc main_v30) = refNorm (m ((c : Thread nD τ).loc main_arg1)) := (B4_of_ne m ρ c main_v30 (by decide)).trans (nrm3 m ρ c)
theorem nrm5 : B5 m ρ c (Proc.devRef .tc main_v30) = refNorm (m ((c : Thread nD τ).loc main_arg1)) :=
  (StableHlo.after_of_writes_sub hostOps1 _ hostOps1_writes (by decide : main_v30 ∉ hostOps1_W)).trans (nrm4 m ρ c)
theorem nrm6 : B6 m ρ c (Proc.devRef .tc main_v30) = refNorm (m ((c : Thread nD τ).loc main_arg1)) := (B6_of_ne m ρ c main_v30 (by decide)).trans (nrm5 m ρ c)
theorem nrm7 : B7 m ρ c (Proc.devRef .tc main_v30) = refNorm (m ((c : Thread nD τ).loc main_arg1)) :=
  (StableHlo.after_of_writes_sub hostOps2 _ hostOps2_writes (by decide : main_v30 ∉ hostOps2_W)).trans (nrm6 m ρ c)
theorem nrm8 : B8 m ρ c (Proc.devRef .tc main_v30) = refNorm (m ((c : Thread nD τ).loc main_arg1)) := (B8_of_ne m ρ c main_v30 (by decide)).trans (nrm7 m ρ c)

/-! ## The layers -/

/-- The first region leaves the product of the features with the first weights. -/
theorem h31 : B4 m ρ c (Proc.devRef .tc main_v31) = refL0 (m ((c : Thread nD τ).loc main_arg0)) (m ((c : Thread nD τ).loc main_arg2)) :=
  ((B4_arr m ρ c 2).trans (MatAV.final0 (U3 m ρ) c)).trans (congrArg₂ refL0 (B3_arg0 m ρ c) (B3_arg2 m ρ c))

/-- The first aggregation. -/
theorem h44 : B5 m ρ c (Proc.devRef .tc main_v44) = refAgg (m ((c : Thread nD τ).loc main_arg1)) (refL0 (m ((c : Thread nD τ).loc main_arg0)) (m ((c : Thread nD τ).loc main_arg2))) :=
  (KHost.agg1 (B4 m ρ c) (m ((c : Thread nD τ).loc main_arg1)) (src4 m ρ c) (dst4 m ρ c) (nrm4 m ρ c)).trans (congrArg (refAgg (m ((c : Thread nD τ).loc main_arg1))) (h31 m ρ c))

/-- The first bias as the one-row matrix the second region stages. -/
theorem hb45 (k : Fin 64) : U5 m ρ c main_v45 (ix2 (0 : Fin 1) k) = (m ((c : Thread nD τ).loc main_arg3)) (ix1 k) :=
  (congrFun (KHost.bias1 (B4 m ρ c)) (ix2 (0 : Fin 1) k)).trans
    ((shapeCast_a_1a_apply _ _ (0 : Fin 1) k).trans (congrFun (B4_arg3 m ρ c) (ix1 k)))

/-- The second region leaves the product of the rectified, biased first aggregate with the second weights. -/
theorem h46 : B6 m ρ c (Proc.devRef .tc main_v46)
    = refL0 (refBiasRelu (refAgg (m ((c : Thread nD τ).loc main_arg1)) (refL0 (m ((c : Thread nD τ).loc main_arg0)) (m ((c : Thread nD τ).loc main_arg2)))) (m ((c : Thread nD τ).loc main_arg3))) (m ((c : Thread nD τ).loc main_arg4)) :=
  ((B6_arr m ρ c 3).trans (MatBV.final1 (U5 m ρ) c (m ((c : Thread nD τ).loc main_arg3)) (hb45 m ρ c))).trans
    (congrArg₂ (fun a w => refL0 (refBiasRelu a (m ((c : Thread nD τ).loc main_arg3))) w) (h44 m ρ c) (B5_arg4 m ρ c))

/-- The second aggregation. -/
theorem h59 : B7 m ρ c (Proc.devRef .tc main_v59)
    = refAgg (m ((c : Thread nD τ).loc main_arg1)) (refL0 (refBiasRelu (refAgg (m ((c : Thread nD τ).loc main_arg1)) (refL0 (m ((c : Thread nD τ).loc main_arg0)) (m ((c : Thread nD τ).loc main_arg2)))) (m ((c : Thread nD τ).loc main_arg3))) (m ((c : Thread nD τ).loc main_arg4))) :=
  (KHost.agg2 (B6 m ρ c) (m ((c : Thread nD τ).loc main_arg1)) (src6 m ρ c) (dst6 m ρ c) (nrm6 m ρ c)).trans (congrArg (refAgg (m ((c : Thread nD τ).loc main_arg1))) (h46 m ρ c))

theorem hb60 (k : Fin 64) : U7 m ρ c main_v60 (ix2 (0 : Fin 1) k) = (m ((c : Thread nD τ).loc main_arg5)) (ix1 k) :=
  (congrFun (KHost.bias2 (B6 m ρ c)) (ix2 (0 : Fin 1) k)).trans
    ((shapeCast_a_1a_apply _ _ (0 : Fin 1) k).trans (congrFun (B6_arg5 m ρ c) (ix1 k)))

/-- The third region. -/
theorem h61 : B8 m ρ c (Proc.devRef .tc main_v61)
    = refL0 (refBiasRelu (refAgg (m ((c : Thread nD τ).loc main_arg1)) (refL0 (refBiasRelu (refAgg (m ((c : Thread nD τ).loc main_arg1)) (refL0 (m ((c : Thread nD τ).loc main_arg0)) (m ((c : Thread nD τ).loc main_arg2)))) (m ((c : Thread nD τ).loc main_arg3))) (m ((c : Thread nD τ).loc main_arg4)))) (m ((c : Thread nD τ).loc main_arg5))) (m ((c : Thread nD τ).loc main_arg6)) :=
  ((B8_arr m ρ c 3).trans (MatCV.final2 (U7 m ρ) c (m ((c : Thread nD τ).loc main_arg5)) (hb60 m ρ c))).trans
    (congrArg₂ (fun a w => refL0 (refBiasRelu a (m ((c : Thread nD τ).loc main_arg5))) w) (h59 m ρ c) (B7_arg6 m ρ c))

/-- The third aggregation. -/
theorem h74 : B9 m ρ c (Proc.devRef .tc main_v74)
    = refAgg (m ((c : Thread nD τ).loc main_arg1)) (refL0 (refBiasRelu (refAgg (m ((c : Thread nD τ).loc main_arg1)) (refL0 (refBiasRelu (refAgg (m ((c : Thread nD τ).loc main_arg1)) (refL0 (m ((c : Thread nD τ).loc main_arg0)) (m ((c : Thread nD τ).loc main_arg2)))) (m ((c : Thread nD τ).loc main_arg3))) (m ((c : Thread nD τ).loc main_arg4)))) (m ((c : Thread nD τ).loc main_arg5))) (m ((c : Thread nD τ).loc main_arg6))) :=
  (KHost.agg3 (B8 m ρ c) (m ((c : Thread nD τ).loc main_arg1)) (src8 m ρ c) (dst8 m ρ c) (nrm8 m ρ c)).trans (congrArg (refAgg (m ((c : Thread nD τ).loc main_arg1))) (h61 m ρ c))

theorem hb75 (k : Fin 64) : U9 m ρ c main_v75 (ix2 (0 : Fin 1) k) = (m ((c : Thread nD τ).loc main_arg7)) (ix1 k) :=
  (congrFun (KHost.bias3 (B8 m ρ c)) (ix2 (0 : Fin 1) k)).trans
    ((shapeCast_a_1a_apply _ _ (0 : Fin 1) k).trans (congrFun (B8_arg7 m ρ c) (ix1 k)))

theorem hl76 (j : Fin 10) : U9 m ρ c main_v76 (ix2 (0 : Fin 1) j) = (m ((c : Thread nD τ).loc main_arg9)) (ix1 j) :=
  (congrFun (KHost.lastBias (B8 m ρ c)) (ix2 (0 : Fin 1) j)).trans
    ((shapeCast_a_1a_apply _ _ (0 : Fin 1) j).trans (congrFun (B8_arg9 m ρ c) (ix1 j)))

/-- THE RESULT: the last region leaves the head of the pooled, biased third aggregate — the reference's composed
    stage functions of the arguments. -/
theorem result : B10 m ρ c (Proc.devRef .tc main_v77)
    = refResult (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  ((B10_arr m ρ c 4).trans (final3 (U9 m ρ) c (m ((c : Thread nD τ).loc main_arg7)) (m ((c : Thread nD τ).loc main_arg9)) (hb75 m ρ c) (hl76 m ρ c))).trans
    (congrArg₂ (fun a w => refHead (refPool (refBias a (m ((c : Thread nD τ).loc main_arg7)))) w (m ((c : Thread nD τ).loc main_arg9))) (h74 m ρ c) (B9_arg8 m ρ c))

/-- The run with the result named: every weakly fair execution terminates with the result buffer at the reference's
    function of the arguments, and the arguments unchanged. -/
theorem run_value : θ_run defs (onTc (τ := τ) (main (F := Ideal))) ⟨m, fun _ => 0, ρ⟩ (fun r => ∀ c : Dev nD,
      r.2.mem ((c.tc : Thread nD τ).loc main_v77) = refResult (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_v77 (by decide))).trans (result m ρ c),
      (h c _ (mem_uc main_arg0 (by decide))).trans (B10_arg0 m ρ c),
      (h c _ (mem_uc main_arg1 (by decide))).trans (B10_arg1 m ρ c),
      (h c _ (mem_uc main_arg2 (by decide))).trans (B10_arg2 m ρ c),
      (h c _ (mem_uc main_arg3 (by decide))).trans (B10_arg3 m ρ c),
      (h c _ (mem_uc main_arg4 (by decide))).trans (B10_arg4 m ρ c),
      (h c _ (mem_uc main_arg5 (by decide))).trans (B10_arg5 m ρ c),
      (h c _ (mem_uc main_arg6 (by decide))).trans (B10_arg6 m ρ c),
      (h c _ (mem_uc main_arg7 (by decide))).trans (B10_arg7 m ρ c),
      (h c _ (mem_uc main_arg8 (by decide))).trans (B10_arg8 m ρ c),
      (h c _ (mem_uc main_arg9 (by decide))).trans (B10_arg9 m ρ c)⟩)
    (run_all m ρ)

end Cert.KernelIdeal.Chain

end
-- ==== Proof.lean ====
/-
  A three-layer graph convolution with sum pooling and a linear head, against its plain reference.

  The kernel program runs four pipelined regions among stretches of host operations. The first region multiplies the
  node features by the first weights, 10000 rows at a time; the second and third add the previous layer's bias to the
  aggregated features, clip at zero and multiply by the next weights, again 10000 rows at a time; the last adds the
  third bias, sums the rows tile by tile into an accumulator, and at the final tile multiplies the accumulated row by
  the head's weights and adds its bias. Between the regions the host gathers the rows of the previous product at the
  edge sources, scales them by the edge weights and scatter-adds them at the edge destinations — the same operations,
  literally, that the reference applies.

  At the ideal instance a change of float format is the identity, so each tiled product is the whole matrix product
  (every row lies in exactly one tile), the bias-and-clip fused into a region is the reference's broadcast add and
  maximum with zero, and the accumulated sum of per-tile column sums is the sum over all rows: regrouping a finite sum
  of extended reals uses only that addition is commutative and associative, so no finiteness of the inputs is needed.
  The result buffer therefore holds the reference's own composition of stage functions of the arguments, which is what
  the reference's run ends with.

  The frames: each program runs to the end without a fault and leaves its arguments as launched — for the two kernel
  programs by following every argument's buffer through the chain of segments, for the reference from its run.
  Nothing was rewritten by the idealization, so the preservation claim is trivial.
-/
import proofs.«113868_j87711822119195_1_alg».proof.Defs
import proofs.«113868_j87711822119195_1_alg».proof.Proof.Gen.Kernel
import proofs.«113868_j87711822119195_1_alg».proof.Proof.Gen.KernelIdeal
import proofs.«113868_j87711822119195_1_alg».proof.Proof.Gen.ReferenceIdeal
import proofs.«113868_j87711822119195_1_alg».proof.Proof.Gen.Pre_finite_inputs
import proofs.«113868_j87711822119195_1_alg».proof.Proof.BFrameK
import proofs.«113868_j87711822119195_1_alg».proof.Proof.FrameK
import proofs.«113868_j87711822119195_1_alg».proof.Proof.KValue
import proofs.«113868_j87711822119195_1_alg».proof.Proof.RefRun
import proofs.«113868_j87711822119195_1_alg».proof.Proof.RefResult
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Chain.frame m ρ

/-- So does the idealized kernel program. -/
theorem frame_kernel_ideal : Cert.frame_KernelIdeal := fun m ρ _ => Cert.KernelIdeal.Chain.frame m ρ

/-- The reference's frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments both programs end with the same result: the kernel's result buffer holds
    the reference's composed stage functions of its arguments, and the reference's run ends with the same functions of
    its own, equal, arguments. -/
theorem algebraic : Cert.algebraic_KernelIdeal_ReferenceIdeal := by
  intro m ρ m' ρ' _ hagree
  refine ⟨_, Cert.KernelIdeal.Chain.run_value m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8, e9⟩ := hagree c
  rw [Cert.RefSide.ref_result', e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
